-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S200000x19 : Shape := ⟨2, ![200000, 19]⟩
abbrev S2000000x1 : Shape := ⟨2, ![2000000, 1]⟩
abbrev S2x2000000 : Shape := ⟨2, ![2, 2000000]⟩
abbrev S5 : Shape := ⟨1, ![5]⟩
abbrev S5x64 : Shape := ⟨2, ![5, 64]⟩
abbrev S64 : Shape := ⟨1, ![64]⟩
abbrev S64x64 : Shape := ⟨2, ![64, 64]⟩
abbrev S19 : Shape := ⟨1, ![19]⟩
abbrev S19x64 : Shape := ⟨2, ![19, 64]⟩
abbrev S1 : Shape := ⟨1, ![1]⟩
abbrev S2x2x64x64 : Shape := ⟨4, ![2, 2, 64, 64]⟩
abbrev S2x2x64 : Shape := ⟨3, ![2, 2, 64]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S200000x19 : S_.BroadcastsInDim S200000x19 (![] : Fin 0 → Fin S200000x19.rank)
  reducesTo_S200000x19_S_d0_1 : S200000x19.ReducesTo [0, 1] S_
  bcast_S_S2000000x1 : S_.BroadcastsInDim S2000000x1 (![] : Fin 0 → Fin S2000000x1.rank)
  reducesTo_S2000000x1_S_d0_1 : S2000000x1.ReducesTo [0, 1] S_
  bcast_S_S5 : S_.BroadcastsInDim S5 (![] : Fin 0 → Fin S5.rank)
  reducesTo_S5_S_d0 : S5.ReducesTo [0] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S19 : S_.BroadcastsInDim S19 (![] : Fin 0 → Fin S19.rank)
  reducesTo_S19_S_d0 : S19.ReducesTo [0] S_
  bcast_S_S19x64 : S_.BroadcastsInDim S19x64 (![] : Fin 0 → Fin S19x64.rank)
  reducesTo_S19x64_S_d0_1 : S19x64.ReducesTo [0, 1] S_
  bcast_S_S1 : S_.BroadcastsInDim S1 (![] : Fin 0 → Fin S1.rank)
  reducesTo_S1_S_d0 : S1.ReducesTo [0] S_
  bcast_S_S2x2x64x64 : S_.BroadcastsInDim S2x2x64x64 (![] : Fin 0 → Fin S2x2x64x64.rank)
  reducesTo_S2x2x64x64_S_d0_1_2_3 : S2x2x64x64.ReducesTo [0, 1, 2, 3] S_
  bcast_S_S2x2x64 : S_.BroadcastsInDim S2x2x64 (![] : Fin 0 → Fin S2x2x64.rank)
  reducesTo_S2x2x64_S_d0_1_2 : S2x2x64.ReducesTo [0, 1, 2] S_

variable [Facts]

def fn_part5 {F : FTy → Type} [FloatOps F] (main_arg19 : FVec F S2x2x64 .f32) (main_arg20 : FVec F S2x2x64x64 .f32) (main_v83 : IVec S_ 1) (main_v84 : FVec F S2x2x64x64 .f32) (main_cst_32 : FVec F S_ .f32) : IVec S_ 1 :=
  let main_v85 : FVec F S2x2x64x64 .f32 := broadcastInDim S2x2x64x64 ![] bcast_S_S2x2x64x64 main_cst_32
  let main_v86 : IVec S2x2x64x64 1 := cmpf .olt main_v84 main_v85
  let main_c_33 : IVec S_ 1 := constantI S_ 1 1#1
  let main_v87 : IVec S_ 1 := (fun x v => Host.reduce IntOp.andi x v reducesTo_S2x2x64x64_S_d0_1_2_3 h_S_) main_v86 main_c_33
  let main_v88 : IVec S_ 1 := andi main_v83 main_v87
  let main_v89 : FVec F S2x2x64 .f32 := Host.absf main_arg19
  let main_cst_34 : FVec F S_ .f32 := constant S_ .f32 0x7F800000#32
  let main_v90 : FVec F S2x2x64 .f32 := broadcastInDim S2x2x64 ![] bcast_S_S2x2x64 main_cst_34
  let main_v91 : IVec S2x2x64 1 := cmpf .olt main_v89 main_v90
  let main_c_35 : IVec S_ 1 := constantI S_ 1 1#1
  let main_v92 : IVec S_ 1 := (fun x v => Host.reduce IntOp.andi x v reducesTo_S2x2x64_S_d0_1_2 h_S_) main_v91 main_c_35
  let main_v93 : IVec S_ 1 := andi main_v88 main_v92
  let main_v94 : FVec F S2x2x64x64 .f32 := Host.absf main_arg20
  let main_cst_36 : FVec F S_ .f32 := constant S_ .f32 0x7F800000#32
  let main_v95 : FVec F S2x2x64x64 .f32 := broadcastInDim S2x2x64x64 ![] bcast_S_S2x2x64x64 main_cst_36
  let main_v96 : IVec S2x2x64x64 1 := cmpf .olt main_v94 main_v95
  let main_c_37 : IVec S_ 1 := constantI S_ 1 1#1
  let main_v97 : IVec S_ 1 := (fun x v => Host.reduce IntOp.andi x v reducesTo_S2x2x64x64_S_d0_1_2_3 h_S_) main_v96 main_c_37
  let main_v98 : IVec S_ 1 := andi main_v93 main_v97
  main_v98

def fn_part4 {F : FTy → Type} [FloatOps F] (main_arg15 : FVec F S64 .f32) (main_arg16 : FVec F S1 .f32) (main_arg17 : FVec F S1 .f32) (main_arg18 : FVec F S2x2x64x64 .f32) (main_arg19 : FVec F S2x2x64 .f32) (main_arg20 : FVec F S2x2x64x64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S2x2x64x64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S19x64 .f32) (main_arg13 : FVec F S64 .f32) (main_arg14 : FVec F S64x64 .f32) (main_arg15 : FVec F S64 .f32) (main_arg16 : FVec F S1 .f32) (main_arg17 : FVec F S1 .f32) (main_arg18 : FVec F S2x2x64x64 .f32) (main_arg19 : FVec F S2x2x64 .f32) (main_arg20 : FVec F S2x2x64x64 .f32) (main_v48 : IVec S_ 1) (main_v49 : FVec F S19 .f32) (main_v50 : FVec F S19 .f32) : IVec S_ 1 :=
  let main_v51 : IVec S19 1 := cmpf .olt main_v49 main_v50
  let main_c_19 : IVec S_ 1 := constantI S_ 1 1#1
  let main_v52 : IVec S_ 1 := (fun x v => Host.reduce IntOp.andi x v reducesTo_S19_S_d0 h_S_) main_v51 main_c_19
  let main_v53 : IVec S_ 1 := andi main_v48 main_v52
  let main_v54 : FVec F S19x64 .f32 := Host.absf main_arg12
  let main_cst_20 : FVec F S_ .f32 := constant S_ .f32 0x7F800000#32
  let main_v55 : FVec F S19x64 .f32 := broadcastInDim S19x64 ![] bcast_S_S19x64 main_cst_20
  let main_v56 : IVec S19x64 1 := cmpf .olt main_v54 main_v55
  let main_c_21 : IVec S_ 1 := constantI S_ 1 1#1
  let main_v57 : IVec S_ 1 := (fun x v => Host.reduce IntOp.andi x v reducesTo_S19x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_arg20 main_v63 main_v67

def fn_part2 {F : FTy → Type} [FloatOps F] (main_arg8 : FVec F S64x64 .f32) (main_arg9 : FVec F S64 .f32) (main_arg10 : FVec F S19 .f32) (main_arg11 : FVec F S19 .f32) (main_arg12 : FVec F S19x64 .f32) (main_arg13 : FVec F S64 .f32) (main_arg14 : FVec F S64x64 .f32) (main_arg15 : FVec F S64 .f32) (main_arg16 : FVec F S1 .f32) (main_arg17 : FVec F S1 .f32) (main_arg18 : FVec F S2x2x64x64 .f32) (main_arg19 : FVec F S2x2x64 .f32) (main_arg20 : FVec F S2x2x64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S19 .f32 := Host.absf main_arg10
  let main_cst_16 : FVec F S_ .f32 := constant S_ .f32 0x7F800000#32
  let main_v45 : FVec F S19 .f32 := broadcastInDim S19 ![] bcast_S_S19 main_cst_16
  let main_v46 : IVec S19 1 := cmpf .olt main_v44 main_v45
  let main_c_17 : IVec S_ 1 := constantI S_ 1 1#1
  let main_v47 : IVec S_ 1 := (fun x v => Host.reduce IntOp.andi x v reducesTo_S19_S_d0 h_S_) main_v46 main_c_17
  let main_v48 : IVec S_ 1 := andi main_v43 main_v47
  let main_v49 : FVec F S19 .f32 := Host.absf main_arg11
  let main_cst_18 : FVec F S_ .f32 := constant S_ .f32 0x7F800000#32
  let main_v50 : FVec F S19 .f32 := broadcastInDim S19 ![] bcast_S_S19 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S5 .f32) (main_arg6 : FVec F S5x64 .f32) (main_arg7 : FVec F S64 .f32) (main_arg8 : FVec F S64x64 .f32) (main_arg9 : FVec F S64 .f32) (main_arg10 : FVec F S19 .f32) (main_arg11 : FVec F S19 .f32) (main_arg12 : FVec F S19x64 .f32) (main_arg13 : FVec F S64 .f32) (main_arg14 : FVec F S64x64 .f32) (main_arg15 : FVec F S64 .f32) (main_arg16 : FVec F S1 .f32) (main_arg17 : FVec F S1 .f32) (main_arg18 : FVec F S2x2x64x64 .f32) (main_arg19 : FVec F S2x2x64 .f32) (main_arg20 : FVec F S2x2x64x64 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x64 .f32 := Host.absf main_arg6
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x5 .f32) (main_arg1 : FVec F S200000x19 .f32) (main_arg2 : FVec F S2000000x1 .f32) (main_arg3 : IVec S2x2000000 32) (main_arg4 : FVec F S5 .f32) (main_arg5 : FVec F S5 .f32) (main_arg6 : FVec F S5x64 .f32) (main_arg7 : FVec F S64 .f32) (main_arg8 : FVec F S64x64 .f32) (main_arg9 : FVec F S64 .f32) (main_arg10 : FVec F S19 .f32) (main_arg11 : FVec F S19 .f32) (main_arg12 : FVec F S19x64 .f32) (main_arg13 : FVec F S64 .f32) (main_arg14 : FVec F S64x64 .f32) (main_arg15 : FVec F S64 .f32) (main_arg16 : FVec F S1 .f32) (main_arg17 : FVec F S1 .f32) (main_arg18 : FVec F S2x2x64x64 .f32) (main_arg19 : FVec F S2x2x64 .f32) (main_arg20 : FVec F S2x2x64x64 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S200000x19 .f32 := Host.absf main_arg1
  let main_cst_0 : FVec F S_ .f32 := constant S_ .f32 0x7F800000#32
  let main_v5 : FVec F S200000x19 .f32 := broadcastInDim S200000x19 ![] bcast_S_S200000x19 main_cst_0
  let main_v6 : IVec S200000x19 1 := cmpf .olt main_v4 main_v5
  let main_c_1 : IVec S_ 1 := constantI S_ 1 1#1
  let main_v7 : IVec S_ 1 := (fun x v => Host.reduce IntOp.andi x v reducesTo_S200000x19_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S5 .f32 := Host.absf main_arg4
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x5 : Shape := ⟨2, ![100000, 5]⟩
abbrev S200000x19 : Shape := ⟨2, ![200000, 19]⟩
abbrev S2000000x1 : Shape := ⟨2, ![2000000, 1]⟩
abbrev S2x2000000 : Shape := ⟨2, ![2, 2000000]⟩
abbrev S5 : Shape := ⟨1, ![5]⟩
abbrev S5x64 : Shape := ⟨2, ![5, 64]⟩
abbrev S64 : Shape := ⟨1, ![64]⟩
abbrev S64x64 : Shape := ⟨2, ![64, 64]⟩
abbrev S19 : Shape := ⟨1, ![19]⟩
abbrev S19x64 : Shape := ⟨2, ![19, 64]⟩
abbrev S1 : Shape := ⟨1, ![1]⟩
abbrev S2x2x64x64 : Shape := ⟨4, ![2, 2, 64, 64]⟩
abbrev S2x2x64 : Shape := ⟨3, ![2, 2, 64]⟩
abbrev S1x5 : Shape := ⟨2, ![1, 5]⟩
abbrev S1x64 : Shape := ⟨2, ![1, 64]⟩
abbrev S100000x64 : Shape := ⟨2, ![100000, 64]⟩
abbrev S10000x5 : Shape := ⟨2, ![10000, 5]⟩
abbrev S10000x64 : Shape := ⟨2, ![10000, 64]⟩
abbrev S1x19 : Shape := ⟨2, ![1, 19]⟩
abbrev S200000x64 : Shape := ⟨2, ![200000, 64]⟩
abbrev S10000x19 : Shape := ⟨2, ![10000, 19]⟩
abbrev S1x2000000 : Shape := ⟨2, ![1, 2000000]⟩
abbrev S2000000 : Shape := ⟨1, ![2000000]⟩
abbrev S_ : Shape := ⟨0, ![]⟩
abbrev S200000 : Shape := ⟨1, ![200000]⟩
abbrev S100000 : Shape := ⟨1, ![100000]⟩
abbrev S200000x1 : Shape := ⟨2, ![200000, 1]⟩
abbrev S100000x1 : Shape := ⟨2, ![100000, 1]⟩
abbrev S1x1x64x64 : Shape := ⟨4, ![1, 1, 64, 64]⟩
abbrev S1x1x64 : Shape := ⟨3, ![1, 1, 64]⟩
abbrev S2000000x64 : Shape := ⟨2, ![2000000, 64]⟩
abbrev S16000x64 : Shape := ⟨2, ![16000, 64]⟩

abbrev nBuf : Space → Nat
  | .hbm => 155
  | .vmem => 72
  | .smem => 0
  | _ => 0

abbrev hbmTy0_0 (i : Nat) : BufTy := match i % 128 with
  | 0 => ⟨S100000x5, .f32⟩
  | 1 => ⟨S200000x19, .f32⟩
  | 2 => ⟨S2000000x1, .f32⟩
  | 3 => ⟨S2x2000000, .i32⟩
  | 4 => ⟨S5, .f32⟩
  | 5 => ⟨S5, .f32⟩
  | 6 => ⟨S5x64, .f32⟩
  | 7 => ⟨S64, .f32⟩
  | 8 => ⟨S64x64, .f32⟩
  | 9 => ⟨S64, .f32⟩
  | 10 => ⟨S19, .f32⟩
  | 11 => ⟨S19, .f32⟩
  | 12 => ⟨S19x64, .f32⟩
  | 13 => ⟨S64, .f32⟩
  | 14 => ⟨S64x64, .f32⟩
  | 15 => ⟨S64, .f32⟩
  | 16 => ⟨S1, .f32⟩
  | 17 => ⟨S1, .f32⟩
  | 18 => ⟨S2x2x64x64, .f32⟩
  | 19 => ⟨S2x2x64, .f32⟩
  | 20 => ⟨S2x2x64x64, .f32⟩
  | 21 => ⟨S1x5, .f32⟩
  | 22 => ⟨S1x5, .f32⟩
  | 23 => ⟨S1x64, .f32⟩
  | 24 => ⟨S1x64, .f32⟩
  | 25 => ⟨S100000x64, .f32⟩
  | 26 => ⟨S1x19, .f32⟩
  | 27 => ⟨S1x19, .f32⟩
  | 28 => ⟨S1x64, .f32⟩
  | 29 => ⟨S1x64, .f32⟩
  | 30 => ⟨S200000x64, .f32⟩
  | 31 => ⟨S1x2000000, .i32⟩
  | 32 => ⟨S2000000, .i32⟩
  | 33 => ⟨S1x2000000, .i32⟩
  | 34 => ⟨S2000000, .i32⟩
  | 35 => ⟨S_, .f32⟩
  | 36 => ⟨S2000000, .f32⟩
  | 37 => ⟨S_, .f32⟩
  | 38 => ⟨S200000, .f32⟩
  | 39 => ⟨S2000000x1, .i32⟩
  | 40 => ⟨S200000, .f32⟩
  | 41 => ⟨S_, .f32⟩
  | 42 => ⟨S100000, .f32⟩
  | 43 => ⟨S2000000x1, .i32⟩
  | 44 => ⟨S100000, .f32⟩
  | 45 => ⟨S_, .f32⟩
  | 46 => ⟨S200000, .f32⟩
  | 47 => ⟨S200000, .f32⟩
  | 48 => ⟨S_, .f32⟩
  | 49 => ⟨S200000, .f32⟩
  | 50 => ⟨S200000, .f32⟩
  | 51 => ⟨S200000x1, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .f32⟩
  | 58 => ⟨S100000x1, .f32⟩
  | 59 => ⟨S1x1x64x64, .f32⟩
  | 60 => ⟨S64x64, .f32⟩
  | 61 => ⟨S1x1x64, .f32⟩
  | 62 => ⟨S64, .f32⟩
  | 63 => ⟨S1x1x64x64, .f32⟩
  | 64 => ⟨S64x64, .f32⟩
  | 65 => ⟨S1x1x64x64, .f32⟩
  | 66 => ⟨S64x64, .f32⟩
  | 67 => ⟨S1x1x64, .f32⟩
  | 68 => ⟨S64, .f32⟩
  | 69 => ⟨S1x1x64x64, .f32⟩
  | 70 => ⟨S64x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S_, .f32⟩
  | 82 => ⟨S200000x64, .f32⟩
  | 83 => ⟨S2000000x1, .i32⟩
  | 84 => ⟨S200000x64, .f32⟩
  | 85 => ⟨S200000x64, .f32⟩
  | 86 => ⟨S200000x64, .f32⟩
  | 87 => ⟨S1x64, .f32⟩
  | 88 => ⟨S200000x64, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x64, .f32⟩
  | 98 => ⟨S2000000x64, .f32⟩
  | 99 => ⟨S_, .f32⟩
  | 100 => ⟨S100000x64, .f32⟩
  | 101 => ⟨S2000000x1, .i32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S1x1x64x64, .f32⟩
  | 108 => ⟨S64x64, .f32⟩
  | 109 => ⟨S1x1x64, .f32⟩
  | 110 => ⟨S64, .f32⟩
  | 111 => ⟨S1x1x64x64, .f32⟩
  | 112 => ⟨S64x64, .f32⟩
  | 113 => ⟨S1x1x64x64, .f32⟩
  | 114 => ⟨S64x64, .f32⟩
  | 115 => ⟨S1x1x64, .f32⟩
  | 116 => ⟨S64, .f32⟩
  | 117 => ⟨S1x1x64x64, .f32⟩
  | 118 => ⟨S64x64, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S100000x5, .f32⟩

abbrev hbmTy0_1 (i : Nat) : BufTy := match i % 128 with
  | 0 => ⟨S2000000x64, .f32⟩
  | 1 => ⟨S_, .f32⟩
  | 2 => ⟨S200000x64, .f32⟩
  | 3 => ⟨S2000000x1, .i32⟩
  | 4 => ⟨S200000x64, .f32⟩
  | 5 => ⟨S200000x64, .f32⟩
  | 6 => ⟨S200000x64, .f32⟩
  | 7 => ⟨S1x64, .f32⟩
  | 8 => ⟨S200000x64, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x64, .f32⟩
  | 18 => ⟨S2000000x64, .f32⟩
  | 19 => ⟨S_, .f32⟩
  | 20 => ⟨S100000x64, .f32⟩
  | 21 => ⟨S2000000x1, .i32⟩
  | 22 => ⟨S100000x64, .f32⟩
  | 23 => ⟨S100000x64, .f32⟩
  | 24 => ⟨S100000x64, .f32⟩
  | 25 => ⟨S1x64, .f32⟩
  | 26 => ⟨S100000x64, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S10000x5, .f32⟩
  | .local _ .vmem, ⟨1, _⟩ => ⟨S10000x5, .f32⟩
  | .local _ .vmem, ⟨2, _⟩ => ⟨S1x5, .f32⟩
  | .local _ .vmem, ⟨3, _⟩ => ⟨S1x5, .f32⟩
  | .local _ .vmem, ⟨4, _⟩ => ⟨S5x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x19, .f32⟩
  | .local _ .vmem, ⟨11, _⟩ => ⟨S10000x19, .f32⟩
  | .local _ .vmem, ⟨12, _⟩ => ⟨S1x19, .f32⟩
  | .local _ .vmem, ⟨13, _⟩ => ⟨S1x19, .f32⟩
  | .local _ .vmem, ⟨14, _⟩ => ⟨S19x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S16000x64, .f32⟩
  | .local _ .vmem, ⟨21, _⟩ => ⟨S16000x64, .f32⟩
  | .local _ .vmem, ⟨22, _⟩ => ⟨S64x64, .f32⟩
  | .local _ .vmem, ⟨23, _⟩ => ⟨S16000x64, .f32⟩
  | .local _ .vmem, ⟨24, _⟩ => ⟨S16000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S16000x64, .f32⟩
  | .local _ .vmem, ⟨34, _⟩ => ⟨S16000x64, .f32⟩
  | .local _ .vmem, ⟨35, _⟩ => ⟨S64x64, .f32⟩
  | .local _ .vmem, ⟨36, _⟩ => ⟨S16000x64, .f32⟩
  | .local _ .vmem, ⟨37, _⟩ => ⟨S16000x64, .f32⟩
  | .local _ .vmem, ⟨38, _⟩ => ⟨S10000x64, .f32⟩
  | .local _ .vmem, ⟨39, _⟩ => ⟨S10000x64, .f32⟩
  | .local _ .vmem, ⟨40, _⟩ => ⟨S1x64, .f32⟩
  | .local _ .vmem, ⟨41, _⟩ => ⟨S10000x64, .f32⟩
  | .local _ .vmem, ⟨42, _⟩ => ⟨S10000x64, .f32⟩
  | .local _ .vmem, ⟨43, _⟩ => ⟨S64x64, .f32⟩
  | .local _ .vmem, ⟨44, _⟩ => ⟨S10000x64, .f32⟩
  | .local _ .vmem, ⟨45, _⟩ => ⟨S10000x64, .f32⟩
  | .local _ .vmem, ⟨46, _⟩ => ⟨S16000x64, .f32⟩
  | .local _ .vmem, ⟨47, _⟩ => ⟨S16000x64, .f32⟩
  | .local _ .vmem, ⟨48, _⟩ => ⟨S64x64, .f32⟩
  | .local _ .vmem, ⟨49, _⟩ => ⟨S16000x64, .f32⟩
  | .local _ .vmem, ⟨50, _⟩ => ⟨S16000x64, .f32⟩
  | .local _ .vmem, ⟨51, _⟩ => ⟨S10000x64, .f32⟩
  | .local _ .vmem, ⟨52, _⟩ => ⟨S10000x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S64x64, .f32⟩
  | .local _ .vmem, ⟨57, _⟩ => ⟨S10000x64, .f32⟩
  | .local _ .vmem, ⟨58, _⟩ => ⟨S10000x64, .f32⟩
  | .local _ .vmem, ⟨59, _⟩ => ⟨S16000x64, .f32⟩
  | .local _ .vmem, ⟨60, _⟩ => ⟨S16000x64, .f32⟩
  | .local _ .vmem, ⟨61, _⟩ => ⟨S64x64, .f32⟩
  | .local _ .vmem, ⟨62, _⟩ => ⟨S16000x64, .f32⟩
  | .local _ .vmem, ⟨63, _⟩ => ⟨S16000x64, .f32⟩
  | .local _ .vmem, ⟨64, _⟩ => ⟨S10000x64, .f32⟩
  | .local _ .vmem, ⟨65, _⟩ => ⟨S10000x64, .f32⟩
  | .local _ .vmem, ⟨66, _⟩ => ⟨S1x64, .f32⟩
  | .local _ .vmem, ⟨67, _⟩ => ⟨S10000x64, .f32⟩
  | .local _ .vmem, ⟨68, _⟩ => ⟨S10000x64, .f32⟩
  | .local _ .vmem, ⟨69, _⟩ => ⟨S64x64, .f32⟩
  | .local _ .vmem, ⟨70, _⟩ => ⟨S10000x64, .f32⟩
  | .local _ .vmem, ⟨71, _⟩ => ⟨S10000x64, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_8 : Ref sig .tc := ⟨.hbm, 89, rfl⟩
abbrev main_v58 : Ref sig .tc := ⟨.hbm, 90, rfl⟩
abbrev main_v59 : Ref sig .tc := ⟨.hbm, 91, rfl⟩
abbrev main_c_9 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_11 : Ref sig .tc := ⟨.hbm, 119, rfl⟩
abbrev main_v85 : Ref sig .tc := ⟨.hbm, 120, rfl⟩
abbrev main_v86 : Ref sig .tc := ⟨.hbm, 121, rfl⟩
abbrev main_c_12 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_13 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_14 : Ref sig .tc := ⟨.hbm, 137, rfl⟩
abbrev main_v100 : Ref sig .tc := ⟨.hbm, 138, rfl⟩
abbrev main_v101 : Ref sig .tc := ⟨.hbm, 139, rfl⟩
abbrev main_c_15 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_16 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg4_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg2_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg2_1 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc7_sem3_0 : DmaSem sig := 56
abbrev cc7_sem4_0 : DmaSem sig := 57
abbrev cc7_sem4_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem2_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem2_1 : DmaSem sig := 68
abbrev cc9_sem3_0 : DmaSem sig := 69
abbrev cc9_sem4_0 : DmaSem sig := 70
abbrev cc9_sem4_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x19 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x19 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x19 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S19x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S16000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S16000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S16000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  shapeCasts_S5_S1x5 : S5.ShapeCasts S1x5
  shapeCasts_S64_S1x64 : S64.ShapeCasts S1x64
  inb_S10000x5_S10000x5_0_0 : ∀ a, (![0, 0] : Fin 2 → Nat) a + S10000x5.size a ≤ S10000x5.size a
  h_S10000x5 : 0 < S10000x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  shapeCasts_S19_S1x19 : S19.ShapeCasts S1x19
  inb_S10000x19_S10000x19_0_0 : ∀ a, (![0, 0] : Fin 2 → Nat) a + S10000x19.size a ≤ S10000x19.size a
  h_S10000x19 : 0 < S10000x19.numel
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S10000x19 : S1x19.Broadcasts S10000x19
  inb_S19x64_S19x64_0_0 : ∀ a, (![0, 0] : Fin 2 → Nat) a + S19x64.size a ≤ S19x64.size a
  h_S19x64 : 0 < S19x64.numel
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S200000_S200000x1_0 : S200000.BroadcastsInDim S200000x1 (![0] : Fin 1 → Fin S200000x1.rank)
  bcast_S100000_S100000x1_0 : S100000.BroadcastsInDim S100000x1 (![0] : Fin 1 → Fin S100000x1.rank)
  slices_S2x2x64x64_S1x1x64x64_0_0_0_0 : S2x2x64x64.Slices ![0, 0, 0, 0] S1x1x64x64
  shapeCasts_S1x1x64x64_S64x64 : S1x1x64x64.ShapeCasts S64x64
  slices_S2x2x64_S1x1x64_0_0_0 : S2x2x64.Slices ![0, 0, 0] S1x1x64
  shapeCasts_S1x1x64_S64 : S1x1x64.ShapeCasts S64
  slices_S2x2x64x64_S1x1x64x64_0_1_0_0 : S2x2x64x64.Slices ![0, 1, 0, 0] S1x1x64x64
  slices_S2x2x64_S1x1x64_0_1_0 : S2x2x64.Slices ![0, 1, 0] S1x1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  shapeCasts_S64x64_S64x64 : S64x64.ShapeCasts S64x64
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  shapeCasts_S10000x64_S10000x64 : S10000x64.ShapeCasts S10000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x2x64x64_S1x1x64x64_1_0_0_0 : S2x2x64x64.Slices ![1, 0, 0, 0] S1x1x64x64
  slices_S2x2x64_S1x1x64_1_0_0 : S2x2x64.Slices ![1, 0, 0] S1x1x64
  slices_S2x2x64x64_S1x1x64x64_1_1_0_0 : S2x2x64x64.Slices ![1, 1, 0, 0] S1x1x64x64
  slices_S2x2x64_S1x1x64_1_1_0 : S2x2x64.Slices ![1, 1, 0] S1x1x64
  dot_S10000x5_S5x64_S10000x64_1_0_0_1_n_n_wf : DotDims.WF S10000x5 S5x64 S10000x64 [1] [0] [0] [1] [] []
  dot_S10000x64_S64x64_S10000x64_1_0_0_1_n_n_wf : DotDims.WF S10000x64 S64x64 S10000x64 [1] [0] [0] [1] [] []
  dot_S10000x19_S19x64_S10000x64_1_0_0_1_n_n_wf : DotDims.WF S10000x19 S19x64 S10000x64 [1] [0] [0] [1] [] []
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  dot_S16000x64_S64x64_S16000x64_1_0_0_1_n_n_wf : DotDims.WF S16000x64 S64x64 S16000x64 [1] [0] [0] [1] [] []
  scatter_S200000x64_S2000000x1_S2000000x64_1_0_0_1_wf : ScatterDims.WF S200000x64 S2000000x1 S2000000x64 [1] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64.size a ≤ S5x64.size a
  hwx0_3 : ∀ i : grid0.Coords, EltTy.bits .f32 = 32 ∨ (Rect.block (s := S5x64) S5x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x19.size a ≤ S200000x19.size a
  hwx1_0 : ∀ i : grid1.Coords, EltTy.bits .f32 = 32 ∨ (Rect.block (s := S200000x19) S10000x19.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x19.size a ≤ S1x19.size a
  hwx1_1 : ∀ i : grid1.Coords, EltTy.bits .f32 = 32 ∨ (Rect.block (s := S1x19) S1x19.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x19.size a ≤ S1x19.size a
  hwx1_2 : ∀ i : grid1.Coords, EltTy.bits .f32 = 32 ∨ (Rect.block (s := S1x19) S1x19.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S19x64.size a ≤ S19x64.size a
  hwx1_3 : ∀ i : grid1.Coords, EltTy.bits .f32 = 32 ∨ (Rect.block (s := S19x64) S19x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S200000x64.size a
  hwx1_7 : ∀ i : grid1.Coords, EltTy.bits .f32 = 32 ∨ (Rect.block (s := S200000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S2000000x64.size a
  hwx2_0 : ∀ i : grid2.Coords, EltTy.bits .f32 = 32 ∨ (Rect.block (s := S2000000x64) S16000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S2000000x64.size a
  hwx2_2 : ∀ i : grid2.Coords, EltTy.bits .f32 = 32 ∨ (Rect.block (s := S2000000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S200000x64.size a
  hwx3_2 : ∀ i : grid3.Coords, EltTy.bits .f32 = 32 ∨ (Rect.block (s := S200000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S200000x64.size a
  hwx3_4 : ∀ i : grid3.Coords, EltTy.bits .f32 = 32 ∨ (Rect.block (s := S200000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x64.size a ≤ S2000000x64.size a
  hwx4_0 : ∀ i : grid4.Coords, EltTy.bits .f32 = 32 ∨ (Rect.block (s := S2000000x64) S16000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16000x64.size a ≤ S2000000x64.size a
  hwx4_2 : ∀ i : grid4.Coords, EltTy.bits .f32 = 32 ∨ (Rect.block (s := S2000000x64) S16000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16000x64.size a ≤ S2000000x64.size a
  hwx6_0 : ∀ i : grid6.Coords, EltTy.bits .f32 = 32 ∨ (Rect.block (s := S2000000x64) S16000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S16000x64.size a ≤ S2000000x64.size a
  hwx6_2 : ∀ i : grid6.Coords, EltTy.bits .f32 = 32 ∨ (Rect.block (s := S2000000x64) S16000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S200000x64.size a
  hwx7_0 : ∀ i : grid7.Coords, EltTy.bits .f32 = 32 ∨ (Rect.block (s := S200000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S200000x64.size a
  hwx7_2 : ∀ i : grid7.Coords, EltTy.bits .f32 = 32 ∨ (Rect.block (s := S200000x64) S10000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S200000x64.size a
  hwx7_4 : ∀ i : grid7.Coords, EltTy.bits .f32 = 32 ∨ (Rect.block (s := S200000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S16000x64.size a ≤ S2000000x64.size a
  hwx8_0 : ∀ i : grid8.Coords, EltTy.bits .f32 = 32 ∨ (Rect.block (s := S2000000x64) S16000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S16000x64.size a ≤ S2000000x64.size a
  hwx8_2 : ∀ i : grid8.Coords, EltTy.bits .f32 = 32 ∨ (Rect.block (s := S2000000x64) S16000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x64.size a ≤ S100000x64.size a
  hwx9_4 : ∀ i : grid9.Coords, EltTy.bits .f32 = 32 ∨ (Rect.block (s := S100000x64) S10000x64.size (cc9_transform_4 i) (hinb9_4 i)).WholeWords (EltTy.packing .f32)

variable [Facts₀]

def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x19_S19x64_S10000x64_1_0_0_1_n_n : DotDims S10000x19 S19x64 S10000x64 where
  lhsContracting := [1]
  rhsContracting := [0]
  lhsNonContracting := [0]
  rhsNonContracting := [1]
  lhsBatch := []
  rhsBatch := []
  wf := dot_S10000x19_S19x64_S10000x64_1_0_0_1_n_n_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S5x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S10000x19.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x19.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x19.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S19x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v49) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S16000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S16000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v42) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v91) S16000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S16000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v57) S10000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v78) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v106) S16000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S16000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v112) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v113) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v72) S10000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v84) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v114) S10000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x5 : Shape := ⟨2, ![100000, 5]⟩
abbrev S200000x19 : Shape := ⟨2, ![200000, 19]⟩
abbrev S2000000x1 : Shape := ⟨2, ![2000000, 1]⟩
abbrev S2x2000000 : Shape := ⟨2, ![2, 2000000]⟩
abbrev S5 : Shape := ⟨1, ![5]⟩
abbrev S5x64 : Shape := ⟨2, ![5, 64]⟩
abbrev S64 : Shape := ⟨1, ![64]⟩
abbrev S64x64 : Shape := ⟨2, ![64, 64]⟩
abbrev S19 : Shape := ⟨1, ![19]⟩
abbrev S19x64 : Shape := ⟨2, ![19, 64]⟩
abbrev S1 : Shape := ⟨1, ![1]⟩
abbrev S2x2x64x64 : Shape := ⟨4, ![2, 2, 64, 64]⟩
abbrev S2x2x64 : Shape := ⟨3, ![2, 2, 64]⟩
abbrev S1x5 : Shape := ⟨2, ![1, 5]⟩
abbrev S100000x64 : Shape := ⟨2, ![100000, 64]⟩
abbrev S1x64 : Shape := ⟨2, ![1, 64]⟩
abbrev S_ : Shape := ⟨0, ![]⟩
abbrev S1x19 : Shape := ⟨2, ![1, 19]⟩
abbrev S200000x64 : Shape := ⟨2, ![200000, 64]⟩
abbrev S1x1 : Shape := ⟨2, ![1, 1]⟩
abbrev S1x2000000 : Shape := ⟨2, ![1, 2000000]⟩
abbrev S2000000 : Shape := ⟨1, ![2000000]⟩
abbrev S1x1x64x64 : Shape := ⟨4, ![1, 1, 64, 64]⟩
abbrev S1x1x64 : Shape := ⟨3, ![1, 1, 64]⟩
abbrev S2000000x64 : Shape := ⟨2, ![2000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩

abbrev nBuf : Space → Nat
  | .hbm => 231
  | .vmem => 0
  | .smem => 0
  | _ => 0

abbrev hbmTy0_0 (i : Nat) : BufTy := match i % 128 with
  | 0 => ⟨S100000x5, .f32⟩
  | 1 => ⟨S200000x19, .f32⟩
  | 2 => ⟨S2000000x1, .f32⟩
  | 3 => ⟨S2x2000000, .i32⟩
  | 4 => ⟨S5, .f32⟩
  | 5 => ⟨S5, .f32⟩
  | 6 => ⟨S5x64, .f32⟩
  | 7 => ⟨S64, .f32⟩
  | 8 => ⟨S64x64, .f32⟩
  | 9 => ⟨S64, .f32⟩
  | 10 => ⟨S19, .f32⟩
  | 11 => ⟨S19, .f32⟩
  | 12 => ⟨S19x64, .f32⟩
  | 13 => ⟨S64, .f32⟩
  | 14 => ⟨S64x64, .f32⟩
  | 15 => ⟨S64, .f32⟩
  | 16 => ⟨S1, .f32⟩
  | 17 => ⟨S1, .f32⟩
  | 18 => ⟨S2x2x64x64, .f32⟩
  | 19 => ⟨S2x2x64, .f32⟩
  | 20 => ⟨S2x2x64x64, .f32⟩
  | 21 => ⟨S1x5, .f32⟩
  | 22 => ⟨S100000x5, .f32⟩
  | 23 => ⟨S100000x5, .f32⟩
  | 24 => ⟨S1x5, .f32⟩
  | 25 => ⟨S100000x5, .f32⟩
  | 26 => ⟨S100000x5, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S1x19, .f32⟩
  | 42 => ⟨S200000x19, .f32⟩
  | 43 => ⟨S200000x19, .f32⟩
  | 44 => ⟨S1x19, .f32⟩
  | 45 => ⟨S200000x19, .f32⟩
  | 46 => ⟨S200000x19, .f32⟩
  | 47 => ⟨S200000x64, .f32⟩
  | 48 => ⟨S1x64, .f32⟩
  | 49 => ⟨S200000x64, .f32⟩
  | 50 => ⟨S200000x64, .f32⟩
  | 51 => ⟨S_, .f32⟩
  | 52 => ⟨S200000x64, .f32⟩
  | 53 => ⟨S200000x64, .f32⟩
  | 54 => ⟨S200000x64, .f32⟩
  | 55 => ⟨S1x64, .f32⟩
  | 56 => ⟨S200000x64, .f32⟩
  | 57 => ⟨S200000x64, .f32⟩
  | 58 => ⟨S_, .f32⟩
  | 59 => ⟨S200000x64, .f32⟩
  | 60 => ⟨S200000x64, .f32⟩
  | 61 => ⟨S1x1, .f32⟩
  | 62 => ⟨S2000000x1, .f32⟩
  | 63 => ⟨S2000000x1, .f32⟩
  | 64 => ⟨S1x1, .f32⟩
  | 65 => ⟨S2000000x1, .f32⟩
  | 66 => ⟨S2000000x1, .f32⟩
  | 67 => ⟨S1x2000000, .i32⟩
  | 68 => ⟨S2000000, .i32⟩
  | 69 => ⟨S1x2000000, .i32⟩
  | 70 => ⟨S2000000, .i32⟩
  | 71 => ⟨S1x1x64x64, .f32⟩
  | 72 => ⟨S64x64, .f32⟩
  | 73 => ⟨S1x1x64, .f32⟩
  | 74 => ⟨S64, .f32⟩
  | 75 => ⟨S1x1x64x64, .f32⟩
  | 76 => ⟨S64x64, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x64, .f32⟩
  | 86 => ⟨S_, .f32⟩
  | 87 => ⟨S200000x64, .f32⟩
  | 88 => ⟨S2000000x1, .i32⟩
  | 89 => ⟨S200000x64, .f32⟩
  | 90 => ⟨S_, .f32⟩
  | 91 => ⟨S2000000, .f32⟩
  | 92 => ⟨S_, .f32⟩
  | 93 => ⟨S200000, .f32⟩
  | 94 => ⟨S2000000x1, .i32⟩
  | 95 => ⟨S200000, .f32⟩
  | 96 => ⟨S_, .f32⟩
  | 97 => ⟨S200000, .f32⟩
  | 98 => ⟨S200000, .f32⟩
  | 99 => ⟨S200000x1, .f32⟩
  | 100 => ⟨S200000x64, .f32⟩
  | 101 => ⟨S200000x64, .f32⟩
  | 102 => ⟨S200000x64, .f32⟩
  | 103 => ⟨S1x64, .f32⟩
  | 104 => ⟨S200000x64, .f32⟩
  | 105 => ⟨S200000x64, .f32⟩
  | 106 => ⟨S200000x64, .f32⟩
  | 107 => ⟨S200000x64, .f32⟩
  | 108 => ⟨S1x1x64x64, .f32⟩
  | 109 => ⟨S64x64, .f32⟩
  | 110 => ⟨S1x1x64, .f32⟩
  | 111 => ⟨S64, .f32⟩
  | 112 => ⟨S1x1x64x64, .f32⟩
  | 113 => ⟨S64x64, .f32⟩
  | 114 => ⟨S_, .i32⟩
  | 115 => ⟨S2000000, .i32⟩
  | 116 => ⟨S2000000, .i1⟩
  | 117 => ⟨S_, .i32⟩
  | 118 => ⟨S2000000, .i32⟩
  | 119 => ⟨S2000000, .i32⟩
  | 120 => ⟨S2000000, .i32⟩
  | 121 => ⟨S2000000x1, .i32⟩
  | 122 => ⟨S2000000x64, .f32⟩
  | 123 => ⟨S_, .f32⟩
  | 124 => ⟨S100000x64, .f32⟩
  | 125 => ⟨S2000000x1, .i32⟩
  | 126 => ⟨S100000x64, .f32⟩
  | 127 => ⟨S_, .f32⟩
  | _ => ⟨S100000x5, .f32⟩

abbrev hbmTy0_1 (i : Nat) : BufTy := match i % 128 with
  | 0 => ⟨S2000000, .f32⟩
  | 1 => ⟨S_, .f32⟩
  | 2 => ⟨S100000, .f32⟩
  | 3 => ⟨S2000000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S_, .f32⟩
  | 21 => ⟨S200000x64, .f32⟩
  | 22 => ⟨S200000x64, .f32⟩
  | 23 => ⟨S1x1x64x64, .f32⟩
  | 24 => ⟨S64x64, .f32⟩
  | 25 => ⟨S1x1x64, .f32⟩
  | 26 => ⟨S64, .f32⟩
  | 27 => ⟨S1x1x64x64, .f32⟩
  | 28 => ⟨S64x64, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000x64, .f32⟩
  | 38 => ⟨S_, .f32⟩
  | 39 => ⟨S200000x64, .f32⟩
  | 40 => ⟨S2000000x1, .i32⟩
  | 41 => ⟨S200000x64, .f32⟩
  | 42 => ⟨S_, .f32⟩
  | 43 => ⟨S2000000, .f32⟩
  | 44 => ⟨S_, .f32⟩
  | 45 => ⟨S200000, .f32⟩
  | 46 => ⟨S2000000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x64, .f32⟩
  | 53 => ⟨S200000x64, .f32⟩
  | 54 => ⟨S200000x64, .f32⟩
  | 55 => ⟨S1x64, .f32⟩
  | 56 => ⟨S200000x64, .f32⟩
  | 57 => ⟨S200000x64, .f32⟩
  | 58 => ⟨S200000x64, .f32⟩
  | 59 => ⟨S200000x64, .f32⟩
  | 60 => ⟨S1x1x64x64, .f32⟩
  | 61 => ⟨S64x64, .f32⟩
  | 62 => ⟨S1x1x64, .f32⟩
  | 63 => ⟨S64, .f32⟩
  | 64 => ⟨S1x1x64x64, .f32⟩
  | 65 => ⟨S64x64, .f32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S2000000x1, .i32⟩
  | 74 => ⟨S2000000x64, .f32⟩
  | 75 => ⟨S_, .f32⟩
  | 76 => ⟨S100000x64, .f32⟩
  | 77 => ⟨S2000000x1, .i32⟩
  | 78 => ⟨S100000x64, .f32⟩
  | 79 => ⟨S_, .f32⟩
  | 80 => ⟨S2000000, .f32⟩
  | 81 => ⟨S_, .f32⟩
  | 82 => ⟨S100000, .f32⟩
  | 83 => ⟨S2000000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S200000x64, .f32⟩
  | 102 => ⟨S200000x64, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call0_cst : Ref sig .tc := ⟨.hbm, 31, rfl⟩
abbrev main_call0_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call1_cst : Ref sig .tc := ⟨.hbm, 38, rfl⟩
abbrev main_call1_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call2_cst : Ref sig .tc := ⟨.hbm, 51, rfl⟩
abbrev main_call2_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call3_cst : Ref sig .tc := ⟨.hbm, 58, rfl⟩
abbrev main_call3_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c : Ref sig .tc := ⟨.hbm, 77, rfl⟩
abbrev main_v48 : Ref sig .tc := ⟨.hbm, 78, rfl⟩
abbrev main_v49 : Ref sig .tc := ⟨.hbm, 79, rfl⟩
abbrev main_c_0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_1 : Ref sig .tc := ⟨.hbm, 90, rfl⟩
abbrev main_v58 : Ref sig .tc := ⟨.hbm, 91, rfl⟩
abbrev main_cst_2 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_3 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_4 : Ref sig .tc := ⟨.hbm, 114, rfl⟩
abbrev main_v79 : Ref sig .tc := ⟨.hbm, 115, rfl⟩
abbrev main_v80 : Ref sig .tc := ⟨.hbm, 116, rfl⟩
abbrev main_c_5 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_6 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_7 : Ref sig .tc := ⟨.hbm, 127, rfl⟩
abbrev main_v89 : Ref sig .tc := ⟨.hbm, 128, rfl⟩
abbrev main_cst_8 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_9 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_call4_cst : Ref sig .tc := ⟨.hbm, 145, rfl⟩
abbrev main_call4_v0 : Ref sig .tc := ⟨.hbm, 146, rfl⟩
abbrev main_v104 : Ref sig .tc := ⟨.hbm, 147, rfl⟩
abbrev main_call5_cst : Ref sig .tc := ⟨.hbm, 148, rfl⟩
abbrev main_call5_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_10 : Ref sig .tc := ⟨.hbm, 157, rfl⟩
abbrev main_v112 : Ref sig .tc := ⟨.hbm, 158, rfl⟩
abbrev main_v113 : Ref sig .tc := ⟨.hbm, 159, rfl⟩
abbrev main_c_11 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_12 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_13 : Ref sig .tc := ⟨.hbm, 170, rfl⟩
abbrev main_v122 : Ref sig .tc := ⟨.hbm, 171, rfl⟩
abbrev main_cst_14 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_15 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_16 : Ref sig .tc := ⟨.hbm, 194, rfl⟩
abbrev main_v143 : Ref sig .tc := ⟨.hbm, 195, rfl⟩
abbrev main_v144 : Ref sig .tc := ⟨.hbm, 196, rfl⟩
abbrev main_c_17 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_18 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_19 : Ref sig .tc := ⟨.hbm, 207, rfl⟩
abbrev main_v153 : Ref sig .tc := ⟨.hbm, 208, rfl⟩
abbrev main_cst_20 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_21 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_call6_cst : Ref sig .tc := ⟨.hbm, 225, rfl⟩
abbrev main_call6_v0 : Ref sig .tc := ⟨.hbm, 226, rfl⟩
abbrev main_v168 : Ref sig .tc := ⟨.hbm, 227, rfl⟩
abbrev main_call7_cst : Ref sig .tc := ⟨.hbm, 228, rfl⟩
abbrev main_call7_v0 : Ref sig .tc := ⟨.hbm, 229, rfl⟩
abbrev main_v169 : Ref sig .tc := ⟨.hbm, 230, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S19_S1x19_1 : S19.BroadcastsInDim S1x19 (![1] : Fin 1 → Fin S1x19.rank)
  bcast_S1x19_S200000x19_0_1 : S1x19.BroadcastsInDim S200000x19 (![0, 1] : Fin 2 → Fin S200000x19.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  slices_S2x2x64x64_S1x1x64x64_0_0_0_0 : S2x2x64x64.Slices ![0, 0, 0, 0] S1x1x64x64
  shapeCasts_S1x1x64x64_S64x64 : S1x1x64x64.ShapeCasts S64x64
  slices_S2x2x64_S1x1x64_0_0_0 : S2x2x64.Slices ![0, 0, 0] S1x1x64
  shapeCasts_S1x1x64_S64 : S1x1x64.ShapeCasts S64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S2x2x64x64_S1x1x64x64_0_1_0_0 : S2x2x64x64.Slices ![0, 1, 0, 0] S1x1x64x64
  slices_S2x2x64_S1x1x64_0_1_0 : S2x2x64.Slices ![0, 1, 0] S1x1x64
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S2x2x64x64_S1x1x64x64_1_0_0_0 : S2x2x64x64.Slices ![1, 0, 0, 0] S1x1x64x64
  slices_S2x2x64_S1x1x64_1_0_0 : S2x2x64.Slices ![1, 0, 0] S1x1x64
  slices_S2x2x64x64_S1x1x64x64_1_1_0_0 : S2x2x64x64.Slices ![1, 1, 0, 0] S1x1x64x64
  slices_S2x2x64_S1x1x64_1_1_0 : S2x2x64.Slices ![1, 1, 0] S1x1x64
  dot_S100000x5_S5x64_S100000x64_1_0_0_1_n_n_wf : DotDims.WF S100000x5 S5x64 S100000x64 [1] [0] [0] [1] [] []
  dot_S100000x64_S64x64_S100000x64_1_0_0_1_n_n_wf : DotDims.WF S100000x64 S64x64 S100000x64 [1] [0] [0] [1] [] []
  dot_S200000x19_S19x64_S200000x64_1_0_0_1_n_n_wf : DotDims.WF S200000x19 S19x64 S200000x64 [1] [0] [0] [1] [] []
  dot_S200000x64_S64x64_S200000x64_1_0_0_1_n_n_wf : DotDims.WF S200000x64 S64x64 S200000x64 [1] [0] [0] [1] [] []
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000_S2000000x1_S2000000_n_0_0_1_wf : ScatterDims.WF S200000 S2000000x1 S2000000 [] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S200000x19_S19x64_S200000x64_1_0_0_1_n_n : DotDims S200000x19 S19x64 S200000x64 where
  lhsContracting := [1]
  rhsContracting := [0]
  lhsNonContracting := [0]
  rhsNonContracting := [1]
  lhsBatch := []
  rhsBatch := []
  wf := dot_S200000x19_S19x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

class Facts : Prop extends Facts₀ where

variable [Facts]
-- ==== Proof.KRun.lean ====
/-
  The idealized kernel's run, with its result named.

  The program is ten regions among stretches of host operations. Its run ends with every unscoped buffer at the contents the
  boundary fold reaches after the last region (`W20`): in particular the result buffer holds `W20` at the result's
  reference, and every argument array what it held at the launch.
-/
import proofs.«104275_j19928648254212_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_value : θ_run defs (onTc (τ := τ) (main (F := F))) ⟨m, fun _ => 0, ρ⟩ (fun r => ∀ c : Dev nD,
      r.2.mem ((c.tc : Thread nD τ).loc main_v99) = W20 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v99 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c)⟩)

end Cert.KernelIdeal.Run

end
-- ==== Proof.LibRealSums.lean ====
/-
  Arithmetic of extended reals that are in fact real numbers: a finite sum, a product, a sum or a maximum of reals is a
  real, and a real factor moves across a finite sum of products of reals. On the extended reals themselves the last law
  fails at the infinities, which is why every array that meets it is first shown to hold real numbers only.
-/
import Idealize.ShloMosaic.PureOps.Ideal

namespace Cert.Algebra

open Finset

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_sum]; exact Finset.sum_congr rfl hg⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The maximum of two reals is a real. -/
theorem max_real {a b : EReal} (ha : ∃ r : ℝ, a = (r : EReal)) (hb : ∃ r : ℝ, b = (r : EReal)) :
    ∃ r : ℝ, max a b = (r : EReal) := by
  rcases max_choice a b with h | h <;> rw [h] <;> assumption

/-- A real factor moves across a finite sum of products of reals:
    the sum over k of (a k · n) · w k is (the sum over k of a k · w k) · n. -/
theorem scale_sum {ι : Type*} [Fintype ι] (a w : ι → EReal) (n : EReal) (ha : ∀ k, ∃ r : ℝ, a k = (r : EReal))
    (hw : ∀ k, ∃ r : ℝ, w k = (r : EReal)) (hn : ∃ r : ℝ, n = (r : EReal)) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

end Cert.Algebra
-- ==== Proof.Spec.lean ====
/-
  What the network computes, written once over plain finite index types, at the exact instance (extended reals).

  * `mlp`: a node's 64 features: shift and scale the raw features, a linear map plus bias, a rectifier, a second
    linear map plus bias, a rectifier.
  * `lin`: a row of messages times a 64 × 64 weight matrix.
  * `comb`: the mean message plus a bias plus the node's own features times a weight matrix, rectified.
  * `sage`: the same update with the weight applied AFTER the division by the edge count, to the summed raw messages.

  Every entry that is a real number stays one through these maps, and on real numbers multiplying a row of sums by the
  reciprocal of the count is the same as dividing each summand by the count first (`mean_law`).
-/
import Idealize.ShloMosaic.PureOps.Ideal
import Idealize.ShloMosaic.PureOps.Ideal.Laws
import proofs.«104275_j19928648254212_1_alg».proof.Proof.LibRealSums

noncomputable section

namespace Cert.Sage

open Idealize.ShloMosaic Cert.Algebra

/-- The float zero word read at the exact instance. -/
abbrev z0 : EReal := Ideal.ofBits .f32 0x00000000#32

/-- An extended real that is a real number. -/
def IsReal (a : EReal) : Prop := ∃ r : ℝ, a = (r : EReal)

theorem z0_eq : z0 = 0 := Ideal.ofBits_zero_f32

theorem isReal_z0 : IsReal z0 := ⟨0, by rw [z0_eq]; rfl⟩

/-- The embedding of a node's raw features. -/
def mlp {n d : Nat} (x : Fin n → Fin d → EReal) (sh sc : Fin d → EReal) (w1 : Fin d → Fin 64 → EReal)
    (b1 : Fin 64 → EReal) (w2 : Fin 64 → Fin 64 → EReal) (b2 : Fin 64 → EReal) : Fin n → Fin 64 → EReal :=
  fun p j => max ((∑ k : Fin 64, max ((∑ q : Fin d, ((x p q + sh q) * sc q) * w1 q k) + b1 k) z0 * w2 k j) + b2 j) z0

/-- Each row times a weight matrix. -/
def lin {E : Nat} (x : Fin E → Fin 64 → EReal) (w : Fin 64 → Fin 64 → EReal) : Fin E → Fin 64 → EReal :=
  fun e j => ∑ k : Fin 64, x e k * w k j

/-- The node update from an already weighted mean message. -/
def comb {n : Nat} (mean : Fin n → Fin 64 → EReal) (b : Fin 64 → EReal) (xd : Fin n → Fin 64 → EReal)
    (w : Fin 64 → Fin 64 → EReal) : Fin n → Fin 64 → EReal :=
  fun p j => max ((mean p j + b j) + ∑ k : Fin 64, xd p k * w k j) z0

/-- The node update from the raw mean message: the weight is applied after the mean. -/
def sage {n : Nat} (mean : Fin n → Fin 64 → EReal) (wl : Fin 64 → Fin 64 → EReal) (b : Fin 64 → EReal)
    (xd : Fin n → Fin 64 → EReal) (wr : Fin 64 → Fin 64 → EReal) : Fin n → Fin 64 → EReal :=
  fun p j => max (((∑ k : Fin 64, mean p k * wl k j) + b j) + ∑ k : Fin 64, xd p k * wr k j) z0

theorem mlp_real {n d : Nat} {x : Fin n → Fin d → EReal} {sh sc : Fin d → EReal} {w1 : Fin d → Fin 64 → EReal}
    {b1 : Fin 64 → EReal} {w2 : Fin 64 → Fin 64 → EReal} {b2 : Fin 64 → EReal}
    (hx : ∀ p q, IsReal (x p q)) (hsh : ∀ q, IsReal (sh q)) (hsc : ∀ q, IsReal (sc q)) (hw1 : ∀ q k, IsReal (w1 q k))
    (hb1 : ∀ k, IsReal (b1 k)) (hw2 : ∀ k j, IsReal (w2 k j)) (hb2 : ∀ j, IsReal (b2 j)) (p : Fin n) (j : Fin 64) :
    IsReal (mlp x sh sc w1 b1 w2 b2 p j) :=
  max_real (add_real (sum_real _ _ fun k _ => mul_real (max_real (add_real (sum_real _ _ fun q _ =>
    mul_real (mul_real (add_real (hx p q) (hsh q)) (hsc q)) (hw1 q k)) (hb1 k)) isReal_z0) (hw2 k j)) (hb2 j)) isReal_z0

theorem lin_real {E : Nat} {x : Fin E → Fin 64 → EReal} {w : Fin 64 → Fin 64 → EReal}
    (hx : ∀ e k, IsReal (x e k)) (hw : ∀ k j, IsReal (w k j)) (e : Fin E) (j : Fin 64) : IsReal (lin x w e j) :=
  sum_real _ _ fun k _ => mul_real (hx e k) (hw k j)

theorem comb_real {n : Nat} {mean : Fin n → Fin 64 → EReal} {b : Fin 64 → EReal} {xd : Fin n → Fin 64 → EReal}
    {w : Fin 64 → Fin 64 → EReal} (hm : ∀ p j, IsReal (mean p j)) (hb : ∀ j, IsReal (b j))
    (hxd : ∀ p k, IsReal (xd p k)) (hw : ∀ k j, IsReal (w k j)) (p : Fin n) (j : Fin 64) : IsReal (comb mean b xd w p j) :=
  max_real (add_real (add_real (hm p j) (hb j)) (sum_real _ _ fun k _ => mul_real (hxd p k) (hw k j))) isReal_z0

/-- On real numbers: a row of sums contracted with a weight column and then multiplied by the reciprocal `1 / m` is the
    row divided by `m` entry by entry and then contracted. -/
theorem mean_law (S w : Fin 64 → EReal) (m : EReal) (hS : ∀ k, IsReal (S k)) (hw : ∀ k, IsReal (w k))
    (hm : ∃ r : ℝ, r ≠ 0 ∧ m = (r : EReal)) :
    (∑ k, S k * w k) * Ideal.div (Ideal.ofBits .f32 0x3F800000#32) m = ∑ k, Ideal.div (S k) m * w k := by
  obtain ⟨μ, hμ, rfl⟩ := hm
  have one : Ideal.ofBits .f32 0x3F800000#32 = ((1 : ℝ) : EReal) := by
    simp [Ideal.ofBits, Ideal.ieee, -EReal.coe_mul]; norm_num
  rw [Ideal.div_coe hμ, one, ← EReal.coe_mul, one_mul]
  have e : ∀ k, Ideal.div (S k) (μ : EReal) * w k = (S k * ((1 / μ : ℝ) : EReal)) * w k := fun k => by
    rw [Ideal.div_coe hμ]
  rw [Finset.sum_congr rfl fun k _ => e k]
  exact (scale_sum S w _ hS hw ⟨_, rfl⟩).symm

end Cert.Sage

end
-- ==== Proof.KMlp0.lean ====
/-
  Region 0: the embedding of the raw node features, 10000 nodes to a grid point.

  A point's output block is, row by row: the raw features shifted and scaled, times the 5 × 64 matrix, plus a bias,
  rectified; that times the 64 × 64 matrix, plus a bias, rectified. Node `r` lies in the block of point `r / 10000`, and
  these blocks tile the array.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Mlp0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the seven arrays the region reads. -/
def G (a0 : S100000x5.Idx → EReal) (a1 a2 : S1x5.Idx → EReal) (a3 : S5x64.Idx → EReal) (a4 : S1x64.Idx → EReal)
    (a5 : S64x64.Idx → EReal) (a6 : S1x64.Idx → EReal) : S100000x64.Idx → EReal :=
  fun i => Cert.Sage.mlp (n := 100000) (d := 5) (fun p q => a0 (ix2 p q)) (fun q => a1 (ix2 0 q)) (fun q => a2 (ix2 0 q))
    (fun q k => a3 (ix2 q k)) (fun k => a4 (ix2 0 k)) (fun k j => a5 (ix2 k j)) (fun j => a6 (ix2 0 j)) (i 0) (i 1)

theorem G_apply (a0 : S100000x5.Idx → EReal) (a1 a2 : S1x5.Idx → EReal) (a3 : S5x64.Idx → EReal) (a4 : S1x64.Idx → EReal)
    (a5 : S64x64.Idx → EReal) (a6 : S1x64.Idx → EReal) (i : S100000x64.Idx) :
    G a0 a1 a2 a3 a4 a5 a6 i = max ((∑ k : Fin 64, max ((∑ q : Fin 5, ((a0 (ix2 (i 0) q) + a1 (ix2 0 q)) * a2 (ix2 0 q)) * a3 (ix2 q k)) + a4 (ix2 0 k)) Cert.Sage.z0 * a5 (ix2 k (i 1))) + a6 (ix2 0 (i 1))) Cert.Sage.z0 := rfl

/-- The matrix unit's product of a 10000 × 5 block with a 5 × 64 matrix, into a zero accumulator, at an entry. -/
theorem matmul1_at (x : FVec Ideal S10000x5 .bf16) (w : FVec Ideal S5x64 .bf16) (p : Fin 10000) (j : Fin 64) :
    matmul dot_S10000x5_S5x64_S10000x64_1_0_0_1_n_n none x w (constant (F := Ideal) S10000x64 .f32 0x00000000#32) (ix2 p j)
      = ∑ k : Fin 5, x (ix2 p k) * w (ix2 k j) := by
  refine (Ideal.matmul_constant_zero_apply dot_S10000x5_S5x64_S10000x64_1_0_0_1_n_n none x w (ix2 p j)).trans ?_
  rw [← Equiv.sum_comp (contrEquiv1 dot_S10000x5_S5x64_S10000x64_1_0_0_1_n_n 5 rfl rfl).symm]
  refine Finset.sum_congr rfl fun k _ => ?_
  have hk := contrEquiv1_symm_val dot_S10000x5_S5x64_S10000x64_1_0_0_1_n_n 5 rfl rfl k
  have el : dot_S10000x5_S5x64_S10000x64_1_0_0_1_n_n.lhsIdx (ix2 p j) ((contrEquiv1 dot_S10000x5_S5x64_S10000x64_1_0_0_1_n_n 5 rfl rfl).symm k) = ix2 p k :=
    funext fun a => Fin.ext (by
      match a with
      | ⟨0, _⟩ =>
        show (dot_S10000x5_S5x64_S10000x64_1_0_0_1_n_n.lhsIdx (ix2 p j) _ 0).val = p.val
        unfold DotDims.lhsIdx
        rw [dif_neg (show ¬(0 : Fin S10000x5.rank) ∈ dot_S10000x5_S5x64_S10000x64_1_0_0_1_n_n.lhsBatch by decide), dif_pos (show (0 : Fin S10000x5.rank) ∈ dot_S10000x5_S5x64_S10000x64_1_0_0_1_n_n.lhsNonContracting by decide)]
        rfl
      | ⟨1, _⟩ => exact (dot_S10000x5_S5x64_S10000x64_1_0_0_1_n_n.lhsIdx_val_of_single rfl (ix2 p j) _).trans hk)
  have er : dot_S10000x5_S5x64_S10000x64_1_0_0_1_n_n.rhsIdx (ix2 p j) ((contrEquiv1 dot_S10000x5_S5x64_S10000x64_1_0_0_1_n_n 5 rfl rfl).symm k) = ix2 k j :=
    funext fun a => Fin.ext (by
      match a with
      | ⟨0, _⟩ => exact (dot_S10000x5_S5x64_S10000x64_1_0_0_1_n_n.rhsIdx_val_of_single rfl (ix2 p j) _).trans hk
      | ⟨1, _⟩ =>
        show (dot_S10000x5_S5x64_S10000x64_1_0_0_1_n_n.rhsIdx (ix2 p j) _ 1).val = j.val
        unfold DotDims.rhsIdx
        rw [dif_neg (show ¬(1 : Fin S5x64.rank) ∈ dot_S10000x5_S5x64_S10000x64_1_0_0_1_n_n.rhsBatch by decide), dif_pos (show (1 : Fin S5x64.rank) ∈ dot_S10000x5_S5x64_S10000x64_1_0_0_1_n_n.rhsNonContracting by decide)]
        rfl)
  rw [el, er]

/-- The matrix unit's product of a 10000 × 64 block with a 64 × 64 matrix, into a zero accumulator, at an entry. -/
theorem matmul2_at (x : FVec Ideal S10000x64 .bf16) (w : FVec Ideal S64x64 .bf16) (p : Fin 10000) (j : Fin 64) :
    matmul dot_S10000x64_S64x64_S10000x64_1_0_0_1_n_n none x w (constant (F := Ideal) S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ =>
        show (dot_S10000x64_S64x64_S10000x64_1_0_0_1_n_n.lhsIdx (ix2 p j) _ 0).val = p.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 p j) _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 p j) _).trans hk
      | ⟨1, _⟩ =>
        show (dot_S10000x64_S64x64_S10000x64_1_0_0_1_n_n.rhsIdx (ix2 p j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- A 64-entry row broadcast down the block, at an entry. -/
theorem bias_at (b : Vec Ideal S1x64 .f32) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- A 5-entry row broadcast down the block, at an entry. -/
theorem row_at (b : Vec Ideal S1x5 .f32) (p : Fin 10000) (q : Fin 5) :
    broadcastTo S10000x5 b broadcasts_S1x5_S10000x5 (ix2 p q) = b (ix2 0 q) :=
  broadcastTo_apply b broadcasts_S1x5_S10000x5 (ix2 p q) (ix2 0 q) (fun a => by
    match a with
    | ⟨0, _⟩ => show (0 : Nat) = if (1 : Nat) = 1 then 0 else p.val; rw [if_pos rfl]
    | ⟨1, _⟩ => show q.val = if (5 : Nat) = 1 then 0 else q.val; rw [if_neg (by decide)])

/-- The hidden layer of a block, at an entry. -/
theorem hidden_at (x : Vec Ideal S10000x5 .f32) (sh sc : Vec Ideal S1x5 .f32) (w1 : Vec Ideal S5x64 .f32)
    (b1 : Vec Ideal S1x64 .f32) (p : Fin 10000) (k : Fin 64) :
    maximumf (addf (matmul dot_S10000x5_S5x64_S10000x64_1_0_0_1_n_n none
        (truncf .bf16 (mulf (addf x (broadcastTo S10000x5 sh broadcasts_S1x5_S10000x5)) (broadcastTo S10000x5 sc broadcasts_S1x5_S10000x5)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32)) (ix2 p k)
      = max ((∑ q : Fin 5, ((x (ix2 p q) + sh (ix2 0 q)) * sc (ix2 0 q)) * w1 (ix2 q k)) + b1 (ix2 0 k)) Cert.Sage.z0 := by
  have hm := matmul1_at (truncf .bf16 (mulf (addf x (broadcastTo S10000x5 sh broadcasts_S1x5_S10000x5)) (broadcastTo S10000x5 sc broadcasts_S1x5_S10000x5)) bitsLt_bf16_f32)
    (truncf .bf16 w1 bitsLt_bf16_f32) p k
  have hb := bias_at b1 p k
  show max (matmul dot_S10000x5_S5x64_S10000x64_1_0_0_1_n_n none
        (truncf .bf16 (mulf (addf x (broadcastTo S10000x5 sh broadcasts_S1x5_S10000x5)) (broadcastTo S10000x5 sc broadcasts_S1x5_S10000x5)) bitsLt_bf16_f32)
        (truncf .bf16 w1 bitsLt_bf16_f32) (constant (F := Ideal) S10000x64 .f32 0x00000000#32) (ix2 p k)
      + broadcastTo S10000x64 b1 broadcasts_S1x64_S10000x64 (ix2 p k)) Cert.Sage.z0 = _
  rw [hm, hb]
  refine congrArg₂ max (congrArg₂ (· + ·) (Finset.sum_congr rfl fun q _ => ?_) rfl) rfl
  show (x (ix2 p q) + broadcastTo S10000x5 sh broadcasts_S1x5_S10000x5 (ix2 p q)) * broadcastTo S10000x5 sc broadcasts_S1x5_S10000x5 (ix2 p q) * w1 (ix2 q k) = _
  rw [row_at, row_at]

/-- The body's one stored value, at an entry of the block. -/
theorem pay_at (x : Vec Ideal S10000x5 .f32) (sh sc : Vec Ideal S1x5 .f32) (w1 : Vec Ideal S5x64 .f32)
    (b1 : Vec Ideal S1x64 .f32) (w2 : Vec Ideal S64x64 .f32) (b2 : Vec Ideal S1x64 .f32) (p : Fin 10000) (j : Fin 64) :
    k0_pay1 (F := Ideal) x sh sc w1 b1 w2 b2 (ix2 p j)
      = max ((∑ k : Fin 64, max ((∑ q : Fin 5, ((x (ix2 p q) + sh (ix2 0 q)) * sc (ix2 0 q)) * w1 (ix2 q k)) + b1 (ix2 0 k)) Cert.Sage.z0 * w2 (ix2 k j)) + b2 (ix2 0 j)) Cert.Sage.z0 := by
  unfold k0_pay1
  rw [shapeCast_self, shapeCast_self, shapeCast_self, shapeCast_self]
  have hb := bias_at b2 p j
  have hm := matmul2_at (truncf .bf16 (maximumf (addf (matmul dot_S10000x5_S5x64_S10000x64_1_0_0_1_n_n none
        (truncf .bf16 (mulf (addf x (broadcastTo S10000x5 sh broadcasts_S1x5_S10000x5)) (broadcastTo S10000x5 sc broadcasts_S1x5_S10000x5)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32))) bitsLt_bf16_f32)
    (truncf .bf16 w2 bitsLt_bf16_f32) p j
  show max (matmul dot_S10000x64_S64x64_S10000x64_1_0_0_1_n_n none (truncf .bf16 (maximumf (addf (matmul dot_S10000x5_S5x64_S10000x64_1_0_0_1_n_n none
        (truncf .bf16 (mulf (addf x (broadcastTo S10000x5 sh broadcasts_S1x5_S10000x5)) (broadcastTo S10000x5 sc broadcasts_S1x5_S10000x5)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32))) bitsLt_bf16_f32)
    (truncf .bf16 w2 bitsLt_bf16_f32) (constant (F := Ideal) S10000x64 .f32 0x00000000#32) (ix2 p j)
      + broadcastTo S10000x64 b2 broadcasts_S1x64_S10000x64 (ix2 p j)) Cert.Sage.z0 = _
  rw [hm, hb]
  refine congrArg₂ max (congrArg₂ (· + ·) (Finset.sum_congr rfl fun k _ => congrArg₂ (· * ·) ?_ rfl) rfl) rfl
  exact hidden_at x sh sc w1 b1 p k

/-- The printed index maps over the grid: the features' window moves with the output's, the parameters' stay. -/
theorem idx_facts : ∀ t : Fin cfg0.N, win0_0.index t (0 : Fin 2) = win0_7.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 4000000 in
/-- What a point writes back is its block of `G` of the arrays the region found. -/
theorem flushed_eq (c : Dev nD) (t : Fin cfg0.N) :
    (dat0 V c).flushed 7 t = ((cfg0.win 7).blk t).view.read (Elt Ideal)
      (G (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6))) := by
  show (cfg0.win 7).cut (grid0.coords t) ((dat0 V c).after 7 t) = _
  rw [after0_7]
  unfold out0_7
  rw [View.canon_unit_zero hz]
  simp only [View.ld_unit_zero (S := S10000x5) hz, View.ld_unit_zero (S := S1x5) hz, View.ld_unit_zero (S := S5x64) hz,
    View.ld_unit_zero (S := S10000x64) hz, View.ld_unit_zero (S := S64x64) hz, View.ld_unit_zero (S := S1x64) hz]
  obtain ⟨e0, e1, e2, e3, e4, e5, e6, e7, e8, e9, e10, e11, e12, e13, e14, e15⟩ := idx_facts t
  funext y
  obtain ⟨p, j, rfl⟩ : ∃ (p : Fin 10000) (j : Fin 64), y = ix2 p j := ⟨y 0, y 1, eq_ix2 y⟩
  refine (pay_at (iblk0 V c 0 t) (iblk0 V c 1 t) (iblk0 V c 2 t) (iblk0 V c 3 t) (iblk0 V c 4 t) (iblk0 V c 5 t) (iblk0 V c 6 t) p j).trans ?_
  refine Eq.trans ?_ (G_apply _ _ _ _ _ _ _ _).symm
  have h0 : ∀ q : Fin 5, ((cfg0.win 0).blk t).view.emb (ix2 p q) = ix2 ((((cfg0.win 7).blk t).view.emb (ix2 p j)) 0) q := fun q => by
    funext a; apply Fin.ext
    match a with
    | ⟨0, _⟩ => show win0_0.index t (0 : Fin 2) * 10000 + 1 * p.val = win0_7.index t (0 : Fin 2) * 10000 + 1 * p.val; omega
    | ⟨1, _⟩ => show win0_0.index t (1 : Fin 2) * 5 + 1 * q.val = q.val; omega
  have h1 : ∀ q : Fin 5, ((cfg0.win 1).blk t).view.emb (ix2 0 q) = ix2 0 q := fun q => by
    funext a; apply Fin.ext
    match a with
    | ⟨0, _⟩ => show win0_1.index t (0 : Fin 2) * 1 + 1 * 0 = 0; omega
    | ⟨1, _⟩ => show win0_1.index t (1 : Fin 2) * 5 + 1 * q.val = q.val; omega
  have h2 : ∀ q : Fin 5, ((cfg0.win 2).blk t).view.emb (ix2 0 q) = ix2 0 q := fun q => by
    funext a; apply Fin.ext
    match a with
    | ⟨0, _⟩ => show win0_2.index t (0 : Fin 2) * 1 + 1 * 0 = 0; omega
    | ⟨1, _⟩ => show win0_2.index t (1 : Fin 2) * 5 + 1 * q.val = q.val; omega
  have h3 : ∀ (q : Fin 5) (k : Fin 64), ((cfg0.win 3).blk t).view.emb (ix2 q k) = ix2 q k := fun q k => by
    funext a; apply Fin.ext
    match a with
    | ⟨0, _⟩ => show win0_3.index t (0 : Fin 2) * 5 + 1 * q.val = q.val; omega
    | ⟨1, _⟩ => show win0_3.index t (1 : Fin 2) * 64 + 1 * k.val = k.val; omega
  have h4 : ∀ k : Fin 64, ((cfg0.win 4).blk t).view.emb (ix2 0 k) = ix2 0 k := fun k => by
    funext a; apply Fin.ext
    match a with
    | ⟨0, _⟩ => show win0_4.index t (0 : Fin 2) * 1 + 1 * 0 = 0; omega
    | ⟨1, _⟩ => show win0_4.index t (1 : Fin 2) * 64 + 1 * k.val = k.val; omega
  have h5 : ∀ k : Fin 64, ((cfg0.win 5).blk t).view.emb (ix2 k j) = ix2 k ((((cfg0.win 7).blk t).view.emb (ix2 p j)) 1) := fun k => by
    funext a; apply Fin.ext
    match a with
    | ⟨0, _⟩ => show win0_5.index t (0 : Fin 2) * 64 + 1 * k.val = k.val; omega
    | ⟨1, _⟩ => show win0_5.index t (1 : Fin 2) * 64 + 1 * j.val = win0_7.index t (1 : Fin 2) * 64 + 1 * j.val; omega
  have h6 : ((cfg0.win 6).blk t).view.emb (ix2 0 j) = ix2 0 ((((cfg0.win 7).blk t).view.emb (ix2 p j)) 1) := by
    funext a; apply Fin.ext
    match a with
    | ⟨0, _⟩ => show win0_6.index t (0 : Fin 2) * 1 + 1 * 0 = 0; omega
    | ⟨1, _⟩ => show win0_6.index t (1 : Fin 2) * 64 + 1 * j.val = win0_7.index t (1 : Fin 2) * 64 + 1 * j.val; omega
  refine congrArg₂ max (congrArg₂ (· + ·) (Finset.sum_congr rfl fun k _ => congrArg₂ (· * ·) (congrArg₂ max (congrArg₂ (· + ·)
    (Finset.sum_congr rfl fun q _ => congrArg₂ (· * ·) (congrArg₂ (· * ·) (congrArg₂ (· + ·)
      (congrArg (V c (Pipeline.arrRef spec0 0)) (h0 q)) (congrArg (V c (Pipeline.arrRef spec0 1)) (h1 q)))
      (congrArg (V c (Pipeline.arrRef spec0 2)) (h2 q))) (congrArg (V c (Pipeline.arrRef spec0 3)) (h3 q k)))
    (congrArg (V c (Pipeline.arrRef spec0 4)) (h4 k))) rfl) (congrArg (V c (Pipeline.arrRef spec0 5)) (h5 k)))
    (congrArg (V c (Pipeline.arrRef spec0 6)) h6)) rfl

/-- An index of the array is in a point's block iff each coordinate is in the block's range. -/
theorem mem_blk (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v4).slice (win0_7.rect t)).set ↔ _
  rw [View.set_slice_whole, Rect.mem_set_unit]
  exact Iff.rfl

/-- Every index of the output array is in the block of the point its row falls to. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5, e6, e7, e8, e9, e10, e11, e12, e13, e14, e15⟩ := idx_facts t
  have e14' : win0_7.index t (0 : Fin 2) = (i 0).val / 10000 := e14
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- The output array after the region. -/
theorem arr (c : Dev nD) : (dat0 V c).arrAt 7 cfg0.N
    = G (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6)) :=
  (dat0 V c).arrAt_eq_of_cover 7 _ (fun t _ => flushed_eq V c t) cover

end Cert.KernelIdeal.Mlp0

end
-- ==== Proof.KMlp1.lean ====
/-
  Region 1: the embedding of the raw node features, 10000 nodes to a grid point.

  A point's output block is, row by row: the raw features shifted and scaled, times the 19 × 64 matrix, plus a bias,
  rectified; that times the 64 × 64 matrix, plus a bias, rectified. Node `r` lies in the block of point `r / 10000`, and
  these blocks tile the array.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Mlp1

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the seven arrays the region reads. -/
def G (a0 : S200000x19.Idx → EReal) (a1 a2 : S1x19.Idx → EReal) (a3 : S19x64.Idx → EReal) (a4 : S1x64.Idx → EReal)
    (a5 : S64x64.Idx → EReal) (a6 : S1x64.Idx → EReal) : S200000x64.Idx → EReal :=
  fun i => Cert.Sage.mlp (n := 200000) (d := 19) (fun p q => a0 (ix2 p q)) (fun q => a1 (ix2 0 q)) (fun q => a2 (ix2 0 q))
    (fun q k => a3 (ix2 q k)) (fun k => a4 (ix2 0 k)) (fun k j => a5 (ix2 k j)) (fun j => a6 (ix2 0 j)) (i 0) (i 1)

theorem G_apply (a0 : S200000x19.Idx → EReal) (a1 a2 : S1x19.Idx → EReal) (a3 : S19x64.Idx → EReal) (a4 : S1x64.Idx → EReal)
    (a5 : S64x64.Idx → EReal) (a6 : S1x64.Idx → EReal) (i : S200000x64.Idx) :
    G a0 a1 a2 a3 a4 a5 a6 i = max ((∑ k : Fin 64, max ((∑ q : Fin 19, ((a0 (ix2 (i 0) q) + a1 (ix2 0 q)) * a2 (ix2 0 q)) * a3 (ix2 q k)) + a4 (ix2 0 k)) Cert.Sage.z0 * a5 (ix2 k (i 1))) + a6 (ix2 0 (i 1))) Cert.Sage.z0 := rfl

/-- The matrix unit's product of a 10000 × 19 block with a 19 × 64 matrix, into a zero accumulator, at an entry. -/
theorem matmul1_at (x : FVec Ideal S10000x19 .bf16) (w : FVec Ideal S19x64 .bf16) (p : Fin 10000) (j : Fin 64) :
    matmul dot_S10000x19_S19x64_S10000x64_1_0_0_1_n_n none x w (constant (F := Ideal) S10000x64 .f32 0x00000000#32) (ix2 p j)
      = ∑ k : Fin 19, x (ix2 p k) * w (ix2 k j) := by
  refine (Ideal.matmul_constant_zero_apply dot_S10000x19_S19x64_S10000x64_1_0_0_1_n_n none x w (ix2 p j)).trans ?_
  rw [← Equiv.sum_comp (contrEquiv1 dot_S10000x19_S19x64_S10000x64_1_0_0_1_n_n 19 rfl rfl).symm]
  refine Finset.sum_congr rfl fun k _ => ?_
  have hk := contrEquiv1_symm_val dot_S10000x19_S19x64_S10000x64_1_0_0_1_n_n 19 rfl rfl k
  have el : dot_S10000x19_S19x64_S10000x64_1_0_0_1_n_n.lhsIdx (ix2 p j) ((contrEquiv1 dot_S10000x19_S19x64_S10000x64_1_0_0_1_n_n 19 rfl rfl).symm k) = ix2 p k :=
    funext fun a => Fin.ext (by
      match a with
      | ⟨0, _⟩ =>
        show (dot_S10000x19_S19x64_S10000x64_1_0_0_1_n_n.lhsIdx (ix2 p j) _ 0).val = p.val
        unfold DotDims.lhsIdx
        rw [dif_neg (show ¬(0 : Fin S10000x19.rank) ∈ dot_S10000x19_S19x64_S10000x64_1_0_0_1_n_n.lhsBatch by decide), dif_pos (show (0 : Fin S10000x19.rank) ∈ dot_S10000x19_S19x64_S10000x64_1_0_0_1_n_n.lhsNonContracting by decide)]
        rfl
      | ⟨1, _⟩ => exact (dot_S10000x19_S19x64_S10000x64_1_0_0_1_n_n.lhsIdx_val_of_single rfl (ix2 p j) _).trans hk)
  have er : dot_S10000x19_S19x64_S10000x64_1_0_0_1_n_n.rhsIdx (ix2 p j) ((contrEquiv1 dot_S10000x19_S19x64_S10000x64_1_0_0_1_n_n 19 rfl rfl).symm k) = ix2 k j :=
    funext fun a => Fin.ext (by
      match a with
      | ⟨0, _⟩ => exact (dot_S10000x19_S19x64_S10000x64_1_0_0_1_n_n.rhsIdx_val_of_single rfl (ix2 p j) _).trans hk
      | ⟨1, _⟩ =>
        show (dot_S10000x19_S19x64_S10000x64_1_0_0_1_n_n.rhsIdx (ix2 p j) _ 1).val = j.val
        unfold DotDims.rhsIdx
        rw [dif_neg (show ¬(1 : Fin S19x64.rank) ∈ dot_S10000x19_S19x64_S10000x64_1_0_0_1_n_n.rhsBatch by decide), dif_pos (show (1 : Fin S19x64.rank) ∈ dot_S10000x19_S19x64_S10000x64_1_0_0_1_n_n.rhsNonContracting by decide)]
        rfl)
  rw [el, er]

/-- The matrix unit's product of a 10000 × 64 block with a 64 × 64 matrix, into a zero accumulator, at an entry. -/
theorem matmul2_at (x : FVec Ideal S10000x64 .bf16) (w : FVec Ideal S64x64 .bf16) (p : Fin 10000) (j : Fin 64) :
    matmul dot_S10000x64_S64x64_S10000x64_1_0_0_1_n_n none x w (constant (F := Ideal) S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ =>
        show (dot_S10000x64_S64x64_S10000x64_1_0_0_1_n_n.lhsIdx (ix2 p j) _ 0).val = p.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 p j) _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 p j) _).trans hk
      | ⟨1, _⟩ =>
        show (dot_S10000x64_S64x64_S10000x64_1_0_0_1_n_n.rhsIdx (ix2 p j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- A 64-entry row broadcast down the block, at an entry. -/
theorem bias_at (b : Vec Ideal S1x64 .f32) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- A 19-entry row broadcast down the block, at an entry. -/
theorem row_at (b : Vec Ideal S1x19 .f32) (p : Fin 10000) (q : Fin 19) :
    broadcastTo S10000x19 b broadcasts_S1x19_S10000x19 (ix2 p q) = b (ix2 0 q) :=
  broadcastTo_apply b broadcasts_S1x19_S10000x19 (ix2 p q) (ix2 0 q) (fun a => by
    match a with
    | ⟨0, _⟩ => show (0 : Nat) = if (1 : Nat) = 1 then 0 else p.val; rw [if_pos rfl]
    | ⟨1, _⟩ => show q.val = if (19 : Nat) = 1 then 0 else q.val; rw [if_neg (by decide)])

/-- The hidden layer of a block, at an entry. -/
theorem hidden_at (x : Vec Ideal S10000x19 .f32) (sh sc : Vec Ideal S1x19 .f32) (w1 : Vec Ideal S19x64 .f32)
    (b1 : Vec Ideal S1x64 .f32) (p : Fin 10000) (k : Fin 64) :
    maximumf (addf (matmul dot_S10000x19_S19x64_S10000x64_1_0_0_1_n_n none
        (truncf .bf16 (mulf (addf x (broadcastTo S10000x19 sh broadcasts_S1x19_S10000x19)) (broadcastTo S10000x19 sc broadcasts_S1x19_S10000x19)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32)) (ix2 p k)
      = max ((∑ q : Fin 19, ((x (ix2 p q) + sh (ix2 0 q)) * sc (ix2 0 q)) * w1 (ix2 q k)) + b1 (ix2 0 k)) Cert.Sage.z0 := by
  have hm := matmul1_at (truncf .bf16 (mulf (addf x (broadcastTo S10000x19 sh broadcasts_S1x19_S10000x19)) (broadcastTo S10000x19 sc broadcasts_S1x19_S10000x19)) bitsLt_bf16_f32)
    (truncf .bf16 w1 bitsLt_bf16_f32) p k
  have hb := bias_at b1 p k
  show max (matmul dot_S10000x19_S19x64_S10000x64_1_0_0_1_n_n none
        (truncf .bf16 (mulf (addf x (broadcastTo S10000x19 sh broadcasts_S1x19_S10000x19)) (broadcastTo S10000x19 sc broadcasts_S1x19_S10000x19)) bitsLt_bf16_f32)
        (truncf .bf16 w1 bitsLt_bf16_f32) (constant (F := Ideal) S10000x64 .f32 0x00000000#32) (ix2 p k)
      + broadcastTo S10000x64 b1 broadcasts_S1x64_S10000x64 (ix2 p k)) Cert.Sage.z0 = _
  rw [hm, hb]
  refine congrArg₂ max (congrArg₂ (· + ·) (Finset.sum_congr rfl fun q _ => ?_) rfl) rfl
  show (x (ix2 p q) + broadcastTo S10000x19 sh broadcasts_S1x19_S10000x19 (ix2 p q)) * broadcastTo S10000x19 sc broadcasts_S1x19_S10000x19 (ix2 p q) * w1 (ix2 q k) = _
  rw [row_at, row_at]

/-- The body's one stored value, at an entry of the block. -/
theorem pay_at (x : Vec Ideal S10000x19 .f32) (sh sc : Vec Ideal S1x19 .f32) (w1 : Vec Ideal S19x64 .f32)
    (b1 : Vec Ideal S1x64 .f32) (w2 : Vec Ideal S64x64 .f32) (b2 : Vec Ideal S1x64 .f32) (p : Fin 10000) (j : Fin 64) :
    k1_pay1 (F := Ideal) x sh sc w1 b1 w2 b2 (ix2 p j)
      = max ((∑ k : Fin 64, max ((∑ q : Fin 19, ((x (ix2 p q) + sh (ix2 0 q)) * sc (ix2 0 q)) * w1 (ix2 q k)) + b1 (ix2 0 k)) Cert.Sage.z0 * w2 (ix2 k j)) + b2 (ix2 0 j)) Cert.Sage.z0 := by
  unfold k1_pay1
  rw [shapeCast_self, shapeCast_self, shapeCast_self, shapeCast_self]
  have hb := bias_at b2 p j
  have hm := matmul2_at (truncf .bf16 (maximumf (addf (matmul dot_S10000x19_S19x64_S10000x64_1_0_0_1_n_n none
        (truncf .bf16 (mulf (addf x (broadcastTo S10000x19 sh broadcasts_S1x19_S10000x19)) (broadcastTo S10000x19 sc broadcasts_S1x19_S10000x19)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32))) bitsLt_bf16_f32)
    (truncf .bf16 w2 bitsLt_bf16_f32) p j
  show max (matmul dot_S10000x64_S64x64_S10000x64_1_0_0_1_n_n none (truncf .bf16 (maximumf (addf (matmul dot_S10000x19_S19x64_S10000x64_1_0_0_1_n_n none
        (truncf .bf16 (mulf (addf x (broadcastTo S10000x19 sh broadcasts_S1x19_S10000x19)) (broadcastTo S10000x19 sc broadcasts_S1x19_S10000x19)) bitsLt_bf16_f32)
        (truncf .bf16 w1 bitsLt_bf16_f32) (constant (F := Ideal) S10000x64 .f32 0x00000000#32))
      (broadcastTo S10000x64 b1 broadcasts_S1x64_S10000x64)) (broadcast S10000x64 (Scalar.ofBits (F := Ideal) .f32 0x00000000#32))) bitsLt_bf16_f32)
    (truncf .bf16 w2 bitsLt_bf16_f32) (constant (F := Ideal) S10000x64 .f32 0x00000000#32) (ix2 p j)
      + broadcastTo S10000x64 b2 broadcasts_S1x64_S10000x64 (ix2 p j)) Cert.Sage.z0 = _
  rw [hm, hb]
  refine congrArg₂ max (congrArg₂ (· + ·) (Finset.sum_congr rfl fun k _ => congrArg₂ (· * ·) ?_ rfl) rfl) rfl
  exact hidden_at x sh sc w1 b1 p k

/-- The printed index maps over the grid: the features' window moves with the output's, the parameters' stay. -/
theorem idx_facts : ∀ t : Fin cfg1.N, win1_0.index t (0 : Fin 2) = win1_7.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

set_option maxHeartbeats 4000000 in
/-- What a point writes back is its block of `G` of the arrays the region found. -/
theorem flushed_eq (c : Dev nD) (t : Fin cfg1.N) :
    (dat1 V c).flushed 7 t = ((cfg1.win 7).blk t).view.read (Elt Ideal)
      (G (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz]
  simp only [View.ld_unit_zero (S := S10000x19) hz, View.ld_unit_zero (S := S1x19) hz, View.ld_unit_zero (S := S19x64) hz,
    View.ld_unit_zero (S := S10000x64) hz, View.ld_unit_zero (S := S64x64) hz, View.ld_unit_zero (S := S1x64) hz]
  obtain ⟨e0, e1, e2, e3, e4, e5, e6, e7, e8, e9, e10, e11, e12, e13, e14, e15⟩ := idx_facts t
  funext y
  obtain ⟨p, j, rfl⟩ : ∃ (p : Fin 10000) (j : Fin 64), y = ix2 p j := ⟨y 0, y 1, eq_ix2 y⟩
  refine (pay_at (iblk1 V c 0 t) (iblk1 V c 1 t) (iblk1 V c 2 t) (iblk1 V c 3 t) (iblk1 V c 4 t) (iblk1 V c 5 t) (iblk1 V c 6 t) p j).trans ?_
  refine Eq.trans ?_ (G_apply _ _ _ _ _ _ _ _).symm
  have h0 : ∀ q : Fin 19, ((cfg1.win 0).blk t).view.emb (ix2 p q) = ix2 ((((cfg1.win 7).blk t).view.emb (ix2 p j)) 0) q := fun q => by
    funext a; apply Fin.ext
    match a with
    | ⟨0, _⟩ => show win1_0.index t (0 : Fin 2) * 10000 + 1 * p.val = win1_7.index t (0 : Fin 2) * 10000 + 1 * p.val; omega
    | ⟨1, _⟩ => show win1_0.index t (1 : Fin 2) * 19 + 1 * q.val = q.val; omega
  have h1 : ∀ q : Fin 19, ((cfg1.win 1).blk t).view.emb (ix2 0 q) = ix2 0 q := fun q => by
    funext a; apply Fin.ext
    match a with
    | ⟨0, _⟩ => show win1_1.index t (0 : Fin 2) * 1 + 1 * 0 = 0; omega
    | ⟨1, _⟩ => show win1_1.index t (1 : Fin 2) * 19 + 1 * q.val = q.val; omega
  have h2 : ∀ q : Fin 19, ((cfg1.win 2).blk t).view.emb (ix2 0 q) = ix2 0 q := fun q => by
    funext a; apply Fin.ext
    match a with
    | ⟨0, _⟩ => show win1_2.index t (0 : Fin 2) * 1 + 1 * 0 = 0; omega
    | ⟨1, _⟩ => show win1_2.index t (1 : Fin 2) * 19 + 1 * q.val = q.val; omega
  have h3 : ∀ (q : Fin 19) (k : Fin 64), ((cfg1.win 3).blk t).view.emb (ix2 q k) = ix2 q k := fun q k => by
    funext a; apply Fin.ext
    match a with
    | ⟨0, _⟩ => show win1_3.index t (0 : Fin 2) * 19 + 1 * q.val = q.val; omega
    | ⟨1, _⟩ => show win1_3.index t (1 : Fin 2) * 64 + 1 * k.val = k.val; omega
  have h4 : ∀ k : Fin 64, ((cfg1.win 4).blk t).view.emb (ix2 0 k) = ix2 0 k := fun k => by
    funext a; apply Fin.ext
    match a with
    | ⟨0, _⟩ => show win1_4.index t (0 : Fin 2) * 1 + 1 * 0 = 0; omega
    | ⟨1, _⟩ => show win1_4.index t (1 : Fin 2) * 64 + 1 * k.val = k.val; omega
  have h5 : ∀ k : Fin 64, ((cfg1.win 5).blk t).view.emb (ix2 k j) = ix2 k ((((cfg1.win 7).blk t).view.emb (ix2 p j)) 1) := fun k => by
    funext a; apply Fin.ext
    match a with
    | ⟨0, _⟩ => show win1_5.index t (0 : Fin 2) * 64 + 1 * k.val = k.val; omega
    | ⟨1, _⟩ => show win1_5.index t (1 : Fin 2) * 64 + 1 * j.val = win1_7.index t (1 : Fin 2) * 64 + 1 * j.val; omega
  have h6 : ((cfg1.win 6).blk t).view.emb (ix2 0 j) = ix2 0 ((((cfg1.win 7).blk t).view.emb (ix2 p j)) 1) := by
    funext a; apply Fin.ext
    match a with
    | ⟨0, _⟩ => show win1_6.index t (0 : Fin 2) * 1 + 1 * 0 = 0; omega
    | ⟨1, _⟩ => show win1_6.index t (1 : Fin 2) * 64 + 1 * j.val = win1_7.index t (1 : Fin 2) * 64 + 1 * j.val; omega
  refine congrArg₂ max (congrArg₂ (· + ·) (Finset.sum_congr rfl fun k _ => congrArg₂ (· * ·) (congrArg₂ max (congrArg₂ (· + ·)
    (Finset.sum_congr rfl fun q _ => congrArg₂ (· * ·) (congrArg₂ (· * ·) (congrArg₂ (· + ·)
      (congrArg (V c (Pipeline.arrRef spec1 0)) (h0 q)) (congrArg (V c (Pipeline.arrRef spec1 1)) (h1 q)))
      (congrArg (V c (Pipeline.arrRef spec1 2)) (h2 q))) (congrArg (V c (Pipeline.arrRef spec1 3)) (h3 q k)))
    (congrArg (V c (Pipeline.arrRef spec1 4)) (h4 k))) rfl) (congrArg (V c (Pipeline.arrRef spec1 5)) (h5 k)))
    (congrArg (V c (Pipeline.arrRef spec1 6)) h6)) rfl

/-- An index of the array is in a point's block iff each coordinate is in the block's range. -/
theorem mem_blk (t : Fin cfg1.N) (i : S200000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v9).slice (win1_7.rect t)).set ↔ _
  rw [View.set_slice_whole, Rect.mem_set_unit]
  exact Iff.rfl

/-- Every index of the output array is in the block of the point its row falls to. -/
theorem cover (i : S200000x64.Idx) :
    ∃ t : Fin cfg1.N, (cfg1.win 7).flush t = true ∧ i ∈ ((cfg1.win 7).blk t).view.set := by
  have hi0 : (i 0).val < 200000 := (i 0).isLt
  have hi1 : (i 1).val < 64 := (i 1).isLt
  have hN : cfg1.N = 20 := N_1
  let t : Fin cfg1.N := ⟨(i 0).val / 10000, by rw [hN]; omega⟩
  obtain ⟨e0, e1, e2, e3, e4, e5, e6, e7, e8, e9, e10, e11, e12, e13, e14, e15⟩ := idx_facts t
  have e14' : win1_7.index t (0 : Fin 2) = (i 0).val / 10000 := e14
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

/-- The output array after the region. -/
theorem arr (c : Dev nD) : (dat1 V c).arrAt 7 cfg1.N
    = G (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 V c).arrAt_eq_of_cover 7 _ (fun t _ => flushed_eq V c t) cover

end Cert.KernelIdeal.Mlp1

end
-- ==== Proof.RefForm.lean ====
/-
  The reference program's host operations in the closed forms of the specification: the two embedding networks as
  `Cert.Sage.mlp`, and one aggregation step (divide the summed messages by the clamped count, contract with a weight
  matrix, add the bias and the destination's own features times a second matrix, rectify) as `Cert.Sage.sage`.
-/
import proofs.«104275_j19928648254212_1_alg».proof.Proof.Gen.ReferenceIdeal.Read
import proofs.«104275_j19928648254212_1_alg».proof.Proof.Spec
import Idealize.ShloMosaic.Lib.ValueIdx
import Idealize.ShloMosaic.Lib.Pipeline.Value
import Idealize.ShloMosaic.PureOps.Ideal.Laws

noncomputable section

namespace Cert.ReferenceIdeal.RefForm

open Cert.ReferenceIdeal Cert.ReferenceIdeal.Gen Cert.ReferenceIdeal.Read Idealize.ShloMosaic Idealize.ShloMosaic.ValueIdx

/-- The constraint nodes' embedding is the two-layer network of the specification. -/
theorem mlp_c (x0 : (⟨S100000x5, .f32⟩ : BufTy).Contents (Elt Ideal)) (x4 x5 : (⟨S5, .f32⟩ : BufTy).Contents (Elt Ideal))
    (x6 : (⟨S5x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) :
    val_main_v15 (F := Ideal) x0 x4 x5 x6 x7 x8 x9 = fun i => Cert.Sage.mlp (n := 100000) (d := 5)
      (fun p q => x0 (ix2 p q)) (fun q => x4 (ix1 q)) (fun q => x5 (ix1 q)) (fun q k => x6 (ix2 q k))
      (fun k => x7 (ix1 k)) (fun k j => x8 (ix2 k j)) (fun j => x9 (ix1 j)) (i 0) (i 1) := by
  funext i
  obtain ⟨p, j, rfl⟩ : ∃ (p : Fin 100000) (j : Fin 64), i = ix2 p j := ⟨i 0, i 1, eq_ix2 i⟩
  show val_main_v15 (F := Ideal) x0 x4 x5 x6 x7 x8 x9 (ix2 p j) = Cert.Sage.mlp (n := 100000) (d := 5)
      (fun p q => x0 (ix2 p q)) (fun q => x4 (ix1 q)) (fun q => x5 (ix1 q)) (fun q k => x6 (ix2 q k))
      (fun k => x7 (ix1 k)) (fun k j => x8 (ix2 k j)) (fun j => x9 (ix1 j)) p j
  have eb2 : idx_main_v12 (idx_main_v13 (ix2 p j)) = ix1 j := funext fun a => Fin.ext (by match a with | ⟨0, _⟩ => rfl)
  have ed2l : ∀ k : Fin 64, lidx_main_v11 (ix2 p j) k = ix2 p k := fun k => funext fun a => Fin.ext (by
    match a with | ⟨0, _⟩ => rfl | ⟨1, _⟩ => rfl)
  have ed2r : ∀ k : Fin 64, ridx_main_v11 (ix2 p j) k = ix2 k j := fun k => funext fun a => Fin.ext (by
    match a with | ⟨0, _⟩ => rfl | ⟨1, _⟩ => rfl)
  have eb1 : ∀ k : Fin 64, idx_main_v7 (idx_main_v8 (ix2 p k)) = ix1 k := fun k => funext fun a => Fin.ext (by
    match a with | ⟨0, _⟩ => rfl)
  have ed1l : ∀ (k : Fin 64) (q : Fin 5), lidx_main_v6 (ix2 p k) q = ix2 p q := fun k q => funext fun a => Fin.ext (by
    match a with | ⟨0, _⟩ => rfl | ⟨1, _⟩ => rfl)
  have ed1r : ∀ (k : Fin 64) (q : Fin 5), ridx_main_v6 (ix2 p k) q = ix2 q k := fun k q => funext fun a => Fin.ext (by
    match a with | ⟨0, _⟩ => rfl | ⟨1, _⟩ => rfl)
  have esh : ∀ q : Fin 5, idx_main_v0 (idx_main_v1 (ix2 p q)) = ix1 q := fun q => funext fun a => Fin.ext (by
    match a with | ⟨0, _⟩ => rfl)
  have esc : ∀ q : Fin 5, idx_main_v3 (idx_main_v4 (ix2 p q)) = ix1 q := fun q => funext fun a => Fin.ext (by
    match a with | ⟨0, _⟩ => rfl)
  simp only [val_main_v15_apply, val_main_v14_apply, val_main_v13_apply, val_main_v12_apply, val_main_v11_apply,
    val_main_call1_v0_apply, val_main_call1_cst_apply, val_main_v10_apply, val_main_v9_apply, val_main_v8_apply,
    val_main_v7_apply, val_main_v6_apply, val_main_call0_v0_apply, val_main_call0_cst_apply, val_main_v5_apply,
    val_main_v4_apply, val_main_v3_apply, val_main_v2_apply, val_main_v1_apply, val_main_v0_apply,
    eb2, ed2l, ed2r, eb1, ed1l, ed1r, esh, esc,
    Ideal.addf_def, Ideal.mulf_def, Ideal.maximumf_def, Ideal.ofBits_def]
  rfl

/-- The variable nodes' embedding is the same network on their nineteen raw features. -/
theorem mlp_v (x1 : (⟨S200000x19, .f32⟩ : BufTy).Contents (Elt Ideal)) (x10 x11 : (⟨S19, .f32⟩ : BufTy).Contents (Elt Ideal))
    (x12 : (⟨S19x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal)) :
    val_main_v31 (F := Ideal) x1 x10 x11 x12 x13 x14 x15 = fun i => Cert.Sage.mlp (n := 200000) (d := 19)
      (fun p q => x1 (ix2 p q)) (fun q => x10 (ix1 q)) (fun q => x11 (ix1 q)) (fun q k => x12 (ix2 q k))
      (fun k => x13 (ix1 k)) (fun k j => x14 (ix2 k j)) (fun j => x15 (ix1 j)) (i 0) (i 1) := by
  funext i
  obtain ⟨p, j, rfl⟩ : ∃ (p : Fin 200000) (j : Fin 64), i = ix2 p j := ⟨i 0, i 1, eq_ix2 i⟩
  show val_main_v31 (F := Ideal) x1 x10 x11 x12 x13 x14 x15 (ix2 p j) = Cert.Sage.mlp (n := 200000) (d := 19)
      (fun p q => x1 (ix2 p q)) (fun q => x10 (ix1 q)) (fun q => x11 (ix1 q)) (fun q k => x12 (ix2 q k))
      (fun k => x13 (ix1 k)) (fun k j => x14 (ix2 k j)) (fun j => x15 (ix1 j)) p j
  have eb2 : idx_main_v28 (idx_main_v29 (ix2 p j)) = ix1 j := funext fun a => Fin.ext (by match a with | ⟨0, _⟩ => rfl)
  have ed2l : ∀ k : Fin 64, lidx_main_v27 (ix2 p j) k = ix2 p k := fun k => funext fun a => Fin.ext (by
    match a with | ⟨0, _⟩ => rfl | ⟨1, _⟩ => rfl)
  have ed2r : ∀ k : Fin 64, ridx_main_v27 (ix2 p j) k = ix2 k j := fun k => funext fun a => Fin.ext (by
    match a with | ⟨0, _⟩ => rfl | ⟨1, _⟩ => rfl)
  have eb1 : ∀ k : Fin 64, idx_main_v23 (idx_main_v24 (ix2 p k)) = ix1 k := fun k => funext fun a => Fin.ext (by
    match a with | ⟨0, _⟩ => rfl)
  have ed1l : ∀ (k : Fin 64) (q : Fin 19), lidx_main_v22 (ix2 p k) q = ix2 p q := fun k q => funext fun a => Fin.ext (by
    match a with | ⟨0, _⟩ => rfl | ⟨1, _⟩ => rfl)
  have ed1r : ∀ (k : Fin 64) (q : Fin 19), ridx_main_v22 (ix2 p k) q = ix2 q k := fun k q => funext fun a => Fin.ext (by
    match a with | ⟨0, _⟩ => rfl | ⟨1, _⟩ => rfl)
  have esh : ∀ q : Fin 19, idx_main_v16 (idx_main_v17 (ix2 p q)) = ix1 q := fun q => funext fun a => Fin.ext (by
    match a with | ⟨0, _⟩ => rfl)
  have esc : ∀ q : Fin 19, idx_main_v19 (idx_main_v20 (ix2 p q)) = ix1 q := fun q => funext fun a => Fin.ext (by
    match a with | ⟨0, _⟩ => rfl)
  simp only [val_main_v31_apply, val_main_v30_apply, val_main_v29_apply, val_main_v28_apply, val_main_v27_apply,
    val_main_call3_v0_apply, val_main_call3_cst_apply, val_main_v26_apply, val_main_v25_apply, val_main_v24_apply,
    val_main_v23_apply, val_main_v22_apply, val_main_call2_v0_apply, val_main_call2_cst_apply, val_main_v21_apply,
    val_main_v20_apply, val_main_v19_apply, val_main_v18_apply, val_main_v17_apply, val_main_v16_apply,
    eb2, ed2l, ed2r, eb1, ed1l, ed1r, esh, esc,
    Ideal.addf_def, Ideal.mulf_def, Ideal.maximumf_def, Ideal.ofBits_def]
  rfl

/-- A row of the 200000 × 64 by 64 × 64 contraction is the sum over the shared axis. -/
theorem dot_v (y : FVec Ideal S200000x64 .f32) (w : FVec Ideal S64x64 .f32) (p : Fin 200000) (j : Fin 64) :
    Host.dotGeneral (F := Ideal) dot_S200000x64_S64x64_S200000x64_1_0_0_1_n_n none y w (ix2 p j) = ∑ k : Fin 64, y (ix2 p k) * w (ix2 k j) := by
  simp only [Host.dotGeneral]
  rw [Ideal.dotGeneral_apply, ← Equiv.sum_comp (contrEquiv1 dot_S200000x64_S64x64_S200000x64_1_0_0_1_n_n 64 rfl rfl).symm]
  refine Finset.sum_congr rfl fun k _ => ?_
  have hk := contrEquiv1_symm_val dot_S200000x64_S64x64_S200000x64_1_0_0_1_n_n 64 rfl rfl k
  have el : dot_S200000x64_S64x64_S200000x64_1_0_0_1_n_n.lhsIdx (ix2 p j) ((contrEquiv1 dot_S200000x64_S64x64_S200000x64_1_0_0_1_n_n 64 rfl rfl).symm k) = ix2 p k := funext fun a => Fin.ext (by
    match a with
    | ⟨0, _⟩ => exact lhs_main_v67_0 _ _
    | ⟨1, _⟩ => exact (lhs_main_v67_1 _ _).trans hk)
  have er : dot_S200000x64_S64x64_S200000x64_1_0_0_1_n_n.rhsIdx (ix2 p j) ((contrEquiv1 dot_S200000x64_S64x64_S200000x64_1_0_0_1_n_n 64 rfl rfl).symm k) = ix2 k j := funext fun a => Fin.ext (by
    match a with
    | ⟨0, _⟩ => exact (rhs_main_v67_0 _ _).trans hk
    | ⟨1, _⟩ => exact rhs_main_v67_1 _ _)
  rw [el, er]

/-- The count, spread along the feature axis, read at a row and a feature is the row's count. -/
theorem cnt_v (cm : FVec Ideal S200000 .f32) (p : Fin 200000) (k : Fin 64) :
    broadcastInDim S200000x64 ![0, 1] bcast_S200000x1_S200000x64_0_1 (broadcastInDim S200000x1 ![0] bcast_S200000_S200000x1_0 cm) (ix2 p k) = cm (ix1 p) :=
  (broadcastInDim_apply _ bcast_S200000x1_S200000x64_0_1 _ (ix2 p k) (ix2 p 0) (fun a => match a with
    | ⟨0, _⟩ => by show p.val = if (200000 : Nat) = 1 then 0 else p.val; rw [if_neg (by decide)]
    | ⟨1, _⟩ => by show 0 = if (1 : Nat) = 1 then 0 else k.val; rw [if_pos rfl])).trans
  (broadcastInDim_apply _ bcast_S200000_S200000x1_0 cm (ix2 p 0) (ix1 p) (fun a => match a with
    | ⟨0, _⟩ => by show p.val = if (200000 : Nat) = 1 then 0 else p.val; rw [if_neg (by decide)]))

/-- The bias, spread along the node axis, read at a row and a feature is the feature's bias. -/
theorem bias_v (b : FVec Ideal S64 .f32) (p : Fin 200000) (j : Fin 64) :
    broadcastInDim S200000x64 ![0, 1] bcast_S1x64_S200000x64_0_1 (broadcastInDim S1x64 ![1] bcast_S64_S1x64_1 b) (ix2 p j) = b (ix1 j) :=
  (broadcastInDim_apply _ bcast_S1x64_S200000x64_0_1 _ (ix2 p j) (ix2 0 j) (fun a => match a with
    | ⟨0, _⟩ => by show 0 = if (1 : Nat) = 1 then 0 else p.val; rw [if_pos rfl]
    | ⟨1, _⟩ => by show j.val = if (64 : Nat) = 1 then 0 else j.val; rw [if_neg (by decide)])).trans
  (broadcastInDim_apply _ bcast_S64_S1x64_1 b (ix2 0 j) (ix1 j) (fun a => match a with
    | ⟨0, _⟩ => by show j.val = if (64 : Nat) = 1 then 0 else j.val; rw [if_neg (by decide)]))

/-- The rectifier's threshold, the zero word spread over the whole array, reads the zero word everywhere. -/
theorem zero_v (i : S200000x64.Idx) :
    broadcastInDim S200000x64 ![] bcast_S_S200000x64 (constant (F := Ideal) S_ .f32 0x00000000#32) i = Cert.Sage.z0 :=
  broadcastInDim_apply _ bcast_S_S200000x64 _ i (fun a => a.elim0) (fun a => a.elim0)

/-- One aggregation step into the variable nodes: the summed messages divided by the clamped count, contracted with the
    first weight matrix, plus the bias, plus the nodes' own features contracted with the second matrix, rectified. -/
theorem step_v (S : FVec Ideal S200000x64 .f32) (cm : FVec Ideal S200000 .f32) (wl wr : FVec Ideal S64x64 .f32) (b : FVec Ideal S64 .f32) (xd : FVec Ideal S200000x64 .f32) :
    maximumf (addf (addf (Host.dotGeneral dot_S200000x64_S64x64_S200000x64_1_0_0_1_n_n none
        (Host.divf S (broadcastInDim S200000x64 ![0, 1] bcast_S200000x1_S200000x64_0_1 (broadcastInDim S200000x1 ![0] bcast_S200000_S200000x1_0 cm))) wl)
        (broadcastInDim S200000x64 ![0, 1] bcast_S1x64_S200000x64_0_1 (broadcastInDim S1x64 ![1] bcast_S64_S1x64_1 b)))
        (Host.dotGeneral dot_S200000x64_S64x64_S200000x64_1_0_0_1_n_n none xd wr))
        (broadcastInDim S200000x64 ![] bcast_S_S200000x64 (constant (F := Ideal) S_ .f32 0x00000000#32))
      = fun i => Cert.Sage.sage (n := 200000) (fun p k => Ideal.div (S (ix2 p k)) (cm (ix1 p))) (fun k j => wl (ix2 k j))
          (fun j => b (ix1 j)) (fun p k => xd (ix2 p k)) (fun k j => wr (ix2 k j)) (i 0) (i 1) := by
  funext i
  obtain ⟨p, j, rfl⟩ : ∃ (p : Fin 200000) (j : Fin 64), i = ix2 p j := ⟨i 0, i 1, eq_ix2 i⟩
  rw [maximumf_apply, addf_apply, addf_apply, dot_v, dot_v, bias_v, zero_v]
  have hd : ∀ k : Fin 64, Host.divf S (broadcastInDim S200000x64 ![0, 1] bcast_S200000x1_S200000x64_0_1
      (broadcastInDim S200000x1 ![0] bcast_S200000_S200000x1_0 cm)) (ix2 p k) = Ideal.div (S (ix2 p k)) (cm (ix1 p)) := fun k => by
    show Ideal.div (S (ix2 p k)) (broadcastInDim S200000x64 ![0, 1] bcast_S200000x1_S200000x64_0_1
      (broadcastInDim S200000x1 ![0] bcast_S200000_S200000x1_0 cm) (ix2 p k)) = _
    rw [cnt_v]
  rw [Finset.sum_congr rfl fun k _ => congrArg (· * wl (ix2 k j)) (hd k)]
  rfl

/-- A row of the 100000 × 64 by 64 × 64 contraction is the sum over the shared axis. -/
theorem dot_c (y : FVec Ideal S100000x64 .f32) (w : FVec Ideal S64x64 .f32) (p : Fin 100000) (j : Fin 64) :
    Host.dotGeneral (F := Ideal) dot_S100000x64_S64x64_S100000x64_1_0_0_1_n_n none y w (ix2 p j) = ∑ k : Fin 64, y (ix2 p k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p j) ((contrEquiv1 dot_S100000x64_S64x64_S100000x64_1_0_0_1_n_n 64 rfl rfl).symm k) = ix2 p k := funext fun a => Fin.ext (by
    match a with
    | ⟨0, _⟩ => exact lhs_main_v11_0 _ _
    | ⟨1, _⟩ => exact (lhs_main_v11_1 _ _).trans hk)
  have er : dot_S100000x64_S64x64_S100000x64_1_0_0_1_n_n.rhsIdx (ix2 p j) ((contrEquiv1 dot_S100000x64_S64x64_S100000x64_1_0_0_1_n_n 64 rfl rfl).symm k) = ix2 k j := funext fun a => Fin.ext (by
    match a with
    | ⟨0, _⟩ => exact (rhs_main_v11_0 _ _).trans hk
    | ⟨1, _⟩ => exact rhs_main_v11_1 _ _)
  rw [el, er]

/-- The count, spread along the feature axis, read at a row and a feature is the row's count. -/
theorem cnt_c (cm : FVec Ideal S100000 .f32) (p : Fin 100000) (k : Fin 64) :
    broadcastInDim S100000x64 ![0, 1] bcast_S100000x1_S100000x64_0_1 (broadcastInDim S100000x1 ![0] bcast_S100000_S100000x1_0 cm) (ix2 p k) = cm (ix1 p) :=
  (broadcastInDim_apply _ bcast_S100000x1_S100000x64_0_1 _ (ix2 p k) (ix2 p 0) (fun a => match a with
    | ⟨0, _⟩ => by show p.val = if (100000 : Nat) = 1 then 0 else p.val; rw [if_neg (by decide)]
    | ⟨1, _⟩ => by show 0 = if (1 : Nat) = 1 then 0 else k.val; rw [if_pos rfl])).trans
  (broadcastInDim_apply _ bcast_S100000_S100000x1_0 cm (ix2 p 0) (ix1 p) (fun a => match a with
    | ⟨0, _⟩ => by show p.val = if (100000 : Nat) = 1 then 0 else p.val; rw [if_neg (by decide)]))

/-- The bias, spread along the node axis, read at a row and a feature is the feature's bias. -/
theorem bias_c (b : FVec Ideal S64 .f32) (p : Fin 100000) (j : Fin 64) :
    broadcastInDim S100000x64 ![0, 1] bcast_S1x64_S100000x64_0_1 (broadcastInDim S1x64 ![1] bcast_S64_S1x64_1 b) (ix2 p j) = b (ix1 j) :=
  (broadcastInDim_apply _ bcast_S1x64_S100000x64_0_1 _ (ix2 p j) (ix2 0 j) (fun a => match a with
    | ⟨0, _⟩ => by show 0 = if (1 : Nat) = 1 then 0 else p.val; rw [if_pos rfl]
    | ⟨1, _⟩ => by show j.val = if (64 : Nat) = 1 then 0 else j.val; rw [if_neg (by decide)])).trans
  (broadcastInDim_apply _ bcast_S64_S1x64_1 b (ix2 0 j) (ix1 j) (fun a => match a with
    | ⟨0, _⟩ => by show j.val = if (64 : Nat) = 1 then 0 else j.val; rw [if_neg (by decide)]))

/-- The rectifier's threshold, the zero word spread over the whole array, reads the zero word everywhere. -/
theorem zero_c (i : S100000x64.Idx) :
    broadcastInDim S100000x64 ![] bcast_S_S100000x64 (constant (F := Ideal) S_ .f32 0x00000000#32) i = Cert.Sage.z0 :=
  broadcastInDim_apply _ bcast_S_S100000x64 _ i (fun a => a.elim0) (fun a => a.elim0)

/-- One aggregation step into the constraint nodes: the summed messages divided by the clamped count, contracted with the
    first weight matrix, plus the bias, plus the nodes' own features contracted with the second matrix, rectified. -/
theorem step_c (S : FVec Ideal S100000x64 .f32) (cm : FVec Ideal S100000 .f32) (wl wr : FVec Ideal S64x64 .f32) (b : FVec Ideal S64 .f32) (xd : FVec Ideal S100000x64 .f32) :
    maximumf (addf (addf (Host.dotGeneral dot_S100000x64_S64x64_S100000x64_1_0_0_1_n_n none
        (Host.divf S (broadcastInDim S100000x64 ![0, 1] bcast_S100000x1_S100000x64_0_1 (broadcastInDim S100000x1 ![0] bcast_S100000_S100000x1_0 cm))) wl)
        (broadcastInDim S100000x64 ![0, 1] bcast_S1x64_S100000x64_0_1 (broadcastInDim S1x64 ![1] bcast_S64_S1x64_1 b)))
        (Host.dotGeneral dot_S100000x64_S64x64_S100000x64_1_0_0_1_n_n none xd wr))
        (broadcastInDim S100000x64 ![] bcast_S_S100000x64 (constant (F := Ideal) S_ .f32 0x00000000#32))
      = fun i => Cert.Sage.sage (n := 100000) (fun p k => Ideal.div (S (ix2 p k)) (cm (ix1 p))) (fun k j => wl (ix2 k j))
          (fun j => b (ix1 j)) (fun p k => xd (ix2 p k)) (fun k j => wr (ix2 k j)) (i 0) (i 1) := by
  funext i
  obtain ⟨p, j, rfl⟩ : ∃ (p : Fin 100000) (j : Fin 64), i = ix2 p j := ⟨i 0, i 1, eq_ix2 i⟩
  rw [maximumf_apply, addf_apply, addf_apply, dot_c, dot_c, bias_c, zero_c]
  have hd : ∀ k : Fin 64, Host.divf S (broadcastInDim S100000x64 ![0, 1] bcast_S100000x1_S100000x64_0_1
      (broadcastInDim S100000x1 ![0] bcast_S100000_S100000x1_0 cm)) (ix2 p k) = Ideal.div (S (ix2 p k)) (cm (ix1 p)) := fun k => by
    show Ideal.div (S (ix2 p k)) (broadcastInDim S100000x64 ![0, 1] bcast_S100000x1_S100000x64_0_1
      (broadcastInDim S100000x1 ![0] bcast_S100000_S100000x1_0 cm) (ix2 p k)) = _
    rw [cnt_c]
  rw [Finset.sum_congr rfl fun k _ => congrArg (· * wl (ix2 k j)) (hd k)]
  rfl

end Cert.ReferenceIdeal.RefForm

end
-- ==== Proof.KWalk1.lean ====
/-
  The two embedding regions against the reference.

  Region 0 reads the constraint nodes' raw features and the first network's parameters (the four vectors through a
  reshape to a one-row matrix, which reads the same entries); what it leaves in its output array is the reference's
  embedding of the constraint nodes, as a function of the argument arrays. Region 1 likewise for the variable nodes.
-/
import proofs.«104275_j19928648254212_1_alg».proof.Proof.Gen.KernelIdeal.Frame
import proofs.«104275_j19928648254212_1_alg».proof.Proof.KMlp0
import proofs.«104275_j19928648254212_1_alg».proof.Proof.KMlp1
import proofs.«104275_j19928648254212_1_alg».proof.Proof.RefForm
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg) (c : Dev nD)

/-- Argument 0 as launched. -/
abbrev A0 (m : (ℓ : Loc nD τ sig) → Buf (Elt Ideal) ℓ) (c : Dev nD) := m ((c : Thread nD τ).loc main_arg0)
/-- Argument 1 as launched. -/
abbrev A1 (m : (ℓ : Loc nD τ sig) → Buf (Elt Ideal) ℓ) (c : Dev nD) := m ((c : Thread nD τ).loc main_arg1)
/-- Argument 3 as launched. -/
abbrev A3 (m : (ℓ : Loc nD τ sig) → Buf (Elt Ideal) ℓ) (c : Dev nD) := m ((c : Thread nD τ).loc main_arg3)
/-- Argument 4 as launched. -/
abbrev A4 (m : (ℓ : Loc nD τ sig) → Buf (Elt Ideal) ℓ) (c : Dev nD) := m ((c : Thread nD τ).loc main_arg4)
/-- Argument 5 as launched. -/
abbrev A5 (m : (ℓ : Loc nD τ sig) → Buf (Elt Ideal) ℓ) (c : Dev nD) := m ((c : Thread nD τ).loc main_arg5)
/-- Argument 6 as launched. -/
abbrev A6 (m : (ℓ : Loc nD τ sig) → Buf (Elt Ideal) ℓ) (c : Dev nD) := m ((c : Thread nD τ).loc main_arg6)
/-- Argument 7 as launched. -/
abbrev A7 (m : (ℓ : Loc nD τ sig) → Buf (Elt Ideal) ℓ) (c : Dev nD) := m ((c : Thread nD τ).loc main_arg7)
/-- Argument 8 as launched. -/
abbrev A8 (m : (ℓ : Loc nD τ sig) → Buf (Elt Ideal) ℓ) (c : Dev nD) := m ((c : Thread nD τ).loc main_arg8)
/-- Argument 9 as launched. -/
abbrev A9 (m : (ℓ : Loc nD τ sig) → Buf (Elt Ideal) ℓ) (c : Dev nD) := m ((c : Thread nD τ).loc main_arg9)
/-- Argument 10 as launched. -/
abbrev A10 (m : (ℓ : Loc nD τ sig) → Buf (Elt Ideal) ℓ) (c : Dev nD) := m ((c : Thread nD τ).loc main_arg10)
/-- Argument 11 as launched. -/
abbrev A11 (m : (ℓ : Loc nD τ sig) → Buf (Elt Ideal) ℓ) (c : Dev nD) := m ((c : Thread nD τ).loc main_arg11)
/-- Argument 12 as launched. -/
abbrev A12 (m : (ℓ : Loc nD τ sig) → Buf (Elt Ideal) ℓ) (c : Dev nD) := m ((c : Thread nD τ).loc main_arg12)
/-- Argument 13 as launched. -/
abbrev A13 (m : (ℓ : Loc nD τ sig) → Buf (Elt Ideal) ℓ) (c : Dev nD) := m ((c : Thread nD τ).loc main_arg13)
/-- Argument 14 as launched. -/
abbrev A14 (m : (ℓ : Loc nD τ sig) → Buf (Elt Ideal) ℓ) (c : Dev nD) := m ((c : Thread nD τ).loc main_arg14)
/-- Argument 15 as launched. -/
abbrev A15 (m : (ℓ : Loc nD τ sig) → Buf (Elt Ideal) ℓ) (c : Dev nD) := m ((c : Thread nD τ).loc main_arg15)
/-- Argument 18 as launched. -/
abbrev A18 (m : (ℓ : Loc nD τ sig) → Buf (Elt Ideal) ℓ) (c : Dev nD) := m ((c : Thread nD τ).loc main_arg18)
/-- Argument 19 as launched. -/
abbrev A19 (m : (ℓ : Loc nD τ sig) → Buf (Elt Ideal) ℓ) (c : Dev nD) := m ((c : Thread nD τ).loc main_arg19)
/-- Argument 20 as launched. -/
abbrev A20 (m : (ℓ : Loc nD τ sig) → Buf (Elt Ideal) ℓ) (c : Dev nD) := m ((c : Thread nD τ).loc main_arg20)

/-- A vector reshaped to a one-row matrix, at an entry of the row. -/
theorem shapeCast_row {d : Nat} {α : Type} (x : (⟨1, ![d]⟩ : Shape).Idx → α)
    (h : (⟨1, ![d]⟩ : Shape).ShapeCasts ⟨2, ![1, d]⟩) (q : Fin d) :
    shapeCast (⟨2, ![1, d]⟩ : Shape) x h (ix2 0 q) = x (ix1 q) :=
  shapeCast_apply x h (ix2 0 q) (ix1 q) (by
    rw [Shape.rowMajor_val_one, Shape.rowMajor_val_two]
    show q.val = (0 : Fin 1).val * d + q.val
    simp)

set_option maxHeartbeats 2000000 in
/-- The constraint nodes' embedding after region 0 is the reference's. -/
theorem e1 : W2 m ρ c (Proc.devRef .tc main_v4)
    = Cert.ReferenceIdeal.Read.val_main_v15 (F := Ideal) (A0 m c) (A4 m c) (A5 m c) (A6 m c) (A7 m c) (A8 m c) (A9 m c) := by
  rw [Cert.ReferenceIdeal.RefForm.mlp_c]
  refine (W2_arr m ρ c 7).trans ?_
  rw [Cert.KernelIdeal.Mlp0.arr]
  have a0 : V1 m ρ c (Pipeline.arrRef spec0 0) = A0 m c := by
    show StableHlo.after hostOps0 (W0 m ρ c) (Proc.devRef .tc main_arg0) = _
    after_results <;> rfl
  have a3 : V1 m ρ c (Pipeline.arrRef spec0 3) = A6 m c := by
    show StableHlo.after hostOps0 (W0 m ρ c) (Proc.devRef .tc main_arg6) = _
    after_results <;> rfl
  have a5 : V1 m ρ c (Pipeline.arrRef spec0 5) = A8 m c := by
    show StableHlo.after hostOps0 (W0 m ρ c) (Proc.devRef .tc main_arg8) = _
    after_results <;> rfl
  have a1 : V1 m ρ c (Pipeline.arrRef spec0 1) = shapeCast S1x5 (A4 m c) shapeCasts_S5_S1x5 := by
    show StableHlo.after hostOps0 (W0 m ρ c) (Proc.devRef .tc main_v0) = _
    after_results <;> rfl
  have a2 : V1 m ρ c (Pipeline.arrRef spec0 2) = shapeCast S1x5 (A5 m c) shapeCasts_S5_S1x5 := by
    show StableHlo.after hostOps0 (W0 m ρ c) (Proc.devRef .tc main_v1) = _
    after_results <;> rfl
  have a4 : V1 m ρ c (Pipeline.arrRef spec0 4) = shapeCast S1x64 (A7 m c) shapeCasts_S64_S1x64 := by
    show StableHlo.after hostOps0 (W0 m ρ c) (Proc.devRef .tc main_v2) = _
    after_results <;> rfl
  have a6 : V1 m ρ c (Pipeline.arrRef spec0 6) = shapeCast S1x64 (A9 m c) shapeCasts_S64_S1x64 := by
    show StableHlo.after hostOps0 (W0 m ρ c) (Proc.devRef .tc main_v3) = _
    after_results <;> rfl
  rw [a0, a1, a2, a3, a4, a5, a6]
  unfold Cert.KernelIdeal.Mlp0.G
  funext i
  simp only [shapeCast_row]

set_option maxHeartbeats 2000000 in
/-- The variable nodes' embedding after region 1 is the reference's. -/
theorem e2 : W4 m ρ c (Proc.devRef .tc main_v9)
    = Cert.ReferenceIdeal.Read.val_main_v31 (F := Ideal) (A1 m c) (A10 m c) (A11 m c) (A12 m c) (A13 m c) (A14 m c) (A15 m c) := by
  rw [Cert.ReferenceIdeal.RefForm.mlp_v]
  refine (W4_arr m ρ c 7).trans ?_
  rw [Cert.KernelIdeal.Mlp1.arr]
  have k0 : W2 m ρ c (Proc.devRef .tc main_arg1) = A1 m c := by
    refine (W2_of_ne m ρ c main_arg1 (by decide)).trans ?_
    show StableHlo.after hostOps0 (W0 m ρ c) (Proc.devRef .tc main_arg1) = _
    after_results <;> rfl
  have k3 : W2 m ρ c (Proc.devRef .tc main_arg12) = A12 m c := by
    refine (W2_of_ne m ρ c main_arg12 (by decide)).trans ?_
    show StableHlo.after hostOps0 (W0 m ρ c) (Proc.devRef .tc main_arg12) = _
    after_results <;> rfl
  have k5 : W2 m ρ c (Proc.devRef .tc main_arg14) = A14 m c := by
    refine (W2_of_ne m ρ c main_arg14 (by decide)).trans ?_
    show StableHlo.after hostOps0 (W0 m ρ c) (Proc.devRef .tc main_arg14) = _
    after_results <;> rfl
  have k10 : W2 m ρ c (Proc.devRef .tc main_arg10) = A10 m c := by
    refine (W2_of_ne m ρ c main_arg10 (by decide)).trans ?_
    show StableHlo.after hostOps0 (W0 m ρ c) (Proc.devRef .tc main_arg10) = _
    after_results <;> rfl
  have k11 : W2 m ρ c (Proc.devRef .tc main_arg11) = A11 m c := by
    refine (W2_of_ne m ρ c main_arg11 (by decide)).trans ?_
    show StableHlo.after hostOps0 (W0 m ρ c) (Proc.devRef .tc main_arg11) = _
    after_results <;> rfl
  have k13 : W2 m ρ c (Proc.devRef .tc main_arg13) = A13 m c := by
    refine (W2_of_ne m ρ c main_arg13 (by decide)).trans ?_
    show StableHlo.after hostOps0 (W0 m ρ c) (Proc.devRef .tc main_arg13) = _
    after_results <;> rfl
  have k15 : W2 m ρ c (Proc.devRef .tc main_arg15) = A15 m c := by
    refine (W2_of_ne m ρ c main_arg15 (by decide)).trans ?_
    show StableHlo.after hostOps0 (W0 m ρ c) (Proc.devRef .tc main_arg15) = _
    after_results <;> rfl
  have a0 : V3 m ρ c (Pipeline.arrRef spec1 0) = A1 m c := by
    show StableHlo.after hostOps1 (W2 m ρ c) (Proc.devRef .tc main_arg1) = _
    after_results; exact k0
  have a3 : V3 m ρ c (Pipeline.arrRef spec1 3) = A12 m c := by
    show StableHlo.after hostOps1 (W2 m ρ c) (Proc.devRef .tc main_arg12) = _
    after_results; exact k3
  have a5 : V3 m ρ c (Pipeline.arrRef spec1 5) = A14 m c := by
    show StableHlo.after hostOps1 (W2 m ρ c) (Proc.devRef .tc main_arg14) = _
    after_results; exact k5
  have a1 : V3 m ρ c (Pipeline.arrRef spec1 1) = shapeCast S1x19 (A10 m c) shapeCasts_S19_S1x19 := by
    show StableHlo.after hostOps1 (W2 m ρ c) (Proc.devRef .tc main_v5) = _
    after_results; rw [k10]; rfl
  have a2 : V3 m ρ c (Pipeline.arrRef spec1 2) = shapeCast S1x19 (A11 m c) shapeCasts_S19_S1x19 := by
    show StableHlo.after hostOps1 (W2 m ρ c) (Proc.devRef .tc main_v6) = _
    after_results; rw [k11]; rfl
  have a4 : V3 m ρ c (Pipeline.arrRef spec1 4) = shapeCast S1x64 (A13 m c) shapeCasts_S64_S1x64 := by
    show StableHlo.after hostOps1 (W2 m ρ c) (Proc.devRef .tc main_v7) = _
    after_results; rw [k13]; rfl
  have a6 : V3 m ρ c (Pipeline.arrRef spec1 6) = shapeCast S1x64 (A15 m c) shapeCasts_S64_S1x64 := by
    show StableHlo.after hostOps1 (W2 m ρ c) (Proc.devRef .tc main_v8) = _
    after_results; rw [k15]; rfl
  rw [a0, a1, a2, a3, a4, a5, a6]
  unfold Cert.KernelIdeal.Mlp1.G
  funext i
  simp only [shapeCast_row]

end Cert.KernelIdeal.Walk

end
-- ==== Proof.KWalk2.lean ====
/-
  What the host operations before region 2 leave.

  They cut the edge list into its source and destination rows, count the edges into each node (a scatter-add of ones),
  clamp the counts below by one and take reciprocals, cut the first layer's weights out of the stacked weight arrays,
  normalise the source indices (a negative index wraps around) and gather the constraint nodes' features along the
  edges. Each of these is the reference's own operation on the same arguments.
-/
import proofs.«104275_j19928648254212_1_alg».proof.Proof.Gen.KernelIdeal.Frame
import proofs.«104275_j19928648254212_1_alg».proof.Proof.KWalk1
import proofs.«104275_j19928648254212_1_alg».proof.Proof.Gen.ReferenceIdeal.Read
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg) (c : Dev nD)

/-- Argument 3 is untouched up to boundary 4. -/
theorem arg3_at4 : W4 m ρ c (Proc.devRef .tc main_arg3) = A3 m c :=
  ((((W4_of_ne m ρ c main_arg3 (by decide)).trans (by show StableHlo.after hostOps1 (W2 m ρ c) (Proc.devRef .tc main_arg3) = _; after_results; try rfl)).trans (W2_of_ne m ρ c main_arg3 (by decide))).trans (by show StableHlo.after hostOps0 (W0 m ρ c) (Proc.devRef .tc main_arg3) = _; after_results; try rfl))

/-- Argument 18 is untouched up to boundary 4. -/
theorem arg18_at4 : W4 m ρ c (Proc.devRef .tc main_arg18) = A18 m c :=
  ((((W4_of_ne m ρ c main_arg18 (by decide)).trans (by show StableHlo.after hostOps1 (W2 m ρ c) (Proc.devRef .tc main_arg18) = _; after_results; try rfl)).trans (W2_of_ne m ρ c main_arg18 (by decide))).trans (by show StableHlo.after hostOps0 (W0 m ρ c) (Proc.devRef .tc main_arg18) = _; after_results; try rfl))

/-- Argument 19 is untouched up to boundary 4. -/
theorem arg19_at4 : W4 m ρ c (Proc.devRef .tc main_arg19) = A19 m c :=
  ((((W4_of_ne m ρ c main_arg19 (by decide)).trans (by show StableHlo.after hostOps1 (W2 m ρ c) (Proc.devRef .tc main_arg19) = _; after_results; try rfl)).trans (W2_of_ne m ρ c main_arg19 (by decide))).trans (by show StableHlo.after hostOps0 (W0 m ρ c) (Proc.devRef .tc main_arg19) = _; after_results; try rfl))

/-- Argument 20 is untouched up to boundary 4. -/
theorem arg20_at4 : W4 m ρ c (Proc.devRef .tc main_arg20) = A20 m c :=
  ((((W4_of_ne m ρ c main_arg20 (by decide)).trans (by show StableHlo.after hostOps1 (W2 m ρ c) (Proc.devRef .tc main_arg20) = _; after_results; try rfl)).trans (W2_of_ne m ρ c main_arg20 (by decide))).trans (by show StableHlo.after hostOps0 (W0 m ρ c) (Proc.devRef .tc main_arg20) = _; after_results; try rfl))

/-- The constraint nodes' embedding is still in place at boundary 4. -/
theorem xc_at4 : W4 m ρ c (Proc.devRef .tc main_v4)
    = Cert.ReferenceIdeal.Read.val_main_v15 (F := Ideal) (A0 m c) (A4 m c) (A5 m c) (A6 m c) (A7 m c) (A8 m c) (A9 m c) :=
  (((W4_of_ne m ρ c main_v4 (by decide)).trans (by show StableHlo.after hostOps1 (W2 m ρ c) (Proc.devRef .tc main_v4) = _; after_results; try rfl))).trans (e1 m ρ c)

set_option maxHeartbeats 4000000 in
/-- The edges' source row. -/
theorem src5 : W5 m ρ c (Proc.devRef .tc main_v11) = Cert.ReferenceIdeal.Read.val_main_v39 (F := Ideal) (A3 m c) := by
  show StableHlo.after hostOps2 (W4 m ρ c) (Proc.devRef .tc main_v11) = _
  after_results
  rw [arg3_at4]
  rfl

set_option maxHeartbeats 4000000 in
/-- The edges' destination row. -/
theorem dst5 : W5 m ρ c (Proc.devRef .tc main_v13) = Cert.ReferenceIdeal.Read.val_main_v41 (F := Ideal) (A3 m c) := by
  show StableHlo.after hostOps2 (W4 m ρ c) (Proc.devRef .tc main_v13) = _
  after_results
  rw [arg3_at4]
  rfl

set_option maxHeartbeats 4000000 in
/-- The reciprocal of the clamped edge count of each variable node, as a column. -/
theorem inv_v5 : W5 m ρ c (Proc.devRef .tc main_v25) = broadcastInDim S200000x1 ![0] bcast_S200000_S200000x1_0 (Host.divf (broadcastInDim S200000 ![] bcast_S_S200000 (constant (F := Ideal) S_ .f32 0x3F800000#32)) (Cert.ReferenceIdeal.Read.val_main_v63 (F := Ideal) (A3 m c))) := by
  show StableHlo.after hostOps2 (W4 m ρ c) (Proc.devRef .tc main_v25) = _
  after_results
  rw [arg3_at4]
  rfl

set_option maxHeartbeats 4000000 in
/-- The reciprocal of the clamped edge count of each constraint node, as a column. -/
theorem inv_c5 : W5 m ρ c (Proc.devRef .tc main_v30) = broadcastInDim S100000x1 ![0] bcast_S100000_S100000x1_0 (Host.divf (broadcastInDim S100000 ![] bcast_S_S100000 (constant (F := Ideal) S_ .f32 0x3F800000#32)) (Cert.ReferenceIdeal.Read.val_main_v94 (F := Ideal) (A3 m c))) := by
  show StableHlo.after hostOps2 (W4 m ρ c) (Proc.devRef .tc main_v30) = _
  after_results
  rw [arg3_at4]
  rfl

set_option maxHeartbeats 4000000 in
/-- The first layer's message weight towards the variable nodes. -/
theorem wl_v5 : W5 m ρ c (Proc.devRef .tc main_v32) = Cert.ReferenceIdeal.Read.val_main_v43 (F := Ideal) (A18 m c) := by
  show StableHlo.after hostOps2 (W4 m ρ c) (Proc.devRef .tc main_v32) = _
  after_results
  rw [arg18_at4]
  rfl

set_option maxHeartbeats 4000000 in
/-- The first layer's bias towards the variable nodes. -/
theorem b_v5 : W5 m ρ c (Proc.devRef .tc main_v34) = Cert.ReferenceIdeal.Read.val_main_v45 (F := Ideal) (A19 m c) := by
  show StableHlo.after hostOps2 (W4 m ρ c) (Proc.devRef .tc main_v34) = _
  after_results
  rw [arg19_at4]
  rfl

set_option maxHeartbeats 4000000 in
/-- The first layer's self weight of the variable nodes. -/
theorem wr_v5 : W5 m ρ c (Proc.devRef .tc main_v36) = Cert.ReferenceIdeal.Read.val_main_v47 (F := Ideal) (A20 m c) := by
  show StableHlo.after hostOps2 (W4 m ρ c) (Proc.devRef .tc main_v36) = _
  after_results
  rw [arg20_at4]
  rfl

set_option maxHeartbeats 4000000 in
/-- The first layer's message weight towards the constraint nodes. -/
theorem wl_c5 : W5 m ρ c (Proc.devRef .tc main_v38) = Cert.ReferenceIdeal.Read.val_main_v74 (F := Ideal) (A18 m c) := by
  show StableHlo.after hostOps2 (W4 m ρ c) (Proc.devRef .tc main_v38) = _
  after_results
  rw [arg18_at4]
  rfl

set_option maxHeartbeats 4000000 in
/-- The first layer's bias towards the constraint nodes. -/
theorem b_c5 : W5 m ρ c (Proc.devRef .tc main_v40) = Cert.ReferenceIdeal.Read.val_main_v76 (F := Ideal) (A19 m c) := by
  show StableHlo.after hostOps2 (W4 m ρ c) (Proc.devRef .tc main_v40) = _
  after_results
  rw [arg19_at4]
  rfl

set_option maxHeartbeats 4000000 in
/-- The first layer's self weight of the constraint nodes. -/
theorem wr_c5 : W5 m ρ c (Proc.devRef .tc main_v42) = Cert.ReferenceIdeal.Read.val_main_v78 (F := Ideal) (A20 m c) := by
  show StableHlo.after hostOps2 (W4 m ρ c) (Proc.devRef .tc main_v42) = _
  after_results
  rw [arg20_at4]
  rfl

set_option maxHeartbeats 4000000 in
/-- The constraint nodes' features gathered along the edges. -/
theorem ga_v5 : W5 m ρ c (Proc.devRef .tc main_v49) = Cert.ReferenceIdeal.Read.val_main_v54 (F := Ideal) (A0 m c) (A3 m c) (A4 m c) (A5 m c) (A6 m c) (A7 m c) (A8 m c) (A9 m c) := by
  show StableHlo.after hostOps2 (W4 m ρ c) (Proc.devRef .tc main_v49) = _
  after_results
  rw [arg3_at4, xc_at4]
  rfl

end Cert.KernelIdeal.Walk

end
-- ==== Proof.KLin2.lean ====
/-
  Region 2: every row of the gathered messages times the 64 × 64 weight, 16000 rows to a grid point.

  A point's output block is the matrix product of its block of rows with the whole weight; row `r` of the array lies in
  the block of point `r / 16000`, and these blocks tile the array. So after the region the output array holds, at
  `(r, j)`, the sum over `k` of `x (r, k) · w (k, j)` of the arrays the region found.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Lin2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the two arrays the region reads. -/
def G (a0 : S2000000x64.Idx → EReal) (a1 : S64x64.Idx → EReal) : S2000000x64.Idx → EReal :=
  fun i => Cert.Sage.lin (E := 2000000) (fun e k => a0 (ix2 e k)) (fun k j => a1 (ix2 k j)) (i 0) (i 1)

theorem G_apply (a0 : S2000000x64.Idx → EReal) (a1 : S64x64.Idx → EReal) (i : S2000000x64.Idx) :
    G a0 a1 i = ∑ k : Fin 64, a0 (ix2 (i 0) k) * a1 (ix2 k (i 1)) := rfl

/-- The matrix unit's product of a block of rows with the weight, into a zero accumulator, at an entry. -/
theorem matmul_at (x : FVec Ideal S16000x64 .bf16) (w : FVec Ideal S64x64 .bf16) (p : Fin 16000) (j : Fin 64) :
    matmul dot_S16000x64_S64x64_S16000x64_1_0_0_1_n_n none x w (constant (F := Ideal) S16000x64 .f32 0x00000000#32) (ix2 p j)
      = ∑ k : Fin 64, x (ix2 p k) * w (ix2 k j) := by
  refine (Ideal.matmul_constant_zero_apply dot_S16000x64_S64x64_S16000x64_1_0_0_1_n_n none x w (ix2 p j)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p j) ((contrEquiv1 dot_S16000x64_S64x64_S16000x64_1_0_0_1_n_n 64 rfl rfl).symm k) = ix2 p k :=
    funext fun a => Fin.ext (by
      match a with
      | ⟨0, _⟩ =>
        show (dot_S16000x64_S64x64_S16000x64_1_0_0_1_n_n.lhsIdx (ix2 p j) _ 0).val = p.val
        unfold DotDims.lhsIdx
        rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
        rfl
      | ⟨1, _⟩ => exact (dot_S16000x64_S64x64_S16000x64_1_0_0_1_n_n.lhsIdx_val_of_single rfl (ix2 p j) _).trans hk)
  have er : dot_S16000x64_S64x64_S16000x64_1_0_0_1_n_n.rhsIdx (ix2 p j) ((contrEquiv1 dot_S16000x64_S64x64_S16000x64_1_0_0_1_n_n 64 rfl rfl).symm k) = ix2 k j :=
    funext fun a => Fin.ext (by
      match a with
      | ⟨0, _⟩ => exact (dot_S16000x64_S64x64_S16000x64_1_0_0_1_n_n.rhsIdx_val_of_single rfl (ix2 p j) _).trans hk
      | ⟨1, _⟩ =>
        show (dot_S16000x64_S64x64_S16000x64_1_0_0_1_n_n.rhsIdx (ix2 p j) _ 1).val = j.val
        unfold DotDims.rhsIdx
        rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
        rfl)
  rw [el, er]

/-- The body's one stored value, at an entry of the block: the block's row times the weight's column. -/
theorem pay_at (x0 : Vec Ideal S16000x64 .f32) (x1 : Vec Ideal S64x64 .f32) (p : Fin 16000) (j : Fin 64) :
    k2_pay1 (F := Ideal) x0 x1 (ix2 p j) = ∑ k : Fin 64, x0 (ix2 p k) * x1 (ix2 k j) := by
  unfold k2_pay1
  rw [shapeCast_self, shapeCast_self]
  exact matmul_at _ _ p j

/-- The printed index maps over the grid: the rows' window moves with the output's, the weight's stays. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What a point writes back is its block of `G` of the arrays the region found. -/
theorem flushed_eq (c : Dev nD) (t : Fin cfg2.N) :
    (dat2 V c).flushed 2 t = ((cfg2.win 2).blk t).view.read (Elt Ideal)
      (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S16000x64) hz, View.ld_unit_zero (S := S64x64) hz]
  obtain ⟨e0, e1, e2, e3, e4, e5⟩ := idx_facts t
  funext y
  obtain ⟨p, q, rfl⟩ : ∃ (p : Fin 16000) (q : Fin 64), y = ix2 p q := ⟨y 0, y 1, eq_ix2 y⟩
  refine (pay_at (iblk2 V c 0 t) (iblk2 V c 1 t) p q).trans ?_
  refine Eq.trans ?_ (G_apply _ _ _).symm
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 16000 + 1 * p.val = win2_2.index t (0 : Fin 2) * 16000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (· * ·) (congrArg (V c (Pipeline.arrRef spec2 0)) h0) (congrArg (V c (Pipeline.arrRef spec2 1)) h1)

/-- An index of the array is in a point's block iff each coordinate is in the block's range. -/
theorem mem_blk (t : Fin cfg2.N) (i : S2000000x64.Idx) :
    i ∈ ((cfg2.win 2).blk t).view.set ↔ ∀ a : Fin 2, win2_2.index t a * S16000x64.size a ≤ (i a).val ∧ (i a).val < win2_2.index t a * S16000x64.size a + S16000x64.size a := by
  show i ∈ ((View.whole main_v50).slice (win2_2.rect t)).set ↔ _
  rw [View.set_slice_whole, Rect.mem_set_unit]
  exact Iff.rfl

/-- Every index of the output array is in the block of the point its row falls to. -/
theorem cover (i : S2000000x64.Idx) :
    ∃ t : Fin cfg2.N, (cfg2.win 2).flush t = true ∧ i ∈ ((cfg2.win 2).blk t).view.set := by
  have hi0 : (i 0).val < 2000000 := (i 0).isLt
  have hi1 : (i 1).val < 64 := (i 1).isLt
  have hN : cfg2.N = 125 := N_2
  let t : Fin cfg2.N := ⟨(i 0).val / 16000, by rw [hN]; omega⟩
  obtain ⟨e0, e1, e2, e3, e4, e5⟩ := idx_facts t
  have e4' : win2_2.index t (0 : Fin 2) = (i 0).val / 16000 := e4
  refine ⟨t, flush2_2 t, ?_⟩
  rw [mem_blk]
  intro a
  match a with
  | ⟨0, _⟩ => show win2_2.index t (0 : Fin 2) * 16000 ≤ (i 0).val ∧ (i 0).val < win2_2.index t (0 : Fin 2) * 16000 + 16000; omega
  | ⟨1, _⟩ => show win2_2.index t (1 : Fin 2) * 64 ≤ (i 1).val ∧ (i 1).val < win2_2.index t (1 : Fin 2) * 64 + 64; omega

/-- The output array after the region. -/
theorem arr (c : Dev nD) : (dat2 V c).arrAt 2 cfg2.N
    = G (V c (Pipeline.arrRef spec2 0)) (V c (Pipeline.arrRef spec2 1)) :=
  (dat2 V c).arrAt_eq_of_cover 2 _ (fun t _ => flushed_eq V c t) cover

end Cert.KernelIdeal.Lin2

end
-- ==== Proof.KComb3.lean ====
/-
  Region 3: the node update from an already weighted mean message, 10000 nodes to a grid point.

  A point's output block is, entry by entry, the mean message plus the bias plus the node's own features times the
  64 × 64 weight, rectified; node `r` lies in the block of point `r / 10000`, and these blocks tile the array.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Comb3

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the four arrays the region reads: the mean message, the bias
    row, the nodes' own features, the weight. -/
def G (a0 : S200000x64.Idx → EReal) (a1 : S1x64.Idx → EReal) (a2 : S200000x64.Idx → EReal) (a3 : S64x64.Idx → EReal) :
    S200000x64.Idx → EReal :=
  fun i => Cert.Sage.comb (n := 200000) (fun p j => a0 (ix2 p j)) (fun j => a1 (ix2 0 j)) (fun p k => a2 (ix2 p k))
    (fun k j => a3 (ix2 k j)) (i 0) (i 1)

theorem G_apply (a0 : S200000x64.Idx → EReal) (a1 : S1x64.Idx → EReal) (a2 : S200000x64.Idx → EReal) (a3 : S64x64.Idx → EReal)
    (i : S200000x64.Idx) :
    G a0 a1 a2 a3 i = max ((a0 (ix2 (i 0) (i 1)) + a1 (ix2 0 (i 1))) + ∑ k : Fin 64, a2 (ix2 (i 0) k) * a3 (ix2 k (i 1))) Cert.Sage.z0 := rfl

/-- The matrix unit's product of a 10000 × 64 block with a 64 × 64 matrix, into a zero accumulator, at an entry. -/
theorem matmul_at (x : FVec Ideal S10000x64 .bf16) (w : FVec Ideal S64x64 .bf16) (p : Fin 10000) (j : Fin 64) :
    matmul dot_S10000x64_S64x64_S10000x64_1_0_0_1_n_n none x w (constant (F := Ideal) S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ =>
        show (dot_S10000x64_S64x64_S10000x64_1_0_0_1_n_n.lhsIdx (ix2 p j) _ 0).val = p.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 p j) _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 p j) _).trans hk
      | ⟨1, _⟩ =>
        show (dot_S10000x64_S64x64_S10000x64_1_0_0_1_n_n.rhsIdx (ix2 p j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- The bias row broadcast down the block, at an entry. -/
theorem bias_at (b : Vec Ideal S1x64 .f32) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- The body's one stored value, at an entry of the block. -/
theorem pay_at (xd : Vec Ideal S10000x64 .f32) (w : Vec Ideal S64x64 .f32) (mean : Vec Ideal S10000x64 .f32)
    (b : Vec Ideal S1x64 .f32) (p : Fin 10000) (j : Fin 64) :
    k3_pay1 (F := Ideal) xd w mean b (ix2 p j)
      = max ((mean (ix2 p j) + b (ix2 0 j)) + ∑ k : Fin 64, xd (ix2 p k) * w (ix2 k j)) Cert.Sage.z0 := by
  unfold k3_pay1
  rw [shapeCast_self, shapeCast_self, shapeCast_self, shapeCast_self]
  have hm := matmul_at (truncf .bf16 xd bitsLt_bf16_f32) (truncf .bf16 w bitsLt_bf16_f32) p j
  have hb := bias_at b p j
  show max ((mean (ix2 p j) + broadcastTo S10000x64 b broadcasts_S1x64_S10000x64 (ix2 p j))
    + matmul dot_S10000x64_S64x64_S10000x64_1_0_0_1_n_n none (truncf .bf16 xd bitsLt_bf16_f32) (truncf .bf16 w bitsLt_bf16_f32) (constant (F := Ideal) S10000x64 .f32 0x00000000#32) (ix2 p j)) Cert.Sage.z0 = _
  rw [hm, hb]
  rfl

/-- The printed index maps over the grid: the mean's and the features' windows move with the output's, the bias's and
    the weight's stay. -/
theorem idx_facts : ∀ t : Fin cfg3.N, win3_0.index t (0 : Fin 2) = win3_4.index t (0 : Fin 2)
    ∧ win3_0.index t (1 : Fin 2) = 0 ∧ win3_1.index t (0 : Fin 2) = 0 ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What a point writes back is its block of `G` of the arrays the region found. -/
theorem flushed_eq (c : Dev nD) (t : Fin cfg3.N) :
    (dat3 V c).flushed 4 t = ((cfg3.win 4).blk t).view.read (Elt Ideal)
      (G (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9⟩ := idx_facts t
  funext y
  obtain ⟨p, q, rfl⟩ : ∃ (p : Fin 10000) (q : Fin 64), y = ix2 p q := ⟨y 0, y 1, eq_ix2 y⟩
  refine (pay_at (iblk3 V c 2 t) (iblk3 V c 3 t) (iblk3 V c 0 t) (iblk3 V c 1 t) p q).trans ?_
  refine Eq.trans ?_ (G_apply _ _ _ _ _).symm
  have h0 : ((cfg3.win 0).blk t).view.emb (ix2 p q) = ix2 ((((cfg3.win 4).blk t).view.emb (ix2 p q)) 0) ((((cfg3.win 4).blk t).view.emb (ix2 p q)) 1) := by
    funext a; apply Fin.ext
    match a with
    | ⟨0, _⟩ => show win3_0.index t (0 : Fin 2) * 10000 + 1 * p.val = win3_4.index t (0 : Fin 2) * 10000 + 1 * p.val; omega
    | ⟨1, _⟩ => show win3_0.index t (1 : Fin 2) * 64 + 1 * q.val = win3_4.index t (1 : Fin 2) * 64 + 1 * q.val; omega
  have h1 : ((cfg3.win 1).blk t).view.emb (ix2 0 q) = ix2 0 ((((cfg3.win 4).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_4.index t (1 : Fin 2) * 64 + 1 * q.val; omega
  have h2 : ∀ k : Fin 64, ((cfg3.win 2).blk t).view.emb (ix2 p k) = ix2 ((((cfg3.win 4).blk t).view.emb (ix2 p q)) 0) k := fun k => by
    funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 64 + 1 * k.val = k.val; omega
  have h3 : ∀ k : Fin 64, ((cfg3.win 3).blk t).view.emb (ix2 k q) = ix2 k ((((cfg3.win 4).blk t).view.emb (ix2 p q)) 1) := fun k => by
    funext a; apply Fin.ext
    match a with
    | ⟨0, _⟩ => show win3_3.index t (0 : Fin 2) * 64 + 1 * k.val = k.val; omega
    | ⟨1, _⟩ => show win3_3.index t (1 : Fin 2) * 64 + 1 * q.val = win3_4.index t (1 : Fin 2) * 64 + 1 * q.val; omega
  refine congrArg₂ max (congrArg₂ (· + ·) (congrArg₂ (· + ·) (congrArg (V c (Pipeline.arrRef spec3 0)) h0) (congrArg (V c (Pipeline.arrRef spec3 1)) h1)) ?_) rfl
  exact Finset.sum_congr rfl fun k _ => congrArg₂ (· * ·) (congrArg (V c (Pipeline.arrRef spec3 2)) (h2 k)) (congrArg (V c (Pipeline.arrRef spec3 3)) (h3 k))

/-- An index of the array is in a point's block iff each coordinate is in the block's range. -/
theorem mem_blk (t : Fin cfg3.N) (i : S200000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v57).slice (win3_4.rect t)).set ↔ _
  rw [View.set_slice_whole, Rect.mem_set_unit]
  exact Iff.rfl

/-- Every index of the output array is in the block of the point its row falls to. -/
theorem cover (i : S200000x64.Idx) :
    ∃ t : Fin cfg3.N, (cfg3.win 4).flush t = true ∧ i ∈ ((cfg3.win 4).blk t).view.set := by
  have hi0 : (i 0).val < 200000 := (i 0).isLt
  have hi1 : (i 1).val < 64 := (i 1).isLt
  have hN : cfg3.N = 20 := N_3
  let t : Fin cfg3.N := ⟨(i 0).val / 10000, by rw [hN]; omega⟩
  obtain ⟨e0, e1, e2, e3, e4, e5, e6, e7, e8, e9⟩ := idx_facts t
  have e8' : win3_4.index t (0 : Fin 2) = (i 0).val / 10000 := e8
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The output array after the region. -/
theorem arr (c : Dev nD) : (dat3 V c).arrAt 4 cfg3.N
    = G (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) cover

end Cert.KernelIdeal.Comb3

end
-- ==== Proof.ScatterRows.lean ====
/-
  A scatter of rows: update row `e` is added, entry by entry, into the operand row its scatter index names.

  With the update's axis 1 the window axis, the operand's axis 0 the inserted one and one scalar index per update row,
  update entry `(e, c)` lands at operand entry `(v, c)` exactly when row `e`'s index, read signed, is `v`; an index outside the
  operand's rows drops the row. So the exact scatter-add at `(v, c)` is the operand's entry plus the sum, over the rows `e`
  whose index is `v`, of the update's entry `(e, c)`.
-/
import Idealize.ShloMosaic.PureOps.Ideal
import Idealize.ShloMosaic.Lib.ValueIdx

noncomputable section

namespace Cert.Sage

open Idealize.ShloMosaic Idealize.ShloMosaic.ValueIdx

variable {n E w : Nat}

/-- The dimension numbers of a scatter of 64-entry rows into an `n`-row operand, one index per row. -/
structure IsRows (d : ScatterDims (⟨2, ![n, 64]⟩ : Shape) ⟨2, ![E, 1]⟩ ⟨2, ![E, 64]⟩) : Prop where
  uw : d.updateWindowDims = [1]
  iw : d.insertedWindowDims = [0]
  sd : d.scatterDimsToOperandDims = [0]
  iv : d.indexVectorDim = 1

/-- The row an update row is sent to, read signed off the scatter indices. -/
def target (idx : IVec (⟨2, ![E, 1]⟩ : Shape) w) (e : Fin E) : Int := (idx (ix2 e 0)).toInt

theorem resultIdx?_rows (d : ScatterDims (⟨2, ![n, 64]⟩ : Shape) ⟨2, ![E, 1]⟩ ⟨2, ![E, 64]⟩) (hd : IsRows d)
    (idx : IVec (⟨2, ![E, 1]⟩ : Shape) w) (e : Fin E) (c : Fin 64) (v : Fin n) (c' : Fin 64) :
    d.resultIdx? (ix2 e c) idx = some (ix2 v c') ↔ (target idx e = (v.val : Int) ∧ c = c') := by
  obtain ⟨uw, iw, sd, iv, wf⟩ := d
  obtain ⟨h1, h2, h3, h4⟩ := hd
  dsimp only at h1 h2 h3 h4
  subst h1 h2 h3 h4
  set d : ScatterDims (⟨2, ![n, 64]⟩ : Shape) ⟨2, ![E, 1]⟩ ⟨2, ![E, 64]⟩ := ⟨[1], [0], [0], 1, wf⟩ with hdd
  have hw0 : d.window (ix2 e c) 0 = 0 := rfl
  have hw1 : d.window (ix2 e c) 1 = c.val := rfl
  have hs1 : d.start (ix2 e c) idx 1 = 0 := rfl
  have hs0 : d.start (ix2 e c) idx 0 = target idx e := by
    unfold target
    show (idx (d.siIdx (ix2 e c) ⟨0, _⟩)).toInt = _
    congr 2
    funext b
    match b with
    | ⟨0, _⟩ => rfl
    | ⟨1, _⟩ => rfl
  unfold ScatterDims.resultIdx?
  split
  · rename_i h
    rw [Option.some.injEq]
    constructor
    · intro hEq
      have e0 := congrArg Fin.val (congrFun hEq 0)
      have e1 := congrArg Fin.val (congrFun hEq 1)
      simp only [hs0, hw0, hs1, hw1] at e0 e1
      have := (h 0).1
      rw [hs0, hw0] at this
      change (target idx e + ((0 : Nat) : Int)).toNat = v.val at e0
      change ((0 : Int) + (c.val : Int)).toNat = c'.val at e1
      refine ⟨by omega, Fin.ext (by omega)⟩
    · rintro ⟨hz, rfl⟩
      funext a
      apply Fin.ext
      match a with
      | ⟨0, _⟩ =>
        show (d.start (ix2 e c) idx 0 + (d.window (ix2 e c) 0 : Int)).toNat = v.val
        rw [hs0, hw0, hz]; simp
      | ⟨1, _⟩ =>
        show (d.start (ix2 e c) idx 1 + (d.window (ix2 e c) 1 : Int)).toNat = c.val
        rw [hs1, hw1]; simp
  · rename_i h
    constructor
    · intro hh; exact absurd hh (by simp)
    · rintro ⟨hz, rfl⟩
      exfalso; apply h
      intro a
      match a with
      | ⟨0, _⟩ =>
        show 0 ≤ d.start (ix2 e c) idx 0 + (d.window (ix2 e c) 0 : Int) ∧ d.start (ix2 e c) idx 0 + (d.window (ix2 e c) 0 : Int) < (n : Int)
        rw [hs0, hw0, hz]; have := v.isLt; omega
      | ⟨1, _⟩ =>
        show 0 ≤ d.start (ix2 e c) idx 1 + (d.window (ix2 e c) 1 : Int) ∧ d.start (ix2 e c) idx 1 + (d.window (ix2 e c) 1 : Int) < (64 : Int)
        rw [hs1, hw1]; have := c.isLt; omega

/-- A sum over the update entries that land at `(v, c)` is a sum over the rows sent to `v`, at column `c`. -/
theorem sum_landing {M : Type*} [AddCommMonoid M] (d : ScatterDims (⟨2, ![n, 64]⟩ : Shape) ⟨2, ![E, 1]⟩ ⟨2, ![E, 64]⟩)
    (hd : IsRows d) (idx : IVec (⟨2, ![E, 1]⟩ : Shape) w) (v : Fin n) (c : Fin 64)
    (f : (⟨2, ![E, 64]⟩ : Shape).Idx → M) :
    ∑ j ∈ Finset.univ.filter (fun j => d.resultIdx? j idx = some (ix2 v c)), f j
      = ∑ e ∈ Finset.univ.filter (fun e : Fin E => target idx e = (v.val : Int)), f (ix2 e c) := by
  classical
  rw [Finset.sum_filter, sum_idx2, Finset.sum_filter]
  refine Finset.sum_congr rfl fun e _ => ?_
  by_cases he : target idx e = (v.val : Int)
  · rw [if_pos he]
    rw [Finset.sum_eq_single c]
    · rw [if_pos ((resultIdx?_rows d hd idx e c v c).2 ⟨he, rfl⟩)]
    · intro b _ hb
      rw [if_neg fun h => hb ((resultIdx?_rows d hd idx e b v c).1 h).2]
    · intro h; exact absurd (Finset.mem_univ c) h
  · rw [if_neg he]
    exact Finset.sum_eq_zero fun b _ => if_neg fun h => he ((resultIdx?_rows d hd idx e b v c).1 h).1

/-- The exact scatter-add of rows, at an entry: the operand's entry plus the entries, in that column, of the update
    rows sent to that row. -/
theorem hostScatterAdd_rows (d : ScatterDims (⟨2, ![n, 64]⟩ : Shape) ⟨2, ![E, 1]⟩ ⟨2, ![E, 64]⟩)
    (hd : IsRows d) (x : (⟨2, ![n, 64]⟩ : Shape).Idx → EReal) (idx : IVec (⟨2, ![E, 1]⟩ : Shape) w)
    (upd : (⟨2, ![E, 64]⟩ : Shape).Idx → EReal) (v : Fin n) (c : Fin 64) :
    Ideal.hostScatterAdd d x idx upd (ix2 v c)
      = x (ix2 v c) + ∑ e ∈ Finset.univ.filter (fun e : Fin E => target idx e = (v.val : Int)), upd (ix2 e c) := by
  unfold Ideal.hostScatterAdd
  rw [sum_landing d hd idx v c upd]

end Cert.Sage

end
-- ==== Proof.SageLaw.lean ====
/-
  The mean law of the node update, and the real-valuedness of the gathered and scattered arrays.

  * `count_real`: a count of ones (0 plus a finite sum of ones), clamped below by one, is a nonzero real number: it is
    the larger of the cardinality and 1.
  * `sage_law`: the update that weights every message first, sums the weighted messages of a node and multiplies the
    sum by the reciprocal of the count is the update that sums the raw messages, divides by the count and weights the
    mean. On real numbers, Σ_e Σ_k u e k · wl k j = Σ_k (Σ_e u e k) · wl k j (exchange the two finite sums, then move the
    common factor out of the inner one), and multiplying that row of sums by 1 / m is dividing each sum by m
    (`mean_law`).
  * `gather_real`, `scatterAdd_real`: a gathered entry is an entry of the operand; a scattered sum is an operand entry
    plus a finite sum of update entries: reals in, reals out.
-/
import proofs.«104275_j19928648254212_1_alg».proof.Proof.Spec
import proofs.«104275_j19928648254212_1_alg».proof.Proof.LibRealSums
import Idealize.ShloMosaic.PureOps.Ideal
import Idealize.ShloMosaic.PureOps.Contract
import Idealize.ShloMosaic.Lib.IdealHost

noncomputable section

namespace Cert.Sage

open Idealize.ShloMosaic Cert.Algebra

/-- The word 0x3F800000 is the real number one. -/
theorem one_eq : Ideal.ofBits .f32 0x3F800000#32 = ((1 : ℝ) : EReal) := by
  rw [Ideal.ofBits_one_f32]; rfl

/-- A count of ones, clamped below by one, is a nonzero real: the larger of the cardinality and 1. -/
theorem count_real {E : Nat} (s : Finset (Fin E)) :
    ∃ r : ℝ, r ≠ 0 ∧ max (z0 + ∑ _e ∈ s, Ideal.ofBits .f32 0x3F800000#32) (Ideal.ofBits .f32 0x3F800000#32)
      = (r : EReal) := by
  refine ⟨max (s.card : ℝ) 1, ?_, ?_⟩
  · have h : (1 : ℝ) ≤ max (s.card : ℝ) 1 := le_max_right _ _
    intro h0
    rw [h0] at h
    norm_num at h
  · rw [z0_eq, zero_add, one_eq, ← coe_sum, Finset.sum_const, nsmul_eq_mul, mul_one]
    exact (EReal.coe_strictMono.monotone.map_max).symm

/-- A real factor common to every term of a finite sum of reals comes out of the sum. -/
theorem sum_mul_real {ι : Type*} (s : Finset ι) (f : ι → EReal) (c : EReal)
    (hf : ∀ i ∈ s, ∃ r : ℝ, f i = (r : EReal)) (hc : ∃ r : ℝ, c = (r : EReal)) :
    ∑ i ∈ s, f i * c = (∑ i ∈ s, f i) * c := by
  classical
  choose! g hg using hf
  obtain ⟨y, rfl⟩ := hc
  have e1 : ∑ i ∈ s, f i * (y : EReal) = ∑ i ∈ s, ((g i * y : ℝ) : EReal) :=
    Finset.sum_congr rfl fun i hi => by rw [hg i hi, EReal.coe_mul]
  have e2 : ∑ i ∈ s, f i = ∑ i ∈ s, (g i : EReal) := Finset.sum_congr rfl fun i hi => hg i hi
  rw [e1, e2, ← coe_sum, ← coe_sum, ← EReal.coe_mul, Finset.sum_mul]

/-- Weighting every message and then summing a node's messages is summing them and then weighting the sums. -/
theorem sum_lin {E : Nat} (s : Finset (Fin E)) (u : Fin E → Fin 64 → EReal) (wl : Fin 64 → Fin 64 → EReal)
    (hu : ∀ e k, IsReal (u e k)) (hwl : ∀ k j, IsReal (wl k j)) (j : Fin 64) :
    z0 + ∑ e ∈ s, lin u wl e j = ∑ k : Fin 64, (z0 + ∑ e ∈ s, u e k) * wl k j := by
  unfold lin
  rw [z0_eq, zero_add, Finset.sum_comm]
  refine Finset.sum_congr rfl fun k _ => ?_
  rw [zero_add]
  exact sum_mul_real s (fun e => u e k) (wl k j) (fun e _ => hu e k) (hwl k j)

/-- THE MEAN LAW OF THE UPDATE: weights first, then the sum over a node's messages times the reciprocal of the count,
    is the sum of the raw messages divided by the count, then the weights. -/
theorem sage_law {n E : Nat} (Es : Fin n → Finset (Fin E)) (u : Fin E → Fin 64 → EReal)
    (wl wr : Fin 64 → Fin 64 → EReal) (b : Fin 64 → EReal) (xd : Fin n → Fin 64 → EReal) (cm : Fin n → EReal)
    (hu : ∀ e k, IsReal (u e k)) (hwl : ∀ k j, IsReal (wl k j)) (hcm : ∀ p, ∃ r : ℝ, r ≠ 0 ∧ cm p = (r : EReal)) :
    comb (fun p j => (z0 + ∑ e ∈ Es p, lin u wl e j) * Ideal.div (Ideal.ofBits .f32 0x3F800000#32) (cm p)) b xd wr
      = sage (fun p k => Ideal.div (z0 + ∑ e ∈ Es p, u e k) (cm p)) wl b xd wr := by
  funext p j
  have hS : ∀ k, IsReal (z0 + ∑ e ∈ Es p, u e k) := fun k =>
    add_real isReal_z0 (sum_real _ _ fun e _ => hu e k)
  have law : (∑ k : Fin 64, (z0 + ∑ e ∈ Es p, u e k) * wl k j) * Ideal.div (Ideal.ofBits .f32 0x3F800000#32) (cm p)
      = ∑ k : Fin 64, Ideal.div (z0 + ∑ e ∈ Es p, u e k) (cm p) * wl k j :=
    mean_law (fun k => z0 + ∑ e ∈ Es p, u e k) (fun k => wl k j) (cm p) hS (fun k => hwl k j) (hcm p)
  show max (((z0 + ∑ e ∈ Es p, lin u wl e j) * Ideal.div (Ideal.ofBits .f32 0x3F800000#32) (cm p) + b j)
        + ∑ k : Fin 64, xd p k * wr k j) z0
      = max (((∑ k : Fin 64, Ideal.div (z0 + ∑ e ∈ Es p, u e k) (cm p) * wl k j) + b j)
        + ∑ k : Fin 64, xd p k * wr k j) z0
  rw [sum_lin (Es p) u wl hu hwl j, law]

/-- A gathered entry is an entry of the operand. -/
theorem gather_real {s si t : Shape} {w : Nat} (d : GatherDims s si t) (x : FVec Ideal s .f32) (idx : IVec si w)
    (hx : ∀ i, IsReal (x i)) (j : t.Idx) : IsReal (Host.gather d x idx j) :=
  hx _

/-- A scattered sum is an operand entry plus a finite sum of update entries. -/
theorem scatterAdd_real {s si u : Shape} {w : Nat} (d : ScatterDims s si u) (x : FVec Ideal s .f32) (idx : IVec si w)
    (upd : FVec Ideal u .f32) (hx : ∀ i, IsReal (x i)) (hupd : ∀ j, IsReal (upd j)) (i : s.Idx) :
    IsReal (Host.scatterAdd d x idx upd i) := by
  show IsReal (Ideal.hostScatterAdd d x idx upd i)
  unfold Ideal.hostScatterAdd
  exact add_real (hx i) (sum_real _ _ fun j _ => hupd j)

end Cert.Sage

end
-- ==== Proof.AggLaw.lean ====
/-
  One aggregation step, the kernel's arrangement against the reference's.

  The kernel weights every message first, scatter-adds the weighted rows by destination and multiplies a node's row of
  sums by the reciprocal of its clamped count; the reference scatter-adds the raw rows, divides by the count and weights
  the mean. Both scatter-adds are exact: the entry at (v, c) is the zero word plus the sum, over the rows sent to v, of
  the update's entry in column c. With the counts nonzero reals and the messages and weights reals, the two node updates
  are equal (`sage_law`). The clamped count itself is zero plus a finite sum of ones, then the larger of that and one:
  a nonzero real.
-/
import proofs.«104275_j19928648254212_1_alg».proof.Proof.Spec
import proofs.«104275_j19928648254212_1_alg».proof.Proof.LibRealSums
import proofs.«104275_j19928648254212_1_alg».proof.Proof.ScatterRows
import proofs.«104275_j19928648254212_1_alg».proof.Proof.SageLaw
import proofs.«104275_j19928648254212_1_alg».proof.KernelIdeal
import proofs.«104275_j19928648254212_1_alg».proof.ReferenceIdeal
import Idealize.ShloMosaic.Lib.ValueIdx
import Idealize.ShloMosaic.Lib.Pipeline.Value
import Idealize.ShloMosaic.PureOps.Ideal.Laws

noncomputable section

namespace Cert.Agg

open Idealize.ShloMosaic Idealize.ShloMosaic.ValueIdx Cert.Sage Cert.Algebra

/-- A constant word spread from the rank-zero array over any array reads that word everywhere. -/
theorem splat_read {t : Shape} (h : (⟨0, ![]⟩ : Shape).BroadcastsInDim t (![] : Fin 0 → Fin t.rank)) (w : BitVec 32) (i : t.Idx) :
    broadcastInDim t ![] h (constant (F := Ideal) (⟨0, ![]⟩ : Shape) .f32 w) i = Ideal.ofBits .f32 w :=
  broadcastInDim_apply _ h _ i (fun a => a.elim0) (fun a => a.elim0)

/-- The host's accumulating scatter at the exact instance is the exact scatter-add. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- A scatter-add of rows into the zero array, at an entry: the zero word plus the entries, in that column, of the
    update rows sent to that row. -/
theorem scatter_rows_zero {n E w : Nat} (d : ScatterDims (⟨2, ![n, 64]⟩ : Shape) ⟨2, ![E, 1]⟩ ⟨2, ![E, 64]⟩) (hd : IsRows d)
    (h : (⟨0, ![]⟩ : Shape).BroadcastsInDim (⟨2, ![n, 64]⟩ : Shape) (![] : Fin 0 → Fin 2))
    (idx : IVec (⟨2, ![E, 1]⟩ : Shape) w) (upd : FVec Ideal (⟨2, ![E, 64]⟩ : Shape) .f32) (v : Fin n) (c : Fin 64) :
    Host.scatterAdd d (broadcastInDim (⟨2, ![n, 64]⟩ : Shape) ![] h (constant (F := Ideal) (⟨0, ![]⟩ : Shape) .f32 0x00000000#32))
        idx upd (ix2 v c)
      = z0 + ∑ e ∈ Finset.univ.filter (fun e : Fin E => target idx e = (v.val : Int)), upd (ix2 e c) := by
  rw [hostScatterAdd_eq, hostScatterAdd_rows d hd, splat_read]

/-- A count of ones over any finite index set, clamped below by one, is a nonzero real: the larger of the cardinality
    and 1. -/
theorem count_real' {ι : Type*} (s : Finset ι) :
    ∃ r : ℝ, r ≠ 0 ∧ max (z0 + ∑ _e ∈ s, Ideal.ofBits .f32 0x3F800000#32) (Ideal.ofBits .f32 0x3F800000#32)
      = (r : EReal) := by
  refine ⟨max (s.card : ℝ) 1, ?_, ?_⟩
  · have h : (1 : ℝ) ≤ max (s.card : ℝ) 1 := le_max_right _ _
    intro h0
    rw [h0] at h
    norm_num at h
  · rw [z0_eq, zero_add, one_eq, ← coe_sum, Finset.sum_const, nsmul_eq_mul, mul_one]
    exact (EReal.coe_strictMono.monotone.map_max).symm

/-- A per-node factor, spread along the feature axis, read at a node and a feature is the node's factor. -/
theorem col_read_v (h1 : (⟨2, ![200000, 1]⟩ : Shape).BroadcastsInDim ⟨2, ![200000, 64]⟩ (![0, 1] : Fin 2 → Fin 2))
    (h2 : (⟨1, ![200000]⟩ : Shape).BroadcastsInDim ⟨2, ![200000, 1]⟩ (![0] : Fin 1 → Fin 2))
    (f : (⟨1, ![200000]⟩ : Shape).Idx → EReal) (p : Fin 200000) (k : Fin 64) :
    broadcastInDim (⟨2, ![200000, 64]⟩ : Shape) ![0, 1] h1 (broadcastInDim (⟨2, ![200000, 1]⟩ : Shape) ![0] h2 f) (ix2 p k) = f (ix1 p) :=
  (broadcastInDim_apply _ h1 _ (ix2 p k) (ix2 p 0) (fun a => match a with
    | ⟨0, _⟩ => by show p.val = if (200000 : Nat) = 1 then 0 else p.val; rw [if_neg (by decide)]
    | ⟨1, _⟩ => by show 0 = if (1 : Nat) = 1 then 0 else k.val; rw [if_pos rfl])).trans
  (broadcastInDim_apply _ h2 f (ix2 p 0) (ix1 p) (fun a => match a with
    | ⟨0, _⟩ => by show p.val = if (200000 : Nat) = 1 then 0 else p.val; rw [if_neg (by decide)]))

theorem rowsK_v [Cert.KernelIdeal.Facts] : IsRows Cert.KernelIdeal.scatter_S200000x64_S2000000x1_S2000000x64_1_0_0_1 := ⟨rfl, rfl, rfl, rfl⟩
theorem rowsR_v [Cert.ReferenceIdeal.Facts] : IsRows Cert.ReferenceIdeal.scatter_S200000x64_S2000000x1_S2000000x64_1_0_0_1 := ⟨rfl, rfl, rfl, rfl⟩
/-- The kernel's weighted mean message at a node and a feature: the zero word plus the sum of the weighted rows sent to
    the node, times the reciprocal of the node's count. -/
theorem kernel_msg_v [Cert.KernelIdeal.Facts] (GA : FVec Ideal Cert.KernelIdeal.S2000000x64 .f32) (IS : IVec Cert.KernelIdeal.S2000000x1 32)
    (CM : FVec Ideal Cert.KernelIdeal.S200000 .f32) (wl : Fin 64 → Fin 64 → EReal) (p : Fin 200000) (j : Fin 64) :
    (mulf (Host.scatterAdd Cert.KernelIdeal.scatter_S200000x64_S2000000x1_S2000000x64_1_0_0_1
            (broadcastInDim Cert.KernelIdeal.S200000x64 ![] Cert.KernelIdeal.Facts₀.bcast_S_S200000x64 (constant (F := Ideal) Cert.KernelIdeal.S_ .f32 0x00000000#32)) IS
            (fun i => Cert.Sage.lin (E := 2000000) (fun e k => GA (ix2 e k)) wl (i 0) (i 1)))
          (broadcastInDim Cert.KernelIdeal.S200000x64 ![0, 1] Cert.KernelIdeal.Facts₀.bcast_S200000x1_S200000x64_0_1
            (broadcastInDim Cert.KernelIdeal.S200000x1 ![0] Cert.KernelIdeal.Facts₀.bcast_S200000_S200000x1_0
              (Host.divf (broadcastInDim Cert.KernelIdeal.S200000 ![] Cert.KernelIdeal.Facts₀.bcast_S_S200000 (constant (F := Ideal) Cert.KernelIdeal.S_ .f32 0x3F800000#32)) CM))))
          (ix2 p j)
      = (z0 + ∑ e ∈ Finset.univ.filter (fun e : Fin 2000000 => target IS e = (p.val : Int)), lin (fun e k => GA (ix2 e k)) wl e j)
          * Ideal.div (Ideal.ofBits .f32 0x3F800000#32) (CM (ix1 p)) := by
  rw [mulf_apply, col_read_v, scatter_rows_zero _ rowsK_v]
  refine congrArg₂ (· * ·) (congrArg (z0 + ·) (Finset.sum_congr rfl fun e _ => rfl)) ?_
  show Ideal.div (broadcastInDim Cert.KernelIdeal.S200000 ![] Cert.KernelIdeal.Facts₀.bcast_S_S200000 (constant (F := Ideal) Cert.KernelIdeal.S_ .f32 0x3F800000#32) (ix1 p))
    (CM (ix1 p)) = _
  rw [splat_read]
/-- The reference's mean message at a node and a feature: the zero word plus the sum of the raw rows sent to the node,
    divided by the node's count. -/
theorem ref_msg_v [Cert.ReferenceIdeal.Facts] (GA : FVec Ideal Cert.KernelIdeal.S2000000x64 .f32) (IS : IVec Cert.KernelIdeal.S2000000x1 32)
    (CM : FVec Ideal Cert.KernelIdeal.S200000 .f32) (p : Fin 200000) (k : Fin 64) :
    Ideal.div (Host.scatterAdd Cert.ReferenceIdeal.scatter_S200000x64_S2000000x1_S2000000x64_1_0_0_1
            (broadcastInDim Cert.ReferenceIdeal.S200000x64 ![] Cert.ReferenceIdeal.Facts₀.bcast_S_S200000x64 (constant (F := Ideal) Cert.ReferenceIdeal.S_ .f32 0x00000000#32)) IS GA (ix2 p k))
          (CM (ix1 p))
      = Ideal.div (z0 + ∑ e ∈ Finset.univ.filter (fun e : Fin 2000000 => target IS e = (p.val : Int)), GA (ix2 e k)) (CM (ix1 p)) := by
  rw [scatter_rows_zero _ rowsR_v]
/-- One aggregation step into the 200000 nodes: weights first, scatter-add, times the reciprocal of the count, equals
    scatter-add of the raw rows, divided by the count, then the weights. -/
theorem agg_v [Cert.KernelIdeal.Facts] [Cert.ReferenceIdeal.Facts]
    (GA : FVec Ideal Cert.KernelIdeal.S2000000x64 .f32) (IS : IVec Cert.KernelIdeal.S2000000x1 32) (CM : FVec Ideal Cert.KernelIdeal.S200000 .f32)
    (wl wr : Fin 64 → Fin 64 → EReal) (b : Fin 64 → EReal) (xd : Fin 200000 → Fin 64 → EReal)
    (hGA : ∀ i, Cert.Sage.IsReal (GA i)) (hwl : ∀ k j, Cert.Sage.IsReal (wl k j))
    (hCM : ∀ p : Fin 200000, ∃ r : ℝ, r ≠ 0 ∧ CM (ix1 p) = (r : EReal)) :
    Cert.Sage.comb (n := 200000)
      (fun p j => (mulf (Host.scatterAdd Cert.KernelIdeal.scatter_S200000x64_S2000000x1_S2000000x64_1_0_0_1
            (broadcastInDim Cert.KernelIdeal.S200000x64 ![] Cert.KernelIdeal.Facts₀.bcast_S_S200000x64 (constant (F := Ideal) Cert.KernelIdeal.S_ .f32 0x00000000#32)) IS
            (fun i => Cert.Sage.lin (E := 2000000) (fun e k => GA (ix2 e k)) wl (i 0) (i 1)))
          (broadcastInDim Cert.KernelIdeal.S200000x64 ![0, 1] Cert.KernelIdeal.Facts₀.bcast_S200000x1_S200000x64_0_1
            (broadcastInDim Cert.KernelIdeal.S200000x1 ![0] Cert.KernelIdeal.Facts₀.bcast_S200000_S200000x1_0
              (Host.divf (broadcastInDim Cert.KernelIdeal.S200000 ![] Cert.KernelIdeal.Facts₀.bcast_S_S200000 (constant (F := Ideal) Cert.KernelIdeal.S_ .f32 0x3F800000#32)) CM))))
          (ix2 p j)) b xd wr
    = Cert.Sage.sage (n := 200000)
      (fun p k => Ideal.div (Host.scatterAdd Cert.ReferenceIdeal.scatter_S200000x64_S2000000x1_S2000000x64_1_0_0_1
            (broadcastInDim Cert.ReferenceIdeal.S200000x64 ![] Cert.ReferenceIdeal.Facts₀.bcast_S_S200000x64 (constant (F := Ideal) Cert.ReferenceIdeal.S_ .f32 0x00000000#32)) IS GA (ix2 p k))
          (CM (ix1 p))) wl b xd wr := by
  rw [show (fun (p : Fin 200000) (j : Fin 64) => (mulf (Host.scatterAdd Cert.KernelIdeal.scatter_S200000x64_S2000000x1_S2000000x64_1_0_0_1
            (broadcastInDim Cert.KernelIdeal.S200000x64 ![] Cert.KernelIdeal.Facts₀.bcast_S_S200000x64 (constant (F := Ideal) Cert.KernelIdeal.S_ .f32 0x00000000#32)) IS
            (fun i => Cert.Sage.lin (E := 2000000) (fun e k => GA (ix2 e k)) wl (i 0) (i 1)))
          (broadcastInDim Cert.KernelIdeal.S200000x64 ![0, 1] Cert.KernelIdeal.Facts₀.bcast_S200000x1_S200000x64_0_1
            (broadcastInDim Cert.KernelIdeal.S200000x1 ![0] Cert.KernelIdeal.Facts₀.bcast_S200000_S200000x1_0
              (Host.divf (broadcastInDim Cert.KernelIdeal.S200000 ![] Cert.KernelIdeal.Facts₀.bcast_S_S200000 (constant (F := Ideal) Cert.KernelIdeal.S_ .f32 0x3F800000#32)) CM))))
          (ix2 p j))
      = fun p j => (z0 + ∑ e ∈ Finset.univ.filter (fun e : Fin 2000000 => target IS e = (p.val : Int)), lin (fun e k => GA (ix2 e k)) wl e j)
          * Ideal.div (Ideal.ofBits .f32 0x3F800000#32) (CM (ix1 p)) from
    funext fun p => funext fun j => kernel_msg_v GA IS CM wl p j]
  rw [show (fun (p : Fin 200000) (k : Fin 64) => Ideal.div (Host.scatterAdd Cert.ReferenceIdeal.scatter_S200000x64_S2000000x1_S2000000x64_1_0_0_1
            (broadcastInDim Cert.ReferenceIdeal.S200000x64 ![] Cert.ReferenceIdeal.Facts₀.bcast_S_S200000x64 (constant (F := Ideal) Cert.ReferenceIdeal.S_ .f32 0x00000000#32)) IS GA (ix2 p k))
          (CM (ix1 p)))
      = fun p k => Ideal.div (z0 + ∑ e ∈ Finset.univ.filter (fun e : Fin 2000000 => target IS e = (p.val : Int)), GA (ix2 e k)) (CM (ix1 p)) from
    funext fun p => funext fun k => ref_msg_v GA IS CM p k]
  exact sage_law (fun p => Finset.univ.filter (fun e : Fin 2000000 => target IS e = (p.val : Int))) (fun e k => GA (ix2 e k))
    wl wr b xd (fun p => CM (ix1 p)) (fun e k => hGA _) hwl hCM

/-- The clamped count of the 200000 nodes: zero plus a one per row sent to the node, then the larger of that and one, is a
    nonzero real number. -/
theorem cm_real_v [Cert.KernelIdeal.Facts] (I : IVec Cert.KernelIdeal.S2000000x1 32) : ∀ p : Fin 200000, ∃ r : ℝ, r ≠ 0 ∧
    (maximumf (Host.scatterAdd Cert.KernelIdeal.scatter_S200000_S2000000x1_S2000000_n_0_0_1
        (broadcastInDim Cert.KernelIdeal.S200000 ![] Cert.KernelIdeal.Facts₀.bcast_S_S200000 (constant (F := Ideal) Cert.KernelIdeal.S_ .f32 0x00000000#32)) I
        (broadcastInDim Cert.KernelIdeal.S2000000 ![] Cert.KernelIdeal.Facts₀.bcast_S_S2000000 (constant (F := Ideal) Cert.KernelIdeal.S_ .f32 0x3F800000#32)))
      (broadcastInDim Cert.KernelIdeal.S200000 ![] Cert.KernelIdeal.Facts₀.bcast_S_S200000 (constant (F := Ideal) Cert.KernelIdeal.S_ .f32 0x3F800000#32))) (ix1 p) = (r : EReal) := by
  intro p
  rw [maximumf_apply, hostScatterAdd_eq, splat_read]
  unfold Ideal.hostScatterAdd
  rw [splat_read, Finset.sum_congr rfl fun j _ => splat_read Cert.KernelIdeal.Facts₀.bcast_S_S2000000 0x3F800000#32 j]
  exact count_real' _

/-- The clamped count of the 100000 nodes: zero plus a one per row sent to the node, then the larger of that and one, is a
    nonzero real number. -/
theorem cm_real_c [Cert.KernelIdeal.Facts] (I : IVec Cert.KernelIdeal.S2000000x1 32) : ∀ p : Fin 100000, ∃ r : ℝ, r ≠ 0 ∧
    (maximumf (Host.scatterAdd Cert.KernelIdeal.scatter_S100000_S2000000x1_S2000000_n_0_0_1
        (broadcastInDim Cert.KernelIdeal.S100000 ![] Cert.KernelIdeal.Facts₀.bcast_S_S100000 (constant (F := Ideal) Cert.KernelIdeal.S_ .f32 0x00000000#32)) I
        (broadcastInDim Cert.KernelIdeal.S2000000 ![] Cert.KernelIdeal.Facts₀.bcast_S_S2000000 (constant (F := Ideal) Cert.KernelIdeal.S_ .f32 0x3F800000#32)))
      (broadcastInDim Cert.KernelIdeal.S100000 ![] Cert.KernelIdeal.Facts₀.bcast_S_S100000 (constant (F := Ideal) Cert.KernelIdeal.S_ .f32 0x3F800000#32))) (ix1 p) = (r : EReal) := by
  intro p
  rw [maximumf_apply, hostScatterAdd_eq, splat_read]
  unfold Ideal.hostScatterAdd
  rw [splat_read, Finset.sum_congr rfl fun j _ => splat_read Cert.KernelIdeal.Facts₀.bcast_S_S2000000 0x3F800000#32 j]
  exact count_real' _

/-- A per-node factor, spread along the feature axis, read at a node and a feature is the node's factor. -/
theorem col_read_c (h1 : (⟨2, ![100000, 1]⟩ : Shape).BroadcastsInDim ⟨2, ![100000, 64]⟩ (![0, 1] : Fin 2 → Fin 2))
    (h2 : (⟨1, ![100000]⟩ : Shape).BroadcastsInDim ⟨2, ![100000, 1]⟩ (![0] : Fin 1 → Fin 2))
    (f : (⟨1, ![100000]⟩ : Shape).Idx → EReal) (p : Fin 100000) (k : Fin 64) :
    broadcastInDim (⟨2, ![100000, 64]⟩ : Shape) ![0, 1] h1 (broadcastInDim (⟨2, ![100000, 1]⟩ : Shape) ![0] h2 f) (ix2 p k) = f (ix1 p) :=
  (broadcastInDim_apply _ h1 _ (ix2 p k) (ix2 p 0) (fun a => match a with
    | ⟨0, _⟩ => by show p.val = if (100000 : Nat) = 1 then 0 else p.val; rw [if_neg (by decide)]
    | ⟨1, _⟩ => by show 0 = if (1 : Nat) = 1 then 0 else k.val; rw [if_pos rfl])).trans
  (broadcastInDim_apply _ h2 f (ix2 p 0) (ix1 p) (fun a => match a with
    | ⟨0, _⟩ => by show p.val = if (100000 : Nat) = 1 then 0 else p.val; rw [if_neg (by decide)]))

theorem rowsK_c [Cert.KernelIdeal.Facts] : IsRows Cert.KernelIdeal.scatter_S100000x64_S2000000x1_S2000000x64_1_0_0_1 := ⟨rfl, rfl, rfl, rfl⟩
theorem rowsR_c [Cert.ReferenceIdeal.Facts] : IsRows Cert.ReferenceIdeal.scatter_S100000x64_S2000000x1_S2000000x64_1_0_0_1 := ⟨rfl, rfl, rfl, rfl⟩
/-- The kernel's weighted mean message at a node and a feature: the zero word plus the sum of the weighted rows sent to
    the node, times the reciprocal of the node's count. -/
theorem kernel_msg_c [Cert.KernelIdeal.Facts] (GA : FVec Ideal Cert.KernelIdeal.S2000000x64 .f32) (IS : IVec Cert.KernelIdeal.S2000000x1 32)
    (CM : FVec Ideal Cert.KernelIdeal.S100000 .f32) (wl : Fin 64 → Fin 64 → EReal) (p : Fin 100000) (j : Fin 64) :
    (mulf (Host.scatterAdd Cert.KernelIdeal.scatter_S100000x64_S2000000x1_S2000000x64_1_0_0_1
            (broadcastInDim Cert.KernelIdeal.S100000x64 ![] Cert.KernelIdeal.Facts₀.bcast_S_S100000x64 (constant (F := Ideal) Cert.KernelIdeal.S_ .f32 0x00000000#32)) IS
            (fun i => Cert.Sage.lin (E := 2000000) (fun e k => GA (ix2 e k)) wl (i 0) (i 1)))
          (broadcastInDim Cert.KernelIdeal.S100000x64 ![0, 1] Cert.KernelIdeal.Facts₀.bcast_S100000x1_S100000x64_0_1
            (broadcastInDim Cert.KernelIdeal.S100000x1 ![0] Cert.KernelIdeal.Facts₀.bcast_S100000_S100000x1_0
              (Host.divf (broadcastInDim Cert.KernelIdeal.S100000 ![] Cert.KernelIdeal.Facts₀.bcast_S_S100000 (constant (F := Ideal) Cert.KernelIdeal.S_ .f32 0x3F800000#32)) CM))))
          (ix2 p j)
      = (z0 + ∑ e ∈ Finset.univ.filter (fun e : Fin 2000000 => target IS e = (p.val : Int)), lin (fun e k => GA (ix2 e k)) wl e j)
          * Ideal.div (Ideal.ofBits .f32 0x3F800000#32) (CM (ix1 p)) := by
  rw [mulf_apply, col_read_c, scatter_rows_zero _ rowsK_c]
  refine congrArg₂ (· * ·) (congrArg (z0 + ·) (Finset.sum_congr rfl fun e _ => rfl)) ?_
  show Ideal.div (broadcastInDim Cert.KernelIdeal.S100000 ![] Cert.KernelIdeal.Facts₀.bcast_S_S100000 (constant (F := Ideal) Cert.KernelIdeal.S_ .f32 0x3F800000#32) (ix1 p))
    (CM (ix1 p)) = _
  rw [splat_read]
/-- The reference's mean message at a node and a feature: the zero word plus the sum of the raw rows sent to the node,
    divided by the node's count. -/
theorem ref_msg_c [Cert.ReferenceIdeal.Facts] (GA : FVec Ideal Cert.KernelIdeal.S2000000x64 .f32) (IS : IVec Cert.KernelIdeal.S2000000x1 32)
    (CM : FVec Ideal Cert.KernelIdeal.S100000 .f32) (p : Fin 100000) (k : Fin 64) :
    Ideal.div (Host.scatterAdd Cert.ReferenceIdeal.scatter_S100000x64_S2000000x1_S2000000x64_1_0_0_1
            (broadcastInDim Cert.ReferenceIdeal.S100000x64 ![] Cert.ReferenceIdeal.Facts₀.bcast_S_S100000x64 (constant (F := Ideal) Cert.ReferenceIdeal.S_ .f32 0x00000000#32)) IS GA (ix2 p k))
          (CM (ix1 p))
      = Ideal.div (z0 + ∑ e ∈ Finset.univ.filter (fun e : Fin 2000000 => target IS e = (p.val : Int)), GA (ix2 e k)) (CM (ix1 p)) := by
  rw [scatter_rows_zero _ rowsR_c]
/-- One aggregation step into the 100000 nodes: weights first, scatter-add, times the reciprocal of the count, equals
    scatter-add of the raw rows, divided by the count, then the weights. -/
theorem agg_c [Cert.KernelIdeal.Facts] [Cert.ReferenceIdeal.Facts]
    (GA : FVec Ideal Cert.KernelIdeal.S2000000x64 .f32) (IS : IVec Cert.KernelIdeal.S2000000x1 32) (CM : FVec Ideal Cert.KernelIdeal.S100000 .f32)
    (wl wr : Fin 64 → Fin 64 → EReal) (b : Fin 64 → EReal) (xd : Fin 100000 → Fin 64 → EReal)
    (hGA : ∀ i, Cert.Sage.IsReal (GA i)) (hwl : ∀ k j, Cert.Sage.IsReal (wl k j))
    (hCM : ∀ p : Fin 100000, ∃ r : ℝ, r ≠ 0 ∧ CM (ix1 p) = (r : EReal)) :
    Cert.Sage.comb (n := 100000)
      (fun p j => (mulf (Host.scatterAdd Cert.KernelIdeal.scatter_S100000x64_S2000000x1_S2000000x64_1_0_0_1
            (broadcastInDim Cert.KernelIdeal.S100000x64 ![] Cert.KernelIdeal.Facts₀.bcast_S_S100000x64 (constant (F := Ideal) Cert.KernelIdeal.S_ .f32 0x00000000#32)) IS
            (fun i => Cert.Sage.lin (E := 2000000) (fun e k => GA (ix2 e k)) wl (i 0) (i 1)))
          (broadcastInDim Cert.KernelIdeal.S100000x64 ![0, 1] Cert.KernelIdeal.Facts₀.bcast_S100000x1_S100000x64_0_1
            (broadcastInDim Cert.KernelIdeal.S100000x1 ![0] Cert.KernelIdeal.Facts₀.bcast_S100000_S100000x1_0
              (Host.divf (broadcastInDim Cert.KernelIdeal.S100000 ![] Cert.KernelIdeal.Facts₀.bcast_S_S100000 (constant (F := Ideal) Cert.KernelIdeal.S_ .f32 0x3F800000#32)) CM))))
          (ix2 p j)) b xd wr
    = Cert.Sage.sage (n := 100000)
      (fun p k => Ideal.div (Host.scatterAdd Cert.ReferenceIdeal.scatter_S100000x64_S2000000x1_S2000000x64_1_0_0_1
            (broadcastInDim Cert.ReferenceIdeal.S100000x64 ![] Cert.ReferenceIdeal.Facts₀.bcast_S_S100000x64 (constant (F := Ideal) Cert.ReferenceIdeal.S_ .f32 0x00000000#32)) IS GA (ix2 p k))
          (CM (ix1 p))) wl b xd wr := by
  rw [show (fun (p : Fin 100000) (j : Fin 64) => (mulf (Host.scatterAdd Cert.KernelIdeal.scatter_S100000x64_S2000000x1_S2000000x64_1_0_0_1
            (broadcastInDim Cert.KernelIdeal.S100000x64 ![] Cert.KernelIdeal.Facts₀.bcast_S_S100000x64 (constant (F := Ideal) Cert.KernelIdeal.S_ .f32 0x00000000#32)) IS
            (fun i => Cert.Sage.lin (E := 2000000) (fun e k => GA (ix2 e k)) wl (i 0) (i 1)))
          (broadcastInDim Cert.KernelIdeal.S100000x64 ![0, 1] Cert.KernelIdeal.Facts₀.bcast_S100000x1_S100000x64_0_1
            (broadcastInDim Cert.KernelIdeal.S100000x1 ![0] Cert.KernelIdeal.Facts₀.bcast_S100000_S100000x1_0
              (Host.divf (broadcastInDim Cert.KernelIdeal.S100000 ![] Cert.KernelIdeal.Facts₀.bcast_S_S100000 (constant (F := Ideal) Cert.KernelIdeal.S_ .f32 0x3F800000#32)) CM))))
          (ix2 p j))
      = fun p j => (z0 + ∑ e ∈ Finset.univ.filter (fun e : Fin 2000000 => target IS e = (p.val : Int)), lin (fun e k => GA (ix2 e k)) wl e j)
          * Ideal.div (Ideal.ofBits .f32 0x3F800000#32) (CM (ix1 p)) from
    funext fun p => funext fun j => kernel_msg_c GA IS CM wl p j]
  rw [show (fun (p : Fin 100000) (k : Fin 64) => Ideal.div (Host.scatterAdd Cert.ReferenceIdeal.scatter_S100000x64_S2000000x1_S2000000x64_1_0_0_1
            (broadcastInDim Cert.ReferenceIdeal.S100000x64 ![] Cert.ReferenceIdeal.Facts₀.bcast_S_S100000x64 (constant (F := Ideal) Cert.ReferenceIdeal.S_ .f32 0x00000000#32)) IS GA (ix2 p k))
          (CM (ix1 p)))
      = fun p k => Ideal.div (z0 + ∑ e ∈ Finset.univ.filter (fun e : Fin 2000000 => target IS e = (p.val : Int)), GA (ix2 e k)) (CM (ix1 p)) from
    funext fun p => funext fun k => ref_msg_c GA IS CM p k]
  exact sage_law (fun p => Finset.univ.filter (fun e : Fin 2000000 => target IS e = (p.val : Int))) (fun e k => GA (ix2 e k))
    wl wr b xd (fun p => CM (ix1 p)) (fun e k => hGA _) hwl hCM

end Cert.Agg

end
-- ==== Proof.RefReal.lean ====
/-
  The reference program's intermediate values are real numbers when its float arguments are.

  Each of the two embeddings is the two-layer network of the specification, which keeps reals real. A weight or bias
  slice reads entries of its argument. A gathered row is a row of the operand, and a scattered sum is a finite sum of
  update entries added to zero. The edge count of a node is 0 plus a finite sum of ones, clamped below by one: the
  larger of a cardinality and 1, a nonzero real; dividing a real by a nonzero real is multiplying it by the reciprocal, a
  real. So the mean message is real, and with it the node update (`sage`) of the first layer on both kinds of nodes.
-/
import proofs.«104275_j19928648254212_1_alg».proof.Proof.Gen.ReferenceIdeal.Read
import proofs.«104275_j19928648254212_1_alg».proof.Proof.RefForm
import proofs.«104275_j19928648254212_1_alg».proof.Proof.Spec
import proofs.«104275_j19928648254212_1_alg».proof.Proof.SageLaw
import proofs.«104275_j19928648254212_1_alg».proof.Proof.LibRealSums

noncomputable section

namespace Cert.ReferenceIdeal.RefReal

open Cert.ReferenceIdeal Cert.ReferenceIdeal.Gen Cert.ReferenceIdeal.Read Idealize.ShloMosaic Idealize.ShloMosaic.ValueIdx
open Cert.Algebra
open Cert.Sage (IsReal isReal_z0 z0 z0_eq one_eq)

/-! ## The embeddings -/

/-- The constraint nodes' embedding is real. -/
theorem v15_real (x0 : (⟨S100000x5, .f32⟩ : BufTy).Contents (Elt Ideal)) (x4 x5 : (⟨S5, .f32⟩ : BufTy).Contents (Elt Ideal))
    (x6 : (⟨S5x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (h0 : ∀ i, IsReal (x0 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (i) :
    IsReal (val_main_v15 (F := Ideal) x0 x4 x5 x6 x7 x8 x9 i) := by
  rw [RefForm.mlp_c]
  exact Cert.Sage.mlp_real (fun p q => h0 _) (fun q => h4 _) (fun q => h5 _) (fun q k => h6 _) (fun k => h7 _)
    (fun k j => h8 _) (fun j => h9 _) (i 0) (i 1)

/-- The variable nodes' embedding is real. -/
theorem v31_real (x1 : (⟨S200000x19, .f32⟩ : BufTy).Contents (Elt Ideal)) (x10 x11 : (⟨S19, .f32⟩ : BufTy).Contents (Elt Ideal))
    (x12 : (⟨S19x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (h1 : ∀ i, IsReal (x1 i)) (h10 : ∀ i, IsReal (x10 i)) (h11 : ∀ i, IsReal (x11 i)) (h12 : ∀ i, IsReal (x12 i))
    (h13 : ∀ i, IsReal (x13 i)) (h14 : ∀ i, IsReal (x14 i)) (h15 : ∀ i, IsReal (x15 i)) (i) :
    IsReal (val_main_v31 (F := Ideal) x1 x10 x11 x12 x13 x14 x15 i) := by
  rw [RefForm.mlp_v]
  exact Cert.Sage.mlp_real (fun p q => h1 _) (fun q => h10 _) (fun q => h11 _) (fun q k => h12 _) (fun k => h13 _)
    (fun k j => h14 _) (fun j => h15 _) (i 0) (i 1)

/-! ## The weight and bias slices: each entry is an entry of the argument -/

theorem v43_real (x18 : (⟨S2x2x64x64, .f32⟩ : BufTy).Contents (Elt Ideal)) (h : ∀ i, IsReal (x18 i)) (i) :
    IsReal (val_main_v43 (F := Ideal) x18 i) := by
  rw [val_main_v43_apply, val_main_v42_apply]; exact h _

theorem v45_real (x19 : (⟨S2x2x64, .f32⟩ : BufTy).Contents (Elt Ideal)) (h : ∀ i, IsReal (x19 i)) (i) :
    IsReal (val_main_v45 (F := Ideal) x19 i) := by
  rw [val_main_v45_apply, val_main_v44_apply]; exact h _

theorem v47_real (x20 : (⟨S2x2x64x64, .f32⟩ : BufTy).Contents (Elt Ideal)) (h : ∀ i, IsReal (x20 i)) (i) :
    IsReal (val_main_v47 (F := Ideal) x20 i) := by
  rw [val_main_v47_apply, val_main_v46_apply]; exact h _

theorem v74_real (x18 : (⟨S2x2x64x64, .f32⟩ : BufTy).Contents (Elt Ideal)) (h : ∀ i, IsReal (x18 i)) (i) :
    IsReal (val_main_v74 (F := Ideal) x18 i) := by
  rw [val_main_v74_apply, val_main_v73_apply]; exact h _

theorem v76_real (x19 : (⟨S2x2x64, .f32⟩ : BufTy).Contents (Elt Ideal)) (h : ∀ i, IsReal (x19 i)) (i) :
    IsReal (val_main_v76 (F := Ideal) x19 i) := by
  rw [val_main_v76_apply, val_main_v75_apply]; exact h _

theorem v78_real (x20 : (⟨S2x2x64x64, .f32⟩ : BufTy).Contents (Elt Ideal)) (h : ∀ i, IsReal (x20 i)) (i) :
    IsReal (val_main_v78 (F := Ideal) x20 i) := by
  rw [val_main_v78_apply, val_main_v77_apply]; exact h _

theorem v107_real (x18 : (⟨S2x2x64x64, .f32⟩ : BufTy).Contents (Elt Ideal)) (h : ∀ i, IsReal (x18 i)) (i) :
    IsReal (val_main_v107 (F := Ideal) x18 i) := by
  rw [val_main_v107_apply, val_main_v106_apply]; exact h _

theorem v109_real (x19 : (⟨S2x2x64, .f32⟩ : BufTy).Contents (Elt Ideal)) (h : ∀ i, IsReal (x19 i)) (i) :
    IsReal (val_main_v109 (F := Ideal) x19 i) := by
  rw [val_main_v109_apply, val_main_v108_apply]; exact h _

theorem v111_real (x20 : (⟨S2x2x64x64, .f32⟩ : BufTy).Contents (Elt Ideal)) (h : ∀ i, IsReal (x20 i)) (i) :
    IsReal (val_main_v111 (F := Ideal) x20 i) := by
  rw [val_main_v111_apply, val_main_v110_apply]; exact h _

/-! ## The node update keeps reals real -/

theorem sage_real {n : Nat} {mean : Fin n → Fin 64 → EReal} {wl : Fin 64 → Fin 64 → EReal} {b : Fin 64 → EReal}
    {xd : Fin n → Fin 64 → EReal} {wr : Fin 64 → Fin 64 → EReal} (hm : ∀ p k, IsReal (mean p k))
    (hwl : ∀ k j, IsReal (wl k j)) (hb : ∀ j, IsReal (b j)) (hxd : ∀ p k, IsReal (xd p k))
    (hwr : ∀ k j, IsReal (wr k j)) (p : Fin n) (j : Fin 64) : IsReal (Cert.Sage.sage mean wl b xd wr p j) :=
  max_real (add_real (add_real (sum_real _ _ fun k _ => mul_real (hm p k) (hwl k j)) (hb j))
    (sum_real _ _ fun k _ => mul_real (hxd p k) (hwr k j))) isReal_z0

/-! ## Counts and means -/

/-- A count of ones over any finite set, clamped below by one, is a nonzero real: the larger of the cardinality and 1. -/
theorem count_real' {ι : Type*} (s : Finset ι) :
    ∃ r : ℝ, r ≠ 0 ∧ max (z0 + ∑ _e ∈ s, Ideal.ofBits .f32 0x3F800000#32) (Ideal.ofBits .f32 0x3F800000#32)
      = (r : EReal) := by
  refine ⟨max (s.card : ℝ) 1, ?_, ?_⟩
  · have h : (1 : ℝ) ≤ max (s.card : ℝ) 1 := le_max_right _ _
    intro h0
    rw [h0] at h
    norm_num at h
  · rw [z0_eq, zero_add, one_eq, ← coe_sum, Finset.sum_const, nsmul_eq_mul, mul_one]
    exact (EReal.coe_strictMono.monotone.map_max).symm

/-- Ones scattered with addition into zeros, clamped below by one: at every index a nonzero real. -/
theorem count_scatter {s si u : Shape} {w : Nat} (d : ScatterDims s si u) (x : FVec Ideal s .f32) (idx : IVec si w)
    (upd : FVec Ideal u .f32) (hx : ∀ i, x i = z0) (hupd : ∀ j, upd j = Ideal.ofBits .f32 0x3F800000#32) (i : s.Idx) :
    ∃ r : ℝ, r ≠ 0 ∧ max (Host.scatterAdd d x idx upd i) (Ideal.ofBits .f32 0x3F800000#32) = (r : EReal) := by
  show ∃ r : ℝ, r ≠ 0 ∧ max (Ideal.hostScatterAdd d x idx upd i) (Ideal.ofBits .f32 0x3F800000#32) = (r : EReal)
  unfold Ideal.hostScatterAdd
  rw [hx i, Finset.sum_congr rfl fun j _ => hupd j]
  exact count_real' _

/-- A real divided by a nonzero real is a real. -/
theorem div_real {x m : EReal} (hx : IsReal x) (hm : ∃ r : ℝ, r ≠ 0 ∧ m = (r : EReal)) : IsReal (Ideal.div x m) := by
  obtain ⟨r, hr, rfl⟩ := hm
  rw [Ideal.div_coe hr]
  exact mul_real hx ⟨_, rfl⟩

/-- The accumulator of the messages into the variable nodes starts at zero. -/
theorem v55_const (i) : val_main_v55 (F := Ideal) i = z0 := by
  rw [val_main_v55_apply, val_main_cst_apply]
  exact Ideal.ofBits_def _

/-- Every edge contributes a one to the count of its variable node. -/
theorem v58_const (i) : val_main_v58 (F := Ideal) i = Ideal.ofBits .f32 0x3F800000#32 := by
  rw [val_main_v58_apply, val_main_cst_1_apply]
  exact Ideal.ofBits_def _

/-- The count of a variable node starts at zero. -/
theorem v59_const (i) : val_main_v59 (F := Ideal) i = z0 := by
  rw [val_main_v59_apply, val_main_cst_2_apply]
  exact Ideal.ofBits_def _

/-- The count of a variable node is clamped below by one. -/
theorem v62_const (i) : val_main_v62 (F := Ideal) i = Ideal.ofBits .f32 0x3F800000#32 := by
  rw [val_main_v62_apply, val_main_cst_3_apply]
  exact Ideal.ofBits_def _

/-- The accumulator of the messages into the constraint nodes starts at zero. -/
theorem v86_const (i) : val_main_v86 (F := Ideal) i = z0 := by
  rw [val_main_v86_apply, val_main_cst_6_apply]
  exact Ideal.ofBits_def _

/-- Every edge contributes a one to the count of its constraint node. -/
theorem v89_const (i) : val_main_v89 (F := Ideal) i = Ideal.ofBits .f32 0x3F800000#32 := by
  rw [val_main_v89_apply, val_main_cst_7_apply]
  exact Ideal.ofBits_def _

/-- The count of a constraint node starts at zero. -/
theorem v90_const (i) : val_main_v90 (F := Ideal) i = z0 := by
  rw [val_main_v90_apply, val_main_cst_8_apply]
  exact Ideal.ofBits_def _

/-- The count of a constraint node is clamped below by one. -/
theorem v93_const (i) : val_main_v93 (F := Ideal) i = Ideal.ofBits .f32 0x3F800000#32 := by
  rw [val_main_v93_apply, val_main_cst_9_apply]
  exact Ideal.ofBits_def _

/-- The clamped edge count of a variable node is a nonzero real. -/
theorem v63_count (x3 : (⟨S2x2000000, .i32⟩ : BufTy).Contents (Elt Ideal)) (i) :
    ∃ r : ℝ, r ≠ 0 ∧ val_main_v63 (F := Ideal) x3 i = (r : EReal) := by
  rw [val_main_v63_apply, v62_const, Ideal.maximumf_def]
  unfold val_main_v61
  exact count_scatter _ _ _ _ v59_const v58_const i

/-- The clamped edge count of a constraint node is a nonzero real. -/
theorem v94_count (x3 : (⟨S2x2000000, .i32⟩ : BufTy).Contents (Elt Ideal)) (i) :
    ∃ r : ℝ, r ≠ 0 ∧ val_main_v94 (F := Ideal) x3 i = (r : EReal) := by
  rw [val_main_v94_apply, v93_const, Ideal.maximumf_def]
  unfold val_main_v92
  exact count_scatter _ _ _ _ v90_const v89_const i

/-- The summed messages into the variable nodes are real. -/
theorem v57_real (x0 : (⟨S100000x5, .f32⟩ : BufTy).Contents (Elt Ideal)) (x3 : (⟨S2x2000000, .i32⟩ : BufTy).Contents (Elt Ideal)) (x4 x5 : (⟨S5, .f32⟩ : BufTy).Contents (Elt Ideal))
    (x6 : (⟨S5x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (h0 : ∀ i, IsReal (x0 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (i) :
    IsReal (val_main_v57 (F := Ideal) x0 x3 x4 x5 x6 x7 x8 x9 i) := by
  unfold val_main_v57 val_main_v54
  exact Cert.Sage.scatterAdd_real _ _ _ _ (fun i => by rw [v55_const]; exact isReal_z0)
    (Cert.Sage.gather_real _ _ _ (v15_real x0 x4 x5 x6 x7 x8 x9 h0 h4 h5 h6 h7 h8 h9)) i

/-- The summed messages into the constraint nodes are real. -/
theorem v88_real (x1 : (⟨S200000x19, .f32⟩ : BufTy).Contents (Elt Ideal)) (x3 : (⟨S2x2000000, .i32⟩ : BufTy).Contents (Elt Ideal)) (x10 x11 : (⟨S19, .f32⟩ : BufTy).Contents (Elt Ideal))
    (x12 : (⟨S19x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (h1 : ∀ i, IsReal (x1 i)) (h10 : ∀ i, IsReal (x10 i)) (h11 : ∀ i, IsReal (x11 i)) (h12 : ∀ i, IsReal (x12 i))
    (h13 : ∀ i, IsReal (x13 i)) (h14 : ∀ i, IsReal (x14 i)) (h15 : ∀ i, IsReal (x15 i)) (i) :
    IsReal (val_main_v88 (F := Ideal) x1 x3 x10 x11 x12 x13 x14 x15 i) := by
  unfold val_main_v88 val_main_v85
  exact Cert.Sage.scatterAdd_real _ _ _ _ (fun i => by rw [v86_const]; exact isReal_z0)
    (Cert.Sage.gather_real _ _ _ (v31_real x1 x10 x11 x12 x13 x14 x15 h1 h10 h11 h12 h13 h14 h15)) i

/-! ## The first layer's outputs -/

/-- The first layer's output on the variable nodes is real. -/
theorem v105_real (x0 : (⟨S100000x5, .f32⟩ : BufTy).Contents (Elt Ideal)) (x1 : (⟨S200000x19, .f32⟩ : BufTy).Contents (Elt Ideal))
    (x3 : (⟨S2x2000000, .i32⟩ : BufTy).Contents (Elt Ideal)) (x4 x5 : (⟨S5, .f32⟩ : BufTy).Contents (Elt Ideal))
    (x6 : (⟨S5x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 x11 : (⟨S19, .f32⟩ : BufTy).Contents (Elt Ideal)) (x12 : (⟨S19x64, .f32⟩ : BufTy).Contents (Elt Ideal))
    (x13 : (⟨S64, .f32⟩ : BufTy).Contents (Elt Ideal)) (x14 : (⟨S64x64, .f32⟩ : BufTy).Contents (Elt Ideal))
    (x15 : (⟨S64, .f32⟩ : BufTy).Contents (Elt Ideal)) (x18 : (⟨S2x2x64x64, .f32⟩ : BufTy).Contents (Elt Ideal))
    (x19 : (⟨S2x2x64, .f32⟩ : BufTy).Contents (Elt Ideal)) (x20 : (⟨S2x2x64x64, .f32⟩ : BufTy).Contents (Elt Ideal))
    (h0 : ∀ i, IsReal (x0 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i))
    (h1 : ∀ i, IsReal (x1 i)) (h10 : ∀ i, IsReal (x10 i)) (h11 : ∀ i, IsReal (x11 i)) (h12 : ∀ i, IsReal (x12 i))
    (h13 : ∀ i, IsReal (x13 i)) (h14 : ∀ i, IsReal (x14 i)) (h15 : ∀ i, IsReal (x15 i))
    (h18 : ∀ i, IsReal (x18 i)) (h19 : ∀ i, IsReal (x19 i)) (h20 : ∀ i, IsReal (x20 i)) (i) :
    IsReal (val_main_v105 (F := Ideal) x0 x1 x3 x4 x5 x6 x7 x8 x9 x10 x11 x12 x13 x14 x15 x18 x19 x20 i) := by
  have e : val_main_v105 (F := Ideal) x0 x1 x3 x4 x5 x6 x7 x8 x9 x10 x11 x12 x13 x14 x15 x18 x19 x20
      = fun i => Cert.Sage.sage (n := 200000)
          (fun p k => Ideal.div (val_main_v57 (F := Ideal) x0 x3 x4 x5 x6 x7 x8 x9 (ix2 p k)) (val_main_v63 (F := Ideal) x3 (ix1 p)))
          (fun k j => val_main_v43 (F := Ideal) x18 (ix2 k j)) (fun j => val_main_v45 (F := Ideal) x19 (ix1 j))
          (fun p k => val_main_v31 (F := Ideal) x1 x10 x11 x12 x13 x14 x15 (ix2 p k))
          (fun k j => val_main_v47 (F := Ideal) x20 (ix2 k j)) (i 0) (i 1) :=
    RefForm.step_v _ _ _ _ _ _
  rw [e]
  exact sage_real
    (fun p k => div_real (v57_real x0 x3 x4 x5 x6 x7 x8 x9 h0 h4 h5 h6 h7 h8 h9 _) (v63_count x3 _))
    (fun k j => v43_real x18 h18 _) (fun j => v45_real x19 h19 _)
    (fun p k => v31_real x1 x10 x11 x12 x13 x14 x15 h1 h10 h11 h12 h13 h14 h15 _)
    (fun k j => v47_real x20 h20 _) (i 0) (i 1)

/-- The first layer's output on the constraint nodes is real. -/
theorem v104_real (x0 : (⟨S100000x5, .f32⟩ : BufTy).Contents (Elt Ideal)) (x1 : (⟨S200000x19, .f32⟩ : BufTy).Contents (Elt Ideal))
    (x3 : (⟨S2x2000000, .i32⟩ : BufTy).Contents (Elt Ideal)) (x4 x5 : (⟨S5, .f32⟩ : BufTy).Contents (Elt Ideal))
    (x6 : (⟨S5x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 x11 : (⟨S19, .f32⟩ : BufTy).Contents (Elt Ideal)) (x12 : (⟨S19x64, .f32⟩ : BufTy).Contents (Elt Ideal))
    (x13 : (⟨S64, .f32⟩ : BufTy).Contents (Elt Ideal)) (x14 : (⟨S64x64, .f32⟩ : BufTy).Contents (Elt Ideal))
    (x15 : (⟨S64, .f32⟩ : BufTy).Contents (Elt Ideal)) (x18 : (⟨S2x2x64x64, .f32⟩ : BufTy).Contents (Elt Ideal))
    (x19 : (⟨S2x2x64, .f32⟩ : BufTy).Contents (Elt Ideal)) (x20 : (⟨S2x2x64x64, .f32⟩ : BufTy).Contents (Elt Ideal))
    (h0 : ∀ i, IsReal (x0 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i))
    (h1 : ∀ i, IsReal (x1 i)) (h10 : ∀ i, IsReal (x10 i)) (h11 : ∀ i, IsReal (x11 i)) (h12 : ∀ i, IsReal (x12 i))
    (h13 : ∀ i, IsReal (x13 i)) (h14 : ∀ i, IsReal (x14 i)) (h15 : ∀ i, IsReal (x15 i))
    (h18 : ∀ i, IsReal (x18 i)) (h19 : ∀ i, IsReal (x19 i)) (h20 : ∀ i, IsReal (x20 i)) (i) :
    IsReal (val_main_v104 (F := Ideal) x0 x1 x3 x4 x5 x6 x7 x8 x9 x10 x11 x12 x13 x14 x15 x18 x19 x20 i) := by
  have e : val_main_v104 (F := Ideal) x0 x1 x3 x4 x5 x6 x7 x8 x9 x10 x11 x12 x13 x14 x15 x18 x19 x20
      = fun i => Cert.Sage.sage (n := 100000)
          (fun p k => Ideal.div (val_main_v88 (F := Ideal) x1 x3 x10 x11 x12 x13 x14 x15 (ix2 p k)) (val_main_v94 (F := Ideal) x3 (ix1 p)))
          (fun k j => val_main_v74 (F := Ideal) x18 (ix2 k j)) (fun j => val_main_v76 (F := Ideal) x19 (ix1 j))
          (fun p k => val_main_v15 (F := Ideal) x0 x4 x5 x6 x7 x8 x9 (ix2 p k))
          (fun k j => val_main_v78 (F := Ideal) x20 (ix2 k j)) (i 0) (i 1) :=
    RefForm.step_c _ _ _ _ _ _
  rw [e]
  exact sage_real
    (fun p k => div_real (v88_real x1 x3 x10 x11 x12 x13 x14 x15 h1 h10 h11 h12 h13 h14 h15 _) (v94_count x3 _))
    (fun k j => v74_real x18 h18 _) (fun j => v76_real x19 h19 _)
    (fun p k => v15_real x0 x4 x5 x6 x7 x8 x9 h0 h4 h5 h6 h7 h8 h9 _)
    (fun k j => v78_real x20 h20 _) (i 0) (i 1)

end Cert.ReferenceIdeal.RefReal

end
-- ==== Proof.KWalk3.lean ====
/-
  The first aggregation into the variable nodes (regions 2 and 3) against the reference.

  Region 2 multiplies the gathered constraint features by the message weight row by row; the host scatter-adds the
  products by destination and multiplies by the reciprocal of the clamped edge count; region 3 adds the bias and the
  variable nodes' own features times the self weight and rectifies. The reference takes the mean of the raw gathered
  rows first and applies the weight after. On real entries the two agree, sum by sum.
-/
import proofs.«104275_j19928648254212_1_alg».proof.Proof.Gen.KernelIdeal.Frame
import proofs.«104275_j19928648254212_1_alg».proof.Proof.KWalk2
import proofs.«104275_j19928648254212_1_alg».proof.Proof.KLin2
import proofs.«104275_j19928648254212_1_alg».proof.Proof.KComb3
import proofs.«104275_j19928648254212_1_alg».proof.Proof.RefForm
import proofs.«104275_j19928648254212_1_alg».proof.Proof.AggLaw
import proofs.«104275_j19928648254212_1_alg».proof.Proof.SageLaw
import proofs.«104275_j19928648254212_1_alg».proof.Proof.RefReal
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg) (c : Dev nD)

/-- The linear region's output: the gathered rows times the message weight. -/
theorem v0_lin : W6 m ρ c (Proc.devRef .tc main_v50)
    = Cert.KernelIdeal.Lin2.G (Cert.ReferenceIdeal.Read.val_main_v54 (F := Ideal) (A0 m c) (A3 m c) (A4 m c) (A5 m c) (A6 m c) (A7 m c) (A8 m c) (A9 m c)) (Cert.ReferenceIdeal.Read.val_main_v43 (F := Ideal) (A18 m c)) :=
  (W6_arr m ρ c 2).trans ((Cert.KernelIdeal.Lin2.arr (V5 m ρ) c).trans (by
    rw [show V5 m ρ c (Pipeline.arrRef spec2 0) = _ from ga_v5 m ρ c, show V5 m ρ c (Pipeline.arrRef spec2 1) = _ from wl_v5 m ρ c]))

set_option maxHeartbeats 4000000 in
/-- The mean message the combine region reads: the scatter-added weighted rows times the reciprocal count. -/
theorem v0_mean : W7 m ρ c (Proc.devRef .tc main_v55)
    = mulf (Host.scatterAdd scatter_S200000x64_S2000000x1_S2000000x64_1_0_0_1
        (broadcastInDim S200000x64 ![] bcast_S_S200000x64 (constant (F := Ideal) S_ .f32 0x00000000#32))
        (broadcastInDim S2000000x1 ![0] bcast_S2000000_S2000000x1_0 (Cert.ReferenceIdeal.Read.val_main_v41 (F := Ideal) (A3 m c)))
        (Cert.KernelIdeal.Lin2.G (Cert.ReferenceIdeal.Read.val_main_v54 (F := Ideal) (A0 m c) (A3 m c) (A4 m c) (A5 m c) (A6 m c) (A7 m c) (A8 m c) (A9 m c)) (Cert.ReferenceIdeal.Read.val_main_v43 (F := Ideal) (A18 m c))))
      (broadcastInDim S200000x64 ![0, 1] bcast_S200000x1_S200000x64_0_1
        (broadcastInDim S200000x1 ![0] bcast_S200000_S200000x1_0
          (Host.divf (broadcastInDim S200000 ![] bcast_S_S200000 (constant (F := Ideal) S_ .f32 0x3F800000#32)) (Cert.ReferenceIdeal.Read.val_main_v63 (F := Ideal) (A3 m c))))) := by
  show StableHlo.after hostOps3 (W6 m ρ c) (Proc.devRef .tc main_v55) = _
  after_results
  rw [show W6 m ρ c (Proc.devRef .tc main_v13) = _ from (W6_of_ne m ρ c main_v13 (by decide)).trans (dst5 m ρ c), v0_lin,
    show W6 m ρ c (Proc.devRef .tc main_v25) = _ from (W6_of_ne m ρ c main_v25 (by decide)).trans (inv_v5 m ρ c)]

set_option maxHeartbeats 4000000 in
/-- The bias the combine region reads, as a one-row matrix. -/
theorem v0_bias : W7 m ρ c (Proc.devRef .tc main_v56)
    = shapeCast S1x64 (Cert.ReferenceIdeal.Read.val_main_v45 (F := Ideal) (A19 m c)) shapeCasts_S64_S1x64 := by
  show StableHlo.after hostOps3 (W6 m ρ c) (Proc.devRef .tc main_v56) = _
  after_results
  rw [show W6 m ρ c (Proc.devRef .tc main_v34) = _ from (W6_of_ne m ρ c main_v34 (by decide)).trans (b_v5 m ρ c)]
  rfl

set_option maxHeartbeats 4000000 in
/-- After the combine region the output array is the reference's updated node features. -/
theorem e3 (hX15 : ∀ i, Cert.Sage.IsReal ((Cert.ReferenceIdeal.Read.val_main_v15 (F := Ideal) (A0 m c) (A4 m c) (A5 m c) (A6 m c) (A7 m c) (A8 m c) (A9 m c)) i)) (hW43 : ∀ i, Cert.Sage.IsReal ((Cert.ReferenceIdeal.Read.val_main_v43 (F := Ideal) (A18 m c)) i)) : W8 m ρ c (Proc.devRef .tc main_v57)
    = Cert.ReferenceIdeal.Read.val_main_v105 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) := by
  have hR : Cert.ReferenceIdeal.Read.val_main_v105 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)
      = fun i => Cert.Sage.sage (n := 200000) (fun p k => Ideal.div (Cert.ReferenceIdeal.Read.val_main_v57 (F := Ideal) (A0 m c) (A3 m c) (A4 m c) (A5 m c) (A6 m c) (A7 m c) (A8 m c) (A9 m c) (ix2 p k)) (Cert.ReferenceIdeal.Read.val_main_v63 (F := Ideal) (A3 m c) (ix1 p)))
          (fun k j => Cert.ReferenceIdeal.Read.val_main_v43 (F := Ideal) (A18 m c) (ix2 k j)) (fun j => Cert.ReferenceIdeal.Read.val_main_v45 (F := Ideal) (A19 m c) (ix1 j)) (fun p k => Cert.ReferenceIdeal.Read.val_main_v31 (F := Ideal) (A1 m c) (A10 m c) (A11 m c) (A12 m c) (A13 m c) (A14 m c) (A15 m c) (ix2 p k)) (fun k j => Cert.ReferenceIdeal.Read.val_main_v47 (F := Ideal) (A20 m c) (ix2 k j)) (i 0) (i 1) :=
    Cert.ReferenceIdeal.RefForm.step_v _ _ _ _ _ _
  rw [hR]
  refine (W8_arr m ρ c 4).trans ?_
  rw [Cert.KernelIdeal.Comb3.arr]
  rw [show V7 m ρ c (Pipeline.arrRef spec3 0) = _ from v0_mean m ρ c,
    show V7 m ρ c (Pipeline.arrRef spec3 1) = _ from v0_bias m ρ c,
    show V7 m ρ c (Pipeline.arrRef spec3 2) = _ from ((((show W7 m ρ c (Proc.devRef .tc main_v9) = W6 m ρ c (Proc.devRef .tc main_v9) from by show StableHlo.after hostOps3 (W6 m ρ c) (Proc.devRef .tc main_v9) = _; after_results; try rfl).trans (W6_of_ne m ρ c main_v9 (by decide))).trans (show W5 m ρ c (Proc.devRef .tc main_v9) = W4 m ρ c (Proc.devRef .tc main_v9) from by show StableHlo.after hostOps2 (W4 m ρ c) (Proc.devRef .tc main_v9) = _; after_results; try rfl))).trans (e2 m ρ c),
    show V7 m ρ c (Pipeline.arrRef spec3 3) = _ from (((show W7 m ρ c (Proc.devRef .tc main_v36) = W6 m ρ c (Proc.devRef .tc main_v36) from by show StableHlo.after hostOps3 (W6 m ρ c) (Proc.devRef .tc main_v36) = _; after_results; try rfl).trans (W6_of_ne m ρ c main_v36 (by decide)))).trans (wr_v5 m ρ c)]
  unfold Cert.KernelIdeal.Comb3.G Cert.KernelIdeal.Lin2.G
  have hb : (fun j : Fin 64 => shapeCast S1x64 (Cert.ReferenceIdeal.Read.val_main_v45 (F := Ideal) (A19 m c)) shapeCasts_S64_S1x64 (ix2 0 j)) = fun j => Cert.ReferenceIdeal.Read.val_main_v45 (F := Ideal) (A19 m c) (ix1 j) :=
    funext fun j => shapeCast_row _ _ j
  rw [hb]
  have key := Cert.Agg.agg_v (Cert.ReferenceIdeal.Read.val_main_v54 (F := Ideal) (A0 m c) (A3 m c) (A4 m c) (A5 m c) (A6 m c) (A7 m c) (A8 m c) (A9 m c)) (broadcastInDim S2000000x1 ![0] bcast_S2000000_S2000000x1_0 (Cert.ReferenceIdeal.Read.val_main_v41 (F := Ideal) (A3 m c))) (Cert.ReferenceIdeal.Read.val_main_v63 (F := Ideal) (A3 m c))
    (fun k j => Cert.ReferenceIdeal.Read.val_main_v43 (F := Ideal) (A18 m c) (ix2 k j)) (fun k j => Cert.ReferenceIdeal.Read.val_main_v47 (F := Ideal) (A20 m c) (ix2 k j)) (fun j => Cert.ReferenceIdeal.Read.val_main_v45 (F := Ideal) (A19 m c) (ix1 j)) (fun p k => Cert.ReferenceIdeal.Read.val_main_v31 (F := Ideal) (A1 m c) (A10 m c) (A11 m c) (A12 m c) (A13 m c) (A14 m c) (A15 m c) (ix2 p k))
    (fun i => Cert.Sage.gather_real _ _ _ hX15 i) (fun k j => hW43 (ix2 k j)) (fun p => Cert.ReferenceIdeal.RefReal.v63_count _ (ix1 p))
  funext i
  exact congrFun (congrFun key (i 0)) (i 1)

end Cert.KernelIdeal.Walk

end
-- ==== Proof.KLin4.lean ====
/-
  Region 4: every row of the gathered messages times the 64 × 64 weight, 16000 rows to a grid point.

  A point's output block is the matrix product of its block of rows with the whole weight; row `r` of the array lies in
  the block of point `r / 16000`, and these blocks tile the array. So after the region the output array holds, at
  `(r, j)`, the sum over `k` of `x (r, k) · w (k, j)` of the arrays the region found.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Lin4

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the two arrays the region reads. -/
def G (a0 : S2000000x64.Idx → EReal) (a1 : S64x64.Idx → EReal) : S2000000x64.Idx → EReal :=
  fun i => Cert.Sage.lin (E := 2000000) (fun e k => a0 (ix2 e k)) (fun k j => a1 (ix2 k j)) (i 0) (i 1)

theorem G_apply (a0 : S2000000x64.Idx → EReal) (a1 : S64x64.Idx → EReal) (i : S2000000x64.Idx) :
    G a0 a1 i = ∑ k : Fin 64, a0 (ix2 (i 0) k) * a1 (ix2 k (i 1)) := rfl

/-- The matrix unit's product of a block of rows with the weight, into a zero accumulator, at an entry. -/
theorem matmul_at (x : FVec Ideal S16000x64 .bf16) (w : FVec Ideal S64x64 .bf16) (p : Fin 16000) (j : Fin 64) :
    matmul dot_S16000x64_S64x64_S16000x64_1_0_0_1_n_n none x w (constant (F := Ideal) S16000x64 .f32 0x00000000#32) (ix2 p j)
      = ∑ k : Fin 64, x (ix2 p k) * w (ix2 k j) := by
  refine (Ideal.matmul_constant_zero_apply dot_S16000x64_S64x64_S16000x64_1_0_0_1_n_n none x w (ix2 p j)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p j) ((contrEquiv1 dot_S16000x64_S64x64_S16000x64_1_0_0_1_n_n 64 rfl rfl).symm k) = ix2 p k :=
    funext fun a => Fin.ext (by
      match a with
      | ⟨0, _⟩ =>
        show (dot_S16000x64_S64x64_S16000x64_1_0_0_1_n_n.lhsIdx (ix2 p j) _ 0).val = p.val
        unfold DotDims.lhsIdx
        rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
        rfl
      | ⟨1, _⟩ => exact (dot_S16000x64_S64x64_S16000x64_1_0_0_1_n_n.lhsIdx_val_of_single rfl (ix2 p j) _).trans hk)
  have er : dot_S16000x64_S64x64_S16000x64_1_0_0_1_n_n.rhsIdx (ix2 p j) ((contrEquiv1 dot_S16000x64_S64x64_S16000x64_1_0_0_1_n_n 64 rfl rfl).symm k) = ix2 k j :=
    funext fun a => Fin.ext (by
      match a with
      | ⟨0, _⟩ => exact (dot_S16000x64_S64x64_S16000x64_1_0_0_1_n_n.rhsIdx_val_of_single rfl (ix2 p j) _).trans hk
      | ⟨1, _⟩ =>
        show (dot_S16000x64_S64x64_S16000x64_1_0_0_1_n_n.rhsIdx (ix2 p j) _ 1).val = j.val
        unfold DotDims.rhsIdx
        rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
        rfl)
  rw [el, er]

/-- The body's one stored value, at an entry of the block: the block's row times the weight's column. -/
theorem pay_at (x0 : Vec Ideal S16000x64 .f32) (x1 : Vec Ideal S64x64 .f32) (p : Fin 16000) (j : Fin 64) :
    k4_pay1 (F := Ideal) x0 x1 (ix2 p j) = ∑ k : Fin 64, x0 (ix2 p k) * x1 (ix2 k j) := by
  unfold k4_pay1
  rw [shapeCast_self, shapeCast_self]
  exact matmul_at _ _ p j

/-- The printed index maps over the grid: the rows' window moves with the output's, the weight's stays. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What a point writes back is its block of `G` of the arrays the region found. -/
theorem flushed_eq (c : Dev nD) (t : Fin cfg4.N) :
    (dat4 V c).flushed 2 t = ((cfg4.win 2).blk t).view.read (Elt Ideal)
      (G (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S16000x64) hz, View.ld_unit_zero (S := S64x64) hz]
  obtain ⟨e0, e1, e2, e3, e4, e5⟩ := idx_facts t
  funext y
  obtain ⟨p, q, rfl⟩ : ∃ (p : Fin 16000) (q : Fin 64), y = ix2 p q := ⟨y 0, y 1, eq_ix2 y⟩
  refine (pay_at (iblk4 V c 0 t) (iblk4 V c 1 t) p q).trans ?_
  refine Eq.trans ?_ (G_apply _ _ _).symm
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 16000 + 1 * p.val = win4_2.index t (0 : Fin 2) * 16000 + 1 * p.val; omega
    | ⟨1, _⟩ => show win4_0.index t (1 : Fin 2) * 64 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  exact congrArg₂ (· * ·) (congrArg (V c (Pipeline.arrRef spec4 0)) h0) (congrArg (V c (Pipeline.arrRef spec4 1)) h1)

/-- An index of the array is in a point's block iff each coordinate is in the block's range. -/
theorem mem_blk (t : Fin cfg4.N) (i : S2000000x64.Idx) :
    i ∈ ((cfg4.win 2).blk t).view.set ↔ ∀ a : Fin 2, win4_2.index t a * S16000x64.size a ≤ (i a).val ∧ (i a).val < win4_2.index t a * S16000x64.size a + S16000x64.size a := by
  show i ∈ ((View.whole main_v65).slice (win4_2.rect t)).set ↔ _
  rw [View.set_slice_whole, Rect.mem_set_unit]
  exact Iff.rfl

/-- Every index of the output array is in the block of the point its row falls to. -/
theorem cover (i : S2000000x64.Idx) :
    ∃ t : Fin cfg4.N, (cfg4.win 2).flush t = true ∧ i ∈ ((cfg4.win 2).blk t).view.set := by
  have hi0 : (i 0).val < 2000000 := (i 0).isLt
  have hi1 : (i 1).val < 64 := (i 1).isLt
  have hN : cfg4.N = 125 := N_4
  let t : Fin cfg4.N := ⟨(i 0).val / 16000, by rw [hN]; omega⟩
  obtain ⟨e0, e1, e2, e3, e4, e5⟩ := idx_facts t
  have e4' : win4_2.index t (0 : Fin 2) = (i 0).val / 16000 := e4
  refine ⟨t, flush4_2 t, ?_⟩
  rw [mem_blk]
  intro a
  match a with
  | ⟨0, _⟩ => show win4_2.index t (0 : Fin 2) * 16000 ≤ (i 0).val ∧ (i 0).val < win4_2.index t (0 : Fin 2) * 16000 + 16000; omega
  | ⟨1, _⟩ => show win4_2.index t (1 : Fin 2) * 64 ≤ (i 1).val ∧ (i 1).val < win4_2.index t (1 : Fin 2) * 64 + 64; omega

/-- The output array after the region. -/
theorem arr (c : Dev nD) : (dat4 V c).arrAt 2 cfg4.N
    = G (V c (Pipeline.arrRef spec4 0)) (V c (Pipeline.arrRef spec4 1)) :=
  (dat4 V c).arrAt_eq_of_cover 2 _ (fun t _ => flushed_eq V c t) cover

end Cert.KernelIdeal.Lin4

end
-- ==== Proof.KComb5.lean ====
/-
  Region 5: the node update from an already weighted mean message, 10000 nodes to a grid point.

  A point's output block is, entry by entry, the mean message plus the bias plus the node's own features times the
  64 × 64 weight, rectified; node `r` lies in the block of point `r / 10000`, and these blocks tile the array.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Comb5

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the four arrays the region reads: the mean message, the bias
    row, the nodes' own features, the weight. -/
def G (a0 : S100000x64.Idx → EReal) (a1 : S1x64.Idx → EReal) (a2 : S100000x64.Idx → EReal) (a3 : S64x64.Idx → EReal) :
    S100000x64.Idx → EReal :=
  fun i => Cert.Sage.comb (n := 100000) (fun p j => a0 (ix2 p j)) (fun j => a1 (ix2 0 j)) (fun p k => a2 (ix2 p k))
    (fun k j => a3 (ix2 k j)) (i 0) (i 1)

theorem G_apply (a0 : S100000x64.Idx → EReal) (a1 : S1x64.Idx → EReal) (a2 : S100000x64.Idx → EReal) (a3 : S64x64.Idx → EReal)
    (i : S100000x64.Idx) :
    G a0 a1 a2 a3 i = max ((a0 (ix2 (i 0) (i 1)) + a1 (ix2 0 (i 1))) + ∑ k : Fin 64, a2 (ix2 (i 0) k) * a3 (ix2 k (i 1))) Cert.Sage.z0 := rfl

/-- The matrix unit's product of a 10000 × 64 block with a 64 × 64 matrix, into a zero accumulator, at an entry. -/
theorem matmul_at (x : FVec Ideal S10000x64 .bf16) (w : FVec Ideal S64x64 .bf16) (p : Fin 10000) (j : Fin 64) :
    matmul dot_S10000x64_S64x64_S10000x64_1_0_0_1_n_n none x w (constant (F := Ideal) S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ =>
        show (dot_S10000x64_S64x64_S10000x64_1_0_0_1_n_n.lhsIdx (ix2 p j) _ 0).val = p.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 p j) _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 p j) _).trans hk
      | ⟨1, _⟩ =>
        show (dot_S10000x64_S64x64_S10000x64_1_0_0_1_n_n.rhsIdx (ix2 p j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- The bias row broadcast down the block, at an entry. -/
theorem bias_at (b : Vec Ideal S1x64 .f32) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- The body's one stored value, at an entry of the block. -/
theorem pay_at (xd : Vec Ideal S10000x64 .f32) (w : Vec Ideal S64x64 .f32) (mean : Vec Ideal S10000x64 .f32)
    (b : Vec Ideal S1x64 .f32) (p : Fin 10000) (j : Fin 64) :
    k5_pay1 (F := Ideal) xd w mean b (ix2 p j)
      = max ((mean (ix2 p j) + b (ix2 0 j)) + ∑ k : Fin 64, xd (ix2 p k) * w (ix2 k j)) Cert.Sage.z0 := by
  unfold k5_pay1
  rw [shapeCast_self, shapeCast_self, shapeCast_self, shapeCast_self]
  have hm := matmul_at (truncf .bf16 xd bitsLt_bf16_f32) (truncf .bf16 w bitsLt_bf16_f32) p j
  have hb := bias_at b p j
  show max ((mean (ix2 p j) + broadcastTo S10000x64 b broadcasts_S1x64_S10000x64 (ix2 p j))
    + matmul dot_S10000x64_S64x64_S10000x64_1_0_0_1_n_n none (truncf .bf16 xd bitsLt_bf16_f32) (truncf .bf16 w bitsLt_bf16_f32) (constant (F := Ideal) S10000x64 .f32 0x00000000#32) (ix2 p j)) Cert.Sage.z0 = _
  rw [hm, hb]
  rfl

/-- The printed index maps over the grid: the mean's and the features' windows move with the output's, the bias's and
    the weight's stay. -/
theorem idx_facts : ∀ t : Fin cfg5.N, win5_0.index t (0 : Fin 2) = win5_4.index t (0 : Fin 2)
    ∧ win5_0.index t (1 : Fin 2) = 0 ∧ win5_1.index t (0 : Fin 2) = 0 ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 2000000 in
/-- What a point writes back is its block of `G` of the arrays the region found. -/
theorem flushed_eq (c : Dev nD) (t : Fin cfg5.N) :
    (dat5 V c).flushed 4 t = ((cfg5.win 4).blk t).view.read (Elt Ideal)
      (G (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9⟩ := idx_facts t
  funext y
  obtain ⟨p, q, rfl⟩ : ∃ (p : Fin 10000) (q : Fin 64), y = ix2 p q := ⟨y 0, y 1, eq_ix2 y⟩
  refine (pay_at (iblk5 V c 2 t) (iblk5 V c 3 t) (iblk5 V c 0 t) (iblk5 V c 1 t) p q).trans ?_
  refine Eq.trans ?_ (G_apply _ _ _ _ _).symm
  have h0 : ((cfg5.win 0).blk t).view.emb (ix2 p q) = ix2 ((((cfg5.win 4).blk t).view.emb (ix2 p q)) 0) ((((cfg5.win 4).blk t).view.emb (ix2 p q)) 1) := by
    funext a; apply Fin.ext
    match a with
    | ⟨0, _⟩ => show win5_0.index t (0 : Fin 2) * 10000 + 1 * p.val = win5_4.index t (0 : Fin 2) * 10000 + 1 * p.val; omega
    | ⟨1, _⟩ => show win5_0.index t (1 : Fin 2) * 64 + 1 * q.val = win5_4.index t (1 : Fin 2) * 64 + 1 * q.val; omega
  have h1 : ((cfg5.win 1).blk t).view.emb (ix2 0 q) = ix2 0 ((((cfg5.win 4).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_4.index t (1 : Fin 2) * 64 + 1 * q.val; omega
  have h2 : ∀ k : Fin 64, ((cfg5.win 2).blk t).view.emb (ix2 p k) = ix2 ((((cfg5.win 4).blk t).view.emb (ix2 p q)) 0) k := fun k => by
    funext a; apply Fin.ext
    match a with
    | ⟨0, _⟩ => show win5_2.index t (0 : Fin 2) * 10000 + 1 * p.val = win5_4.index t (0 : Fin 2) * 10000 + 1 * p.val; omega
    | ⟨1, _⟩ => show win5_2.index t (1 : Fin 2) * 64 + 1 * k.val = k.val; omega
  have h3 : ∀ k : Fin 64, ((cfg5.win 3).blk t).view.emb (ix2 k q) = ix2 k ((((cfg5.win 4).blk t).view.emb (ix2 p q)) 1) := fun k => by
    funext a; apply Fin.ext
    match a with
    | ⟨0, _⟩ => show win5_3.index t (0 : Fin 2) * 64 + 1 * k.val = k.val; omega
    | ⟨1, _⟩ => show win5_3.index t (1 : Fin 2) * 64 + 1 * q.val = win5_4.index t (1 : Fin 2) * 64 + 1 * q.val; omega
  refine congrArg₂ max (congrArg₂ (· + ·) (congrArg₂ (· + ·) (congrArg (V c (Pipeline.arrRef spec5 0)) h0) (congrArg (V c (Pipeline.arrRef spec5 1)) h1)) ?_) rfl
  exact Finset.sum_congr rfl fun k _ => congrArg₂ (· * ·) (congrArg (V c (Pipeline.arrRef spec5 2)) (h2 k)) (congrArg (V c (Pipeline.arrRef spec5 3)) (h3 k))

/-- An index of the array is in a point's block iff each coordinate is in the block's range. -/
theorem mem_blk (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v72).slice (win5_4.rect t)).set ↔ _
  rw [View.set_slice_whole, Rect.mem_set_unit]
  exact Iff.rfl

/-- Every index of the output array is in the block of the point its row falls to. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5, e6, e7, e8, e9⟩ := idx_facts t
  have e8' : win5_4.index t (0 : Fin 2) = (i 0).val / 10000 := e8
  refine ⟨t, flush5_4 t, ?_⟩
  rw [mem_blk]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- The output array after the region. -/
theorem arr (c : Dev nD) : (dat5 V c).arrAt 4 cfg5.N
    = G (V c (Pipeline.arrRef spec5 0)) (V c (Pipeline.arrRef spec5 1)) (V c (Pipeline.arrRef spec5 2)) (V c (Pipeline.arrRef spec5 3)) :=
  (dat5 V c).arrAt_eq_of_cover 4 _ (fun t _ => flushed_eq V c t) cover

end Cert.KernelIdeal.Comb5

end
-- ==== Proof.KWalk4.lean ====
/-
  The first aggregation into the constraint nodes (regions 4 and 5) against the reference.

  The same step as into the variable nodes, with the roles of the two node kinds exchanged: the variable nodes' features
  are gathered along the edges by destination, weighted row by row, scatter-added by source, scaled by the reciprocal
  count, and combined with the constraint nodes' own features.
-/
import proofs.«104275_j19928648254212_1_alg».proof.Proof.Gen.KernelIdeal.Frame
import proofs.«104275_j19928648254212_1_alg».proof.Proof.KWalk2
import proofs.«104275_j19928648254212_1_alg».proof.Proof.KLin4
import proofs.«104275_j19928648254212_1_alg».proof.Proof.KComb5
import proofs.«104275_j19928648254212_1_alg».proof.Proof.RefForm
import proofs.«104275_j19928648254212_1_alg».proof.Proof.AggLaw
import proofs.«104275_j19928648254212_1_alg».proof.Proof.SageLaw
import proofs.«104275_j19928648254212_1_alg».proof.Proof.RefReal
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg) (c : Dev nD)

set_option maxHeartbeats 4000000 in
/-- The variable nodes' features gathered along the edges. -/
theorem ga_c9 : W9 m ρ c (Proc.devRef .tc main_v64) = Cert.ReferenceIdeal.Read.val_main_v85 (F := Ideal) (A1 m c) (A3 m c) (A10 m c) (A11 m c) (A12 m c) (A13 m c) (A14 m c) (A15 m c) := by
  show StableHlo.after hostOps4 (W8 m ρ c) (Proc.devRef .tc main_v64) = _
  after_results
  rw [show W8 m ρ c (Proc.devRef .tc main_v13) = _ from ((((W8_of_ne m ρ c main_v13 (by decide)).trans (show W7 m ρ c (Proc.devRef .tc main_v13) = W6 m ρ c (Proc.devRef .tc main_v13) from by show StableHlo.after hostOps3 (W6 m ρ c) (Proc.devRef .tc main_v13) = _; after_results; try rfl)).trans (W6_of_ne m ρ c main_v13 (by decide)))).trans (dst5 m ρ c),
    show W8 m ρ c (Proc.devRef .tc main_v9) = _ from (((((show W8 m ρ c (Proc.devRef .tc main_v9) = W7 m ρ c (Proc.devRef .tc main_v9) from (W8_arr m ρ c 2).trans (((dat3 (V7 m ρ) c).arrAt_in 2 rfl _).trans (A_eq3 (V7 m ρ) c 2))).trans (show W7 m ρ c (Proc.devRef .tc main_v9) = W6 m ρ c (Proc.devRef .tc main_v9) from by show StableHlo.after hostOps3 (W6 m ρ c) (Proc.devRef .tc main_v9) = _; after_results; try rfl)).trans (W6_of_ne m ρ c main_v9 (by decide))).trans (show W5 m ρ c (Proc.devRef .tc main_v9) = W4 m ρ c (Proc.devRef .tc main_v9) from by show StableHlo.after hostOps2 (W4 m ρ c) (Proc.devRef .tc main_v9) = _; after_results; try rfl))).trans (e2 m ρ c)]
  rfl

/-- The linear region's output: the gathered rows times the message weight. -/
theorem c0_lin : W10 m ρ c (Proc.devRef .tc main_v65)
    = Cert.KernelIdeal.Lin4.G (Cert.ReferenceIdeal.Read.val_main_v85 (F := Ideal) (A1 m c) (A3 m c) (A10 m c) (A11 m c) (A12 m c) (A13 m c) (A14 m c) (A15 m c)) (Cert.ReferenceIdeal.Read.val_main_v74 (F := Ideal) (A18 m c)) :=
  (W10_arr m ρ c 2).trans ((Cert.KernelIdeal.Lin4.arr (V9 m ρ) c).trans (by
    rw [show V9 m ρ c (Pipeline.arrRef spec4 0) = _ from ga_c9 m ρ c, show V9 m ρ c (Pipeline.arrRef spec4 1) = _ from (((((show W9 m ρ c (Proc.devRef .tc main_v38) = W8 m ρ c (Proc.devRef .tc main_v38) from by show StableHlo.after hostOps4 (W8 m ρ c) (Proc.devRef .tc main_v38) = _; after_results; try rfl).trans (W8_of_ne m ρ c main_v38 (by decide))).trans (show W7 m ρ c (Proc.devRef .tc main_v38) = W6 m ρ c (Proc.devRef .tc main_v38) from by show StableHlo.after hostOps3 (W6 m ρ c) (Proc.devRef .tc main_v38) = _; after_results; try rfl)).trans (W6_of_ne m ρ c main_v38 (by decide)))).trans (wl_c5 m ρ c)]))

set_option maxHeartbeats 4000000 in
/-- The mean message the combine region reads: the scatter-added weighted rows times the reciprocal count. -/
theorem c0_mean : W11 m ρ c (Proc.devRef .tc main_v70)
    = mulf (Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0 (Cert.ReferenceIdeal.Read.val_main_v39 (F := Ideal) (A3 m c)))
        (Cert.KernelIdeal.Lin4.G (Cert.ReferenceIdeal.Read.val_main_v85 (F := Ideal) (A1 m c) (A3 m c) (A10 m c) (A11 m c) (A12 m c) (A13 m c) (A14 m c) (A15 m c)) (Cert.ReferenceIdeal.Read.val_main_v74 (F := Ideal) (A18 m c))))
      (broadcastInDim S100000x64 ![0, 1] bcast_S100000x1_S100000x64_0_1
        (broadcastInDim S100000x1 ![0] bcast_S100000_S100000x1_0
          (Host.divf (broadcastInDim S100000 ![] bcast_S_S100000 (constant (F := Ideal) S_ .f32 0x3F800000#32)) (Cert.ReferenceIdeal.Read.val_main_v94 (F := Ideal) (A3 m c))))) := by
  show StableHlo.after hostOps5 (W10 m ρ c) (Proc.devRef .tc main_v70) = _
  after_results
  rw [show W10 m ρ c (Proc.devRef .tc main_v11) = _ from ((((((W10_of_ne m ρ c main_v11 (by decide)).trans (show W9 m ρ c (Proc.devRef .tc main_v11) = W8 m ρ c (Proc.devRef .tc main_v11) from by show StableHlo.after hostOps4 (W8 m ρ c) (Proc.devRef .tc main_v11) = _; after_results; try rfl)).trans (W8_of_ne m ρ c main_v11 (by decide))).trans (show W7 m ρ c (Proc.devRef .tc main_v11) = W6 m ρ c (Proc.devRef .tc main_v11) from by show StableHlo.after hostOps3 (W6 m ρ c) (Proc.devRef .tc main_v11) = _; after_results; try rfl)).trans (W6_of_ne m ρ c main_v11 (by decide)))).trans (src5 m ρ c), c0_lin,
    show W10 m ρ c (Proc.devRef .tc main_v30) = _ from ((((((W10_of_ne m ρ c main_v30 (by decide)).trans (show W9 m ρ c (Proc.devRef .tc main_v30) = W8 m ρ c (Proc.devRef .tc main_v30) from by show StableHlo.after hostOps4 (W8 m ρ c) (Proc.devRef .tc main_v30) = _; after_results; try rfl)).trans (W8_of_ne m ρ c main_v30 (by decide))).trans (show W7 m ρ c (Proc.devRef .tc main_v30) = W6 m ρ c (Proc.devRef .tc main_v30) from by show StableHlo.after hostOps3 (W6 m ρ c) (Proc.devRef .tc main_v30) = _; after_results; try rfl)).trans (W6_of_ne m ρ c main_v30 (by decide)))).trans (inv_c5 m ρ c)]

set_option maxHeartbeats 4000000 in
/-- The bias the combine region reads, as a one-row matrix. -/
theorem c0_bias : W11 m ρ c (Proc.devRef .tc main_v71)
    = shapeCast S1x64 (Cert.ReferenceIdeal.Read.val_main_v76 (F := Ideal) (A19 m c)) shapeCasts_S64_S1x64 := by
  show StableHlo.after hostOps5 (W10 m ρ c) (Proc.devRef .tc main_v71) = _
  after_results
  rw [show W10 m ρ c (Proc.devRef .tc main_v40) = _ from ((((((W10_of_ne m ρ c main_v40 (by decide)).trans (show W9 m ρ c (Proc.devRef .tc main_v40) = W8 m ρ c (Proc.devRef .tc main_v40) from by show StableHlo.after hostOps4 (W8 m ρ c) (Proc.devRef .tc main_v40) = _; after_results; try rfl)).trans (W8_of_ne m ρ c main_v40 (by decide))).trans (show W7 m ρ c (Proc.devRef .tc main_v40) = W6 m ρ c (Proc.devRef .tc main_v40) from by show StableHlo.after hostOps3 (W6 m ρ c) (Proc.devRef .tc main_v40) = _; after_results; try rfl)).trans (W6_of_ne m ρ c main_v40 (by decide)))).trans (b_c5 m ρ c)]
  rfl

set_option maxHeartbeats 4000000 in
/-- After the combine region the output array is the reference's updated node features. -/
theorem e4 (hX31 : ∀ i, Cert.Sage.IsReal ((Cert.ReferenceIdeal.Read.val_main_v31 (F := Ideal) (A1 m c) (A10 m c) (A11 m c) (A12 m c) (A13 m c) (A14 m c) (A15 m c)) i)) (hW74 : ∀ i, Cert.Sage.IsReal ((Cert.ReferenceIdeal.Read.val_main_v74 (F := Ideal) (A18 m c)) i)) : W12 m ρ c (Proc.devRef .tc main_v72)
    = Cert.ReferenceIdeal.Read.val_main_v104 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) := by
  have hR : Cert.ReferenceIdeal.Read.val_main_v104 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)
      = fun i => Cert.Sage.sage (n := 100000) (fun p k => Ideal.div (Cert.ReferenceIdeal.Read.val_main_v88 (F := Ideal) (A1 m c) (A3 m c) (A10 m c) (A11 m c) (A12 m c) (A13 m c) (A14 m c) (A15 m c) (ix2 p k)) (Cert.ReferenceIdeal.Read.val_main_v94 (F := Ideal) (A3 m c) (ix1 p)))
          (fun k j => Cert.ReferenceIdeal.Read.val_main_v74 (F := Ideal) (A18 m c) (ix2 k j)) (fun j => Cert.ReferenceIdeal.Read.val_main_v76 (F := Ideal) (A19 m c) (ix1 j)) (fun p k => Cert.ReferenceIdeal.Read.val_main_v15 (F := Ideal) (A0 m c) (A4 m c) (A5 m c) (A6 m c) (A7 m c) (A8 m c) (A9 m c) (ix2 p k)) (fun k j => Cert.ReferenceIdeal.Read.val_main_v78 (F := Ideal) (A20 m c) (ix2 k j)) (i 0) (i 1) :=
    Cert.ReferenceIdeal.RefForm.step_c _ _ _ _ _ _
  rw [hR]
  refine (W12_arr m ρ c 4).trans ?_
  rw [Cert.KernelIdeal.Comb5.arr]
  rw [show V11 m ρ c (Pipeline.arrRef spec5 0) = _ from c0_mean m ρ c,
    show V11 m ρ c (Pipeline.arrRef spec5 1) = _ from c0_bias m ρ c,
    show V11 m ρ c (Pipeline.arrRef spec5 2) = _ from ((((((((((show W11 m ρ c (Proc.devRef .tc main_v4) = W10 m ρ c (Proc.devRef .tc main_v4) from by show StableHlo.after hostOps5 (W10 m ρ c) (Proc.devRef .tc main_v4) = _; after_results; try rfl).trans (W10_of_ne m ρ c main_v4 (by decide))).trans (show W9 m ρ c (Proc.devRef .tc main_v4) = W8 m ρ c (Proc.devRef .tc main_v4) from by show StableHlo.after hostOps4 (W8 m ρ c) (Proc.devRef .tc main_v4) = _; after_results; try rfl)).trans (W8_of_ne m ρ c main_v4 (by decide))).trans (show W7 m ρ c (Proc.devRef .tc main_v4) = W6 m ρ c (Proc.devRef .tc main_v4) from by show StableHlo.after hostOps3 (W6 m ρ c) (Proc.devRef .tc main_v4) = _; after_results; try rfl)).trans (W6_of_ne m ρ c main_v4 (by decide))).trans (show W5 m ρ c (Proc.devRef .tc main_v4) = W4 m ρ c (Proc.devRef .tc main_v4) from by show StableHlo.after hostOps2 (W4 m ρ c) (Proc.devRef .tc main_v4) = _; after_results; try rfl)).trans (W4_of_ne m ρ c main_v4 (by decide))).trans (show W3 m ρ c (Proc.devRef .tc main_v4) = W2 m ρ c (Proc.devRef .tc main_v4) from by show StableHlo.after hostOps1 (W2 m ρ c) (Proc.devRef .tc main_v4) = _; after_results; try rfl))).trans (e1 m ρ c),
    show V11 m ρ c (Pipeline.arrRef spec5 3) = _ from (((((((show W11 m ρ c (Proc.devRef .tc main_v42) = W10 m ρ c (Proc.devRef .tc main_v42) from by show StableHlo.after hostOps5 (W10 m ρ c) (Proc.devRef .tc main_v42) = _; after_results; try rfl).trans (W10_of_ne m ρ c main_v42 (by decide))).trans (show W9 m ρ c (Proc.devRef .tc main_v42) = W8 m ρ c (Proc.devRef .tc main_v42) from by show StableHlo.after hostOps4 (W8 m ρ c) (Proc.devRef .tc main_v42) = _; after_results; try rfl)).trans (W8_of_ne m ρ c main_v42 (by decide))).trans (show W7 m ρ c (Proc.devRef .tc main_v42) = W6 m ρ c (Proc.devRef .tc main_v42) from by show StableHlo.after hostOps3 (W6 m ρ c) (Proc.devRef .tc main_v42) = _; after_results; try rfl)).trans (W6_of_ne m ρ c main_v42 (by decide)))).trans (wr_c5 m ρ c)]
  unfold Cert.KernelIdeal.Comb5.G Cert.KernelIdeal.Lin4.G
  have hb : (fun j : Fin 64 => shapeCast S1x64 (Cert.ReferenceIdeal.Read.val_main_v76 (F := Ideal) (A19 m c)) shapeCasts_S64_S1x64 (ix2 0 j)) = fun j => Cert.ReferenceIdeal.Read.val_main_v76 (F := Ideal) (A19 m c) (ix1 j) :=
    funext fun j => shapeCast_row _ _ j
  rw [hb]
  have key := Cert.Agg.agg_c (Cert.ReferenceIdeal.Read.val_main_v85 (F := Ideal) (A1 m c) (A3 m c) (A10 m c) (A11 m c) (A12 m c) (A13 m c) (A14 m c) (A15 m c)) (broadcastInDim S2000000x1 ![0] bcast_S2000000_S2000000x1_0 (Cert.ReferenceIdeal.Read.val_main_v39 (F := Ideal) (A3 m c))) (Cert.ReferenceIdeal.Read.val_main_v94 (F := Ideal) (A3 m c))
    (fun k j => Cert.ReferenceIdeal.Read.val_main_v74 (F := Ideal) (A18 m c) (ix2 k j)) (fun k j => Cert.ReferenceIdeal.Read.val_main_v78 (F := Ideal) (A20 m c) (ix2 k j)) (fun j => Cert.ReferenceIdeal.Read.val_main_v76 (F := Ideal) (A19 m c) (ix1 j)) (fun p k => Cert.ReferenceIdeal.Read.val_main_v15 (F := Ideal) (A0 m c) (A4 m c) (A5 m c) (A6 m c) (A7 m c) (A8 m c) (A9 m c) (ix2 p k))
    (fun i => Cert.Sage.gather_real _ _ _ hX31 i) (fun k j => hW74 (ix2 k j)) (fun p => Cert.ReferenceIdeal.RefReal.v94_count _ (ix1 p))
  funext i
  exact congrFun (congrFun key (i 0)) (i 1)

end Cert.KernelIdeal.Walk

end
-- ==== Proof.KLin6.lean ====
/-
  Region 6: every row of the gathered messages times the 64 × 64 weight, 16000 rows to a grid point.

  A point's output block is the matrix product of its block of rows with the whole weight; row `r` of the array lies in
  the block of point `r / 16000`, and these blocks tile the array. So after the region the output array holds, at
  `(r, j)`, the sum over `k` of `x (r, k) · w (k, j)` of the arrays the region found.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Lin6

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the two arrays the region reads. -/
def G (a0 : S2000000x64.Idx → EReal) (a1 : S64x64.Idx → EReal) : S2000000x64.Idx → EReal :=
  fun i => Cert.Sage.lin (E := 2000000) (fun e k => a0 (ix2 e k)) (fun k j => a1 (ix2 k j)) (i 0) (i 1)

theorem G_apply (a0 : S2000000x64.Idx → EReal) (a1 : S64x64.Idx → EReal) (i : S2000000x64.Idx) :
    G a0 a1 i = ∑ k : Fin 64, a0 (ix2 (i 0) k) * a1 (ix2 k (i 1)) := rfl

/-- The matrix unit's product of a block of rows with the weight, into a zero accumulator, at an entry. -/
theorem matmul_at (x : FVec Ideal S16000x64 .bf16) (w : FVec Ideal S64x64 .bf16) (p : Fin 16000) (j : Fin 64) :
    matmul dot_S16000x64_S64x64_S16000x64_1_0_0_1_n_n none x w (constant (F := Ideal) S16000x64 .f32 0x00000000#32) (ix2 p j)
      = ∑ k : Fin 64, x (ix2 p k) * w (ix2 k j) := by
  refine (Ideal.matmul_constant_zero_apply dot_S16000x64_S64x64_S16000x64_1_0_0_1_n_n none x w (ix2 p j)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p j) ((contrEquiv1 dot_S16000x64_S64x64_S16000x64_1_0_0_1_n_n 64 rfl rfl).symm k) = ix2 p k :=
    funext fun a => Fin.ext (by
      match a with
      | ⟨0, _⟩ =>
        show (dot_S16000x64_S64x64_S16000x64_1_0_0_1_n_n.lhsIdx (ix2 p j) _ 0).val = p.val
        unfold DotDims.lhsIdx
        rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
        rfl
      | ⟨1, _⟩ => exact (dot_S16000x64_S64x64_S16000x64_1_0_0_1_n_n.lhsIdx_val_of_single rfl (ix2 p j) _).trans hk)
  have er : dot_S16000x64_S64x64_S16000x64_1_0_0_1_n_n.rhsIdx (ix2 p j) ((contrEquiv1 dot_S16000x64_S64x64_S16000x64_1_0_0_1_n_n 64 rfl rfl).symm k) = ix2 k j :=
    funext fun a => Fin.ext (by
      match a with
      | ⟨0, _⟩ => exact (dot_S16000x64_S64x64_S16000x64_1_0_0_1_n_n.rhsIdx_val_of_single rfl (ix2 p j) _).trans hk
      | ⟨1, _⟩ =>
        show (dot_S16000x64_S64x64_S16000x64_1_0_0_1_n_n.rhsIdx (ix2 p j) _ 1).val = j.val
        unfold DotDims.rhsIdx
        rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
        rfl)
  rw [el, er]

/-- The body's one stored value, at an entry of the block: the block's row times the weight's column. -/
theorem pay_at (x0 : Vec Ideal S16000x64 .f32) (x1 : Vec Ideal S64x64 .f32) (p : Fin 16000) (j : Fin 64) :
    k6_pay1 (F := Ideal) x0 x1 (ix2 p j) = ∑ k : Fin 64, x0 (ix2 p k) * x1 (ix2 k j) := by
  unfold k6_pay1
  rw [shapeCast_self, shapeCast_self]
  exact matmul_at _ _ p j

/-- The printed index maps over the grid: the rows' window moves with the output's, the weight's stays. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What a point writes back is its block of `G` of the arrays the region found. -/
theorem flushed_eq (c : Dev nD) (t : Fin cfg6.N) :
    (dat6 V c).flushed 2 t = ((cfg6.win 2).blk t).view.read (Elt Ideal)
      (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S16000x64) hz, View.ld_unit_zero (S := S64x64) hz]
  obtain ⟨e0, e1, e2, e3, e4, e5⟩ := idx_facts t
  funext y
  obtain ⟨p, q, rfl⟩ : ∃ (p : Fin 16000) (q : Fin 64), y = ix2 p q := ⟨y 0, y 1, eq_ix2 y⟩
  refine (pay_at (iblk6 V c 0 t) (iblk6 V c 1 t) p q).trans ?_
  refine Eq.trans ?_ (G_apply _ _ _).symm
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 16000 + 1 * p.val = win6_2.index t (0 : Fin 2) * 16000 + 1 * p.val; omega
    | ⟨1, _⟩ => show win6_0.index t (1 : Fin 2) * 64 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 64 + 1 * k.val = k.val; omega
    | ⟨1, _⟩ => show win6_1.index t (1 : Fin 2) * 64 + 1 * q.val = win6_2.index t (1 : Fin 2) * 64 + 1 * q.val; omega
  exact congrArg₂ (· * ·) (congrArg (V c (Pipeline.arrRef spec6 0)) h0) (congrArg (V c (Pipeline.arrRef spec6 1)) h1)

/-- An index of the array is in a point's block iff each coordinate is in the block's range. -/
theorem mem_blk (t : Fin cfg6.N) (i : S2000000x64.Idx) :
    i ∈ ((cfg6.win 2).blk t).view.set ↔ ∀ a : Fin 2, win6_2.index t a * S16000x64.size a ≤ (i a).val ∧ (i a).val < win6_2.index t a * S16000x64.size a + S16000x64.size a := by
  show i ∈ ((View.whole main_v92).slice (win6_2.rect t)).set ↔ _
  rw [View.set_slice_whole, Rect.mem_set_unit]
  exact Iff.rfl

/-- Every index of the output array is in the block of the point its row falls to. -/
theorem cover (i : S2000000x64.Idx) :
    ∃ t : Fin cfg6.N, (cfg6.win 2).flush t = true ∧ i ∈ ((cfg6.win 2).blk t).view.set := by
  have hi0 : (i 0).val < 2000000 := (i 0).isLt
  have hi1 : (i 1).val < 64 := (i 1).isLt
  have hN : cfg6.N = 125 := N_6
  let t : Fin cfg6.N := ⟨(i 0).val / 16000, by rw [hN]; omega⟩
  obtain ⟨e0, e1, e2, e3, e4, e5⟩ := idx_facts t
  have e4' : win6_2.index t (0 : Fin 2) = (i 0).val / 16000 := e4
  refine ⟨t, flush6_2 t, ?_⟩
  rw [mem_blk]
  intro a
  match a with
  | ⟨0, _⟩ => show win6_2.index t (0 : Fin 2) * 16000 ≤ (i 0).val ∧ (i 0).val < win6_2.index t (0 : Fin 2) * 16000 + 16000; omega
  | ⟨1, _⟩ => show win6_2.index t (1 : Fin 2) * 64 ≤ (i 1).val ∧ (i 1).val < win6_2.index t (1 : Fin 2) * 64 + 64; omega

/-- The output array after the region. -/
theorem arr (c : Dev nD) : (dat6 V c).arrAt 2 cfg6.N
    = G (V c (Pipeline.arrRef spec6 0)) (V c (Pipeline.arrRef spec6 1)) :=
  (dat6 V c).arrAt_eq_of_cover 2 _ (fun t _ => flushed_eq V c t) cover

end Cert.KernelIdeal.Lin6

end
-- ==== Proof.KComb7.lean ====
/-
  Region 7: the node update from an already weighted mean message, 10000 nodes to a grid point.

  A point's output block is, entry by entry, the mean message plus the bias plus the node's own features times the
  64 × 64 weight, rectified; node `r` lies in the block of point `r / 10000`, and these blocks tile the array.
-/
import proofs.«104275_j19928648254212_1_alg».proof.Proof.Gen.KernelIdeal.Frame
import proofs.«104275_j19928648254212_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Comb7

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- What the output array holds after the region, of the four arrays the region reads: the mean message, the bias
    row, the nodes' own features, the weight. -/
def G (a0 : S200000x64.Idx → EReal) (a1 : S1x64.Idx → EReal) (a2 : S200000x64.Idx → EReal) (a3 : S64x64.Idx → EReal) :
    S200000x64.Idx → EReal :=
  fun i => Cert.Sage.comb (n := 200000) (fun p j => a0 (ix2 p j)) (fun j => a1 (ix2 0 j)) (fun p k => a2 (ix2 p k))
    (fun k j => a3 (ix2 k j)) (i 0) (i 1)

theorem G_apply (a0 : S200000x64.Idx → EReal) (a1 : S1x64.Idx → EReal) (a2 : S200000x64.Idx → EReal) (a3 : S64x64.Idx → EReal)
    (i : S200000x64.Idx) :
    G a0 a1 a2 a3 i = max ((a0 (ix2 (i 0) (i 1)) + a1 (ix2 0 (i 1))) + ∑ k : Fin 64, a2 (ix2 (i 0) k) * a3 (ix2 k (i 1))) Cert.Sage.z0 := rfl

/-- The matrix unit's product of a 10000 × 64 block with a 64 × 64 matrix, into a zero accumulator, at an entry. -/
theorem matmul_at (x : FVec Ideal S10000x64 .bf16) (w : FVec Ideal S64x64 .bf16) (p : Fin 10000) (j : Fin 64) :
    matmul dot_S10000x64_S64x64_S10000x64_1_0_0_1_n_n none x w (constant (F := Ideal) S10000x64 .f32 0x00000000#32) (ix2 p j)
      = ∑ k : Fin 64, x (ix2 p k) * w (ix2 k j) := by
  refine (Ideal.matmul_constant_zero_apply dot_S10000x64_S64x64_S10000x64_1_0_0_1_n_n none x w (ix2 p j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun a => Fin.ext (by
      match a with
      | ⟨0, _⟩ =>
        show (dot_S10000x64_S64x64_S10000x64_1_0_0_1_n_n.lhsIdx (ix2 p j) _ 0).val = p.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 p j) _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 p j) _).trans hk
      | ⟨1, _⟩ =>
        show (dot_S10000x64_S64x64_S10000x64_1_0_0_1_n_n.rhsIdx (ix2 p j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- The bias row broadcast down the block, at an entry. -/
theorem bias_at (b : Vec Ideal S1x64 .f32) (p : Fin 10000) (j : Fin 64) :
    broadcastTo S10000x64 b broadcasts_S1x64_S10000x64 (ix2 p j) = b (ix2 0 j) :=
  broadcastTo_apply b broadcasts_S1x64_S10000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- The body's one stored value, at an entry of the block. -/
theorem pay_at (xd : Vec Ideal S10000x64 .f32) (w : Vec Ideal S64x64 .f32) (mean : Vec Ideal S10000x64 .f32)
    (b : Vec Ideal S1x64 .f32) (p : Fin 10000) (j : Fin 64) :
    k7_pay1 (F := Ideal) xd w mean b (ix2 p j)
      = max ((mean (ix2 p j) + b (ix2 0 j)) + ∑ k : Fin 64, xd (ix2 p k) * w (ix2 k j)) Cert.Sage.z0 := by
  unfold k7_pay1
  rw [shapeCast_self, shapeCast_self, shapeCast_self, shapeCast_self]
  have hm := matmul_at (truncf .bf16 xd bitsLt_bf16_f32) (truncf .bf16 w bitsLt_bf16_f32) p j
  have hb := bias_at b p j
  show max ((mean (ix2 p j) + broadcastTo S10000x64 b broadcasts_S1x64_S10000x64 (ix2 p j))
    + matmul dot_S10000x64_S64x64_S10000x64_1_0_0_1_n_n none (truncf .bf16 xd bitsLt_bf16_f32) (truncf .bf16 w bitsLt_bf16_f32) (constant (F := Ideal) S10000x64 .f32 0x00000000#32) (ix2 p j)) Cert.Sage.z0 = _
  rw [hm, hb]
  rfl

/-- The printed index maps over the grid: the mean's and the features' windows move with the output's, the bias's and
    the weight's stay. -/
theorem idx_facts : ∀ t : Fin cfg7.N, win7_0.index t (0 : Fin 2) = win7_4.index t (0 : Fin 2)
    ∧ win7_0.index t (1 : Fin 2) = 0 ∧ win7_1.index t (0 : Fin 2) = 0 ∧ win7_1.index t (1 : Fin 2) = 0
    ∧ win7_2.index t (0 : Fin 2) = win7_4.index t (0 : Fin 2) ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

set_option maxHeartbeats 2000000 in
/-- What a point writes back is its block of `G` of the arrays the region found. -/
theorem flushed_eq (c : Dev nD) (t : Fin cfg7.N) :
    (dat7 V c).flushed 4 t = ((cfg7.win 4).blk t).view.read (Elt Ideal)
      (G (V c (Pipeline.arrRef spec7 0)) (V c (Pipeline.arrRef spec7 1)) (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9⟩ := idx_facts t
  funext y
  obtain ⟨p, q, rfl⟩ : ∃ (p : Fin 10000) (q : Fin 64), y = ix2 p q := ⟨y 0, y 1, eq_ix2 y⟩
  refine (pay_at (iblk7 V c 2 t) (iblk7 V c 3 t) (iblk7 V c 0 t) (iblk7 V c 1 t) p q).trans ?_
  refine Eq.trans ?_ (G_apply _ _ _ _ _).symm
  have h0 : ((cfg7.win 0).blk t).view.emb (ix2 p q) = ix2 ((((cfg7.win 4).blk t).view.emb (ix2 p q)) 0) ((((cfg7.win 4).blk t).view.emb (ix2 p q)) 1) := by
    funext a; apply Fin.ext
    match a with
    | ⟨0, _⟩ => show win7_0.index t (0 : Fin 2) * 10000 + 1 * p.val = win7_4.index t (0 : Fin 2) * 10000 + 1 * p.val; omega
    | ⟨1, _⟩ => show win7_0.index t (1 : Fin 2) * 64 + 1 * q.val = win7_4.index t (1 : Fin 2) * 64 + 1 * q.val; omega
  have h1 : ((cfg7.win 1).blk t).view.emb (ix2 0 q) = ix2 0 ((((cfg7.win 4).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 64 + 1 * q.val = win7_4.index t (1 : Fin 2) * 64 + 1 * q.val; omega
  have h2 : ∀ k : Fin 64, ((cfg7.win 2).blk t).view.emb (ix2 p k) = ix2 ((((cfg7.win 4).blk t).view.emb (ix2 p q)) 0) k := fun k => by
    funext a; apply Fin.ext
    match a with
    | ⟨0, _⟩ => show win7_2.index t (0 : Fin 2) * 10000 + 1 * p.val = win7_4.index t (0 : Fin 2) * 10000 + 1 * p.val; omega
    | ⟨1, _⟩ => show win7_2.index t (1 : Fin 2) * 64 + 1 * k.val = k.val; omega
  have h3 : ∀ k : Fin 64, ((cfg7.win 3).blk t).view.emb (ix2 k q) = ix2 k ((((cfg7.win 4).blk t).view.emb (ix2 p q)) 1) := fun k => by
    funext a; apply Fin.ext
    match a with
    | ⟨0, _⟩ => show win7_3.index t (0 : Fin 2) * 64 + 1 * k.val = k.val; omega
    | ⟨1, _⟩ => show win7_3.index t (1 : Fin 2) * 64 + 1 * q.val = win7_4.index t (1 : Fin 2) * 64 + 1 * q.val; omega
  refine congrArg₂ max (congrArg₂ (· + ·) (congrArg₂ (· + ·) (congrArg (V c (Pipeline.arrRef spec7 0)) h0) (congrArg (V c (Pipeline.arrRef spec7 1)) h1)) ?_) rfl
  exact Finset.sum_congr rfl fun k _ => congrArg₂ (· * ·) (congrArg (V c (Pipeline.arrRef spec7 2)) (h2 k)) (congrArg (V c (Pipeline.arrRef spec7 3)) (h3 k))

/-- An index of the array is in a point's block iff each coordinate is in the block's range. -/
theorem mem_blk (t : Fin cfg7.N) (i : S200000x64.Idx) :
    i ∈ ((cfg7.win 4).blk t).view.set ↔ ∀ a : Fin 2, win7_4.index t a * S10000x64.size a ≤ (i a).val ∧ (i a).val < win7_4.index t a * S10000x64.size a + S10000x64.size a := by
  show i ∈ ((View.whole main_v99).slice (win7_4.rect t)).set ↔ _
  rw [View.set_slice_whole, Rect.mem_set_unit]
  exact Iff.rfl

/-- Every index of the output array is in the block of the point its row falls to. -/
theorem cover (i : S200000x64.Idx) :
    ∃ t : Fin cfg7.N, (cfg7.win 4).flush t = true ∧ i ∈ ((cfg7.win 4).blk t).view.set := by
  have hi0 : (i 0).val < 200000 := (i 0).isLt
  have hi1 : (i 1).val < 64 := (i 1).isLt
  have hN : cfg7.N = 20 := N_7
  let t : Fin cfg7.N := ⟨(i 0).val / 10000, by rw [hN]; omega⟩
  obtain ⟨e0, e1, e2, e3, e4, e5, e6, e7, e8, e9⟩ := idx_facts t
  have e8' : win7_4.index t (0 : Fin 2) = (i 0).val / 10000 := e8
  refine ⟨t, flush7_4 t, ?_⟩
  rw [mem_blk]
  intro a
  match a with
  | ⟨0, _⟩ => show win7_4.index t (0 : Fin 2) * 10000 ≤ (i 0).val ∧ (i 0).val < win7_4.index t (0 : Fin 2) * 10000 + 10000; omega
  | ⟨1, _⟩ => show win7_4.index t (1 : Fin 2) * 64 ≤ (i 1).val ∧ (i 1).val < win7_4.index t (1 : Fin 2) * 64 + 64; omega

/-- The output array after the region. -/
theorem arr (c : Dev nD) : (dat7 V c).arrAt 4 cfg7.N
    = G (V c (Pipeline.arrRef spec7 0)) (V c (Pipeline.arrRef spec7 1)) (V c (Pipeline.arrRef spec7 2)) (V c (Pipeline.arrRef spec7 3)) :=
  (dat7 V c).arrAt_eq_of_cover 4 _ (fun t _ => flushed_eq V c t) cover

end Cert.KernelIdeal.Comb7

end
-- ==== Proof.KWalk5.lean ====
/-
  The second layer's aggregation into the variable nodes (regions 6 and 7) against the reference, and the result.

  The second layer repeats the step on the first layer's outputs, with its own slices of the stacked weights; region 7's
  output array is the program's result. The two regions that follow compute the constraint nodes' second update, which
  nothing returns: they and the host operations around them leave the result's buffer alone.
-/
import proofs.«104275_j19928648254212_1_alg».proof.Proof.Gen.KernelIdeal.Frame
import proofs.«104275_j19928648254212_1_alg».proof.Proof.KWalk3
import proofs.«104275_j19928648254212_1_alg».proof.Proof.KWalk4
import proofs.«104275_j19928648254212_1_alg».proof.Proof.KLin6
import proofs.«104275_j19928648254212_1_alg».proof.Proof.KComb7
import proofs.«104275_j19928648254212_1_alg».proof.Proof.RefForm
import proofs.«104275_j19928648254212_1_alg».proof.Proof.AggLaw
import proofs.«104275_j19928648254212_1_alg».proof.Proof.SageLaw
import proofs.«104275_j19928648254212_1_alg».proof.Proof.RefReal
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

variable (m : (ℓ : Loc nD τ sig) → Buf (Elt Ideal) ℓ) (ρ : Dev nD → PrngReg) (c : Dev nD)

/-- Argument 18 is untouched up to boundary 12. -/
theorem arg18_at12 : W12 m ρ c (Proc.devRef .tc main_arg18) = A18 m c :=
  ((((((((((((W12_of_ne m ρ c main_arg18 (by decide)).trans (show W11 m ρ c (Proc.devRef .tc main_arg18) = W10 m ρ c (Proc.devRef .tc main_arg18) from by show StableHlo.after hostOps5 (W10 m ρ c) (Proc.devRef .tc main_arg18) = _; after_results; try rfl)).trans (W10_of_ne m ρ c main_arg18 (by decide))).trans (show W9 m ρ c (Proc.devRef .tc main_arg18) = W8 m ρ c (Proc.devRef .tc main_arg18) from by show StableHlo.after hostOps4 (W8 m ρ c) (Proc.devRef .tc main_arg18) = _; after_results; try rfl)).trans (W8_of_ne m ρ c main_arg18 (by decide))).trans (show W7 m ρ c (Proc.devRef .tc main_arg18) = W6 m ρ c (Proc.devRef .tc main_arg18) from by show StableHlo.after hostOps3 (W6 m ρ c) (Proc.devRef .tc main_arg18) = _; after_results; try rfl)).trans (W6_of_ne m ρ c main_arg18 (by decide))).trans (show W5 m ρ c (Proc.devRef .tc main_arg18) = W4 m ρ c (Proc.devRef .tc main_arg18) from by show StableHlo.after hostOps2 (W4 m ρ c) (Proc.devRef .tc main_arg18) = _; after_results; try rfl)).trans (W4_of_ne m ρ c main_arg18 (by decide))).trans (show W3 m ρ c (Proc.devRef .tc main_arg18) = W2 m ρ c (Proc.devRef .tc main_arg18) from by show StableHlo.after hostOps1 (W2 m ρ c) (Proc.devRef .tc main_arg18) = _; after_results; try rfl)).trans (W2_of_ne m ρ c main_arg18 (by decide))).trans (show W1 m ρ c (Proc.devRef .tc main_arg18) = W0 m ρ c (Proc.devRef .tc main_arg18) from by show StableHlo.after hostOps0 (W0 m ρ c) (Proc.devRef .tc main_arg18) = _; after_results; try rfl))

/-- Argument 19 is untouched up to boundary 12. -/
theorem arg19_at12 : W12 m ρ c (Proc.devRef .tc main_arg19) = A19 m c :=
  ((((((((((((W12_of_ne m ρ c main_arg19 (by decide)).trans (show W11 m ρ c (Proc.devRef .tc main_arg19) = W10 m ρ c (Proc.devRef .tc main_arg19) from by show StableHlo.after hostOps5 (W10 m ρ c) (Proc.devRef .tc main_arg19) = _; after_results; try rfl)).trans (W10_of_ne m ρ c main_arg19 (by decide))).trans (show W9 m ρ c (Proc.devRef .tc main_arg19) = W8 m ρ c (Proc.devRef .tc main_arg19) from by show StableHlo.after hostOps4 (W8 m ρ c) (Proc.devRef .tc main_arg19) = _; after_results; try rfl)).trans (W8_of_ne m ρ c main_arg19 (by decide))).trans (show W7 m ρ c (Proc.devRef .tc main_arg19) = W6 m ρ c (Proc.devRef .tc main_arg19) from by show StableHlo.after hostOps3 (W6 m ρ c) (Proc.devRef .tc main_arg19) = _; after_results; try rfl)).trans (W6_of_ne m ρ c main_arg19 (by decide))).trans (show W5 m ρ c (Proc.devRef .tc main_arg19) = W4 m ρ c (Proc.devRef .tc main_arg19) from by show StableHlo.after hostOps2 (W4 m ρ c) (Proc.devRef .tc main_arg19) = _; after_results; try rfl)).trans (W4_of_ne m ρ c main_arg19 (by decide))).trans (show W3 m ρ c (Proc.devRef .tc main_arg19) = W2 m ρ c (Proc.devRef .tc main_arg19) from by show StableHlo.after hostOps1 (W2 m ρ c) (Proc.devRef .tc main_arg19) = _; after_results; try rfl)).trans (W2_of_ne m ρ c main_arg19 (by decide))).trans (show W1 m ρ c (Proc.devRef .tc main_arg19) = W0 m ρ c (Proc.devRef .tc main_arg19) from by show StableHlo.after hostOps0 (W0 m ρ c) (Proc.devRef .tc main_arg19) = _; after_results; try rfl))

/-- Argument 20 is untouched up to boundary 12. -/
theorem arg20_at12 : W12 m ρ c (Proc.devRef .tc main_arg20) = A20 m c :=
  ((((((((((((W12_of_ne m ρ c main_arg20 (by decide)).trans (show W11 m ρ c (Proc.devRef .tc main_arg20) = W10 m ρ c (Proc.devRef .tc main_arg20) from by show StableHlo.after hostOps5 (W10 m ρ c) (Proc.devRef .tc main_arg20) = _; after_results; try rfl)).trans (W10_of_ne m ρ c main_arg20 (by decide))).trans (show W9 m ρ c (Proc.devRef .tc main_arg20) = W8 m ρ c (Proc.devRef .tc main_arg20) from by show StableHlo.after hostOps4 (W8 m ρ c) (Proc.devRef .tc main_arg20) = _; after_results; try rfl)).trans (W8_of_ne m ρ c main_arg20 (by decide))).trans (show W7 m ρ c (Proc.devRef .tc main_arg20) = W6 m ρ c (Proc.devRef .tc main_arg20) from by show StableHlo.after hostOps3 (W6 m ρ c) (Proc.devRef .tc main_arg20) = _; after_results; try rfl)).trans (W6_of_ne m ρ c main_arg20 (by decide))).trans (show W5 m ρ c (Proc.devRef .tc main_arg20) = W4 m ρ c (Proc.devRef .tc main_arg20) from by show StableHlo.after hostOps2 (W4 m ρ c) (Proc.devRef .tc main_arg20) = _; after_results; try rfl)).trans (W4_of_ne m ρ c main_arg20 (by decide))).trans (show W3 m ρ c (Proc.devRef .tc main_arg20) = W2 m ρ c (Proc.devRef .tc main_arg20) from by show StableHlo.after hostOps1 (W2 m ρ c) (Proc.devRef .tc main_arg20) = _; after_results; try rfl)).trans (W2_of_ne m ρ c main_arg20 (by decide))).trans (show W1 m ρ c (Proc.devRef .tc main_arg20) = W0 m ρ c (Proc.devRef .tc main_arg20) from by show StableHlo.after hostOps0 (W0 m ρ c) (Proc.devRef .tc main_arg20) = _; after_results; try rfl))

/-- The clamped edge count of the variable nodes is computed again by the second layer: the same value. -/
theorem cm127 (m : (ℓ : Loc nD τ sig) → Buf (Elt Ideal) ℓ) (c : Dev nD) :
    Cert.ReferenceIdeal.Read.val_main_v63 (F := Ideal) (A3 m c) = Cert.ReferenceIdeal.Read.val_main_v127 (F := Ideal) (A3 m c) := rfl

set_option maxHeartbeats 4000000 in
/-- The second layer's message weight towards the variable nodes. -/
theorem wl_v13 : W13 m ρ c (Proc.devRef .tc main_v74) = Cert.ReferenceIdeal.Read.val_main_v107 (F := Ideal) (A18 m c) := by
  show StableHlo.after hostOps6 (W12 m ρ c) (Proc.devRef .tc main_v74) = _
  after_results
  rw [arg18_at12]
  rfl

set_option maxHeartbeats 4000000 in
/-- The second layer's bias towards the variable nodes. -/
theorem b_v13 : W13 m ρ c (Proc.devRef .tc main_v76) = Cert.ReferenceIdeal.Read.val_main_v109 (F := Ideal) (A19 m c) := by
  show StableHlo.after hostOps6 (W12 m ρ c) (Proc.devRef .tc main_v76) = _
  after_results
  rw [arg19_at12]
  rfl

set_option maxHeartbeats 4000000 in
/-- The second layer's self weight of the variable nodes. -/
theorem wr_v13 : W13 m ρ c (Proc.devRef .tc main_v78) = Cert.ReferenceIdeal.Read.val_main_v111 (F := Ideal) (A20 m c) := by
  show StableHlo.after hostOps6 (W12 m ρ c) (Proc.devRef .tc main_v78) = _
  after_results
  rw [arg20_at12]
  rfl

set_option maxHeartbeats 4000000 in
/-- The constraint nodes' updated features gathered along the edges. -/
theorem ga_v13 (hX15 : ∀ i, Cert.Sage.IsReal ((Cert.ReferenceIdeal.Read.val_main_v15 (F := Ideal) (A0 m c) (A4 m c) (A5 m c) (A6 m c) (A7 m c) (A8 m c) (A9 m c)) i)) (hW43 : ∀ i, Cert.Sage.IsReal ((Cert.ReferenceIdeal.Read.val_main_v43 (F := Ideal) (A18 m c)) i)) (hX31 : ∀ i, Cert.Sage.IsReal ((Cert.ReferenceIdeal.Read.val_main_v31 (F := Ideal) (A1 m c) (A10 m c) (A11 m c) (A12 m c) (A13 m c) (A14 m c) (A15 m c)) i)) (hW74 : ∀ i, Cert.Sage.IsReal ((Cert.ReferenceIdeal.Read.val_main_v74 (F := Ideal) (A18 m c)) i)) : W13 m ρ c (Proc.devRef .tc main_v91) = Cert.ReferenceIdeal.Read.val_main_v118 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) := by
  show StableHlo.after hostOps6 (W12 m ρ c) (Proc.devRef .tc main_v91) = _
  after_results
  rw [show W12 m ρ c (Proc.devRef .tc main_v11) = _ from ((((((((W12_of_ne m ρ c main_v11 (by decide)).trans (show W11 m ρ c (Proc.devRef .tc main_v11) = W10 m ρ c (Proc.devRef .tc main_v11) from by show StableHlo.after hostOps5 (W10 m ρ c) (Proc.devRef .tc main_v11) = _; after_results; try rfl)).trans (W10_of_ne m ρ c main_v11 (by decide))).trans (show W9 m ρ c (Proc.devRef .tc main_v11) = W8 m ρ c (Proc.devRef .tc main_v11) from by show StableHlo.after hostOps4 (W8 m ρ c) (Proc.devRef .tc main_v11) = _; after_results; try rfl)).trans (W8_of_ne m ρ c main_v11 (by decide))).trans (show W7 m ρ c (Proc.devRef .tc main_v11) = W6 m ρ c (Proc.devRef .tc main_v11) from by show StableHlo.after hostOps3 (W6 m ρ c) (Proc.devRef .tc main_v11) = _; after_results; try rfl)).trans (W6_of_ne m ρ c main_v11 (by decide)))).trans (src5 m ρ c), show W12 m ρ c (Proc.devRef .tc main_v72) = _ from e4 m ρ c hX31 hW74]
  rfl

/-- The linear region's output: the gathered rows times the message weight. -/
theorem v1_lin (hX15 : ∀ i, Cert.Sage.IsReal ((Cert.ReferenceIdeal.Read.val_main_v15 (F := Ideal) (A0 m c) (A4 m c) (A5 m c) (A6 m c) (A7 m c) (A8 m c) (A9 m c)) i)) (hW43 : ∀ i, Cert.Sage.IsReal ((Cert.ReferenceIdeal.Read.val_main_v43 (F := Ideal) (A18 m c)) i)) (hX31 : ∀ i, Cert.Sage.IsReal ((Cert.ReferenceIdeal.Read.val_main_v31 (F := Ideal) (A1 m c) (A10 m c) (A11 m c) (A12 m c) (A13 m c) (A14 m c) (A15 m c)) i)) (hW74 : ∀ i, Cert.Sage.IsReal ((Cert.ReferenceIdeal.Read.val_main_v74 (F := Ideal) (A18 m c)) i)) : W14 m ρ c (Proc.devRef .tc main_v92)
    = Cert.KernelIdeal.Lin6.G (Cert.ReferenceIdeal.Read.val_main_v118 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)) (Cert.ReferenceIdeal.Read.val_main_v107 (F := Ideal) (A18 m c)) :=
  (W14_arr m ρ c 2).trans ((Cert.KernelIdeal.Lin6.arr (V13 m ρ) c).trans (by
    rw [show V13 m ρ c (Pipeline.arrRef spec6 0) = _ from ga_v13 m ρ c hX15 hW43 hX31 hW74, show V13 m ρ c (Pipeline.arrRef spec6 1) = _ from wl_v13 m ρ c]))

set_option maxHeartbeats 4000000 in
/-- The mean message the combine region reads: the scatter-added weighted rows times the reciprocal count. -/
theorem v1_mean (hX15 : ∀ i, Cert.Sage.IsReal ((Cert.ReferenceIdeal.Read.val_main_v15 (F := Ideal) (A0 m c) (A4 m c) (A5 m c) (A6 m c) (A7 m c) (A8 m c) (A9 m c)) i)) (hW43 : ∀ i, Cert.Sage.IsReal ((Cert.ReferenceIdeal.Read.val_main_v43 (F := Ideal) (A18 m c)) i)) (hX31 : ∀ i, Cert.Sage.IsReal ((Cert.ReferenceIdeal.Read.val_main_v31 (F := Ideal) (A1 m c) (A10 m c) (A11 m c) (A12 m c) (A13 m c) (A14 m c) (A15 m c)) i)) (hW74 : ∀ i, Cert.Sage.IsReal ((Cert.ReferenceIdeal.Read.val_main_v74 (F := Ideal) (A18 m c)) i)) : W15 m ρ c (Proc.devRef .tc main_v97)
    = mulf (Host.scatterAdd scatter_S200000x64_S2000000x1_S2000000x64_1_0_0_1
        (broadcastInDim S200000x64 ![] bcast_S_S200000x64 (constant (F := Ideal) S_ .f32 0x00000000#32))
        (broadcastInDim S2000000x1 ![0] bcast_S2000000_S2000000x1_0 (Cert.ReferenceIdeal.Read.val_main_v41 (F := Ideal) (A3 m c)))
        (Cert.KernelIdeal.Lin6.G (Cert.ReferenceIdeal.Read.val_main_v118 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)) (Cert.ReferenceIdeal.Read.val_main_v107 (F := Ideal) (A18 m c))))
      (broadcastInDim S200000x64 ![0, 1] bcast_S200000x1_S200000x64_0_1
        (broadcastInDim S200000x1 ![0] bcast_S200000_S200000x1_0
          (Host.divf (broadcastInDim S200000 ![] bcast_S_S200000 (constant (F := Ideal) S_ .f32 0x3F800000#32)) (Cert.ReferenceIdeal.Read.val_main_v127 (F := Ideal) (A3 m c))))) := by
  show StableHlo.after hostOps7 (W14 m ρ c) (Proc.devRef .tc main_v97) = _
  after_results
  rw [show W14 m ρ c (Proc.devRef .tc main_v13) = _ from ((((((((((W14_of_ne m ρ c main_v13 (by decide)).trans (show W13 m ρ c (Proc.devRef .tc main_v13) = W12 m ρ c (Proc.devRef .tc main_v13) from by show StableHlo.after hostOps6 (W12 m ρ c) (Proc.devRef .tc main_v13) = _; after_results; try rfl)).trans (W12_of_ne m ρ c main_v13 (by decide))).trans (show W11 m ρ c (Proc.devRef .tc main_v13) = W10 m ρ c (Proc.devRef .tc main_v13) from by show StableHlo.after hostOps5 (W10 m ρ c) (Proc.devRef .tc main_v13) = _; after_results; try rfl)).trans (W10_of_ne m ρ c main_v13 (by decide))).trans (show W9 m ρ c (Proc.devRef .tc main_v13) = W8 m ρ c (Proc.devRef .tc main_v13) from by show StableHlo.after hostOps4 (W8 m ρ c) (Proc.devRef .tc main_v13) = _; after_results; try rfl)).trans (W8_of_ne m ρ c main_v13 (by decide))).trans (show W7 m ρ c (Proc.devRef .tc main_v13) = W6 m ρ c (Proc.devRef .tc main_v13) from by show StableHlo.after hostOps3 (W6 m ρ c) (Proc.devRef .tc main_v13) = _; after_results; try rfl)).trans (W6_of_ne m ρ c main_v13 (by decide)))).trans (dst5 m ρ c), v1_lin m ρ c hX15 hW43 hX31 hW74,
    show W14 m ρ c (Proc.devRef .tc main_v25) = _ from (((((((((((W14_of_ne m ρ c main_v25 (by decide)).trans (show W13 m ρ c (Proc.devRef .tc main_v25) = W12 m ρ c (Proc.devRef .tc main_v25) from by show StableHlo.after hostOps6 (W12 m ρ c) (Proc.devRef .tc main_v25) = _; after_results; try rfl)).trans (W12_of_ne m ρ c main_v25 (by decide))).trans (show W11 m ρ c (Proc.devRef .tc main_v25) = W10 m ρ c (Proc.devRef .tc main_v25) from by show StableHlo.after hostOps5 (W10 m ρ c) (Proc.devRef .tc main_v25) = _; after_results; try rfl)).trans (W10_of_ne m ρ c main_v25 (by decide))).trans (show W9 m ρ c (Proc.devRef .tc main_v25) = W8 m ρ c (Proc.devRef .tc main_v25) from by show StableHlo.after hostOps4 (W8 m ρ c) (Proc.devRef .tc main_v25) = _; after_results; try rfl)).trans (W8_of_ne m ρ c main_v25 (by decide))).trans (show W7 m ρ c (Proc.devRef .tc main_v25) = W6 m ρ c (Proc.devRef .tc main_v25) from by show StableHlo.after hostOps3 (W6 m ρ c) (Proc.devRef .tc main_v25) = _; after_results; try rfl)).trans (W6_of_ne m ρ c main_v25 (by decide)))).trans (inv_v5 m ρ c)).trans (by rw [cm127 m c])]

set_option maxHeartbeats 4000000 in
/-- The bias the combine region reads, as a one-row matrix. -/
theorem v1_bias : W15 m ρ c (Proc.devRef .tc main_v98)
    = shapeCast S1x64 (Cert.ReferenceIdeal.Read.val_main_v109 (F := Ideal) (A19 m c)) shapeCasts_S64_S1x64 := by
  show StableHlo.after hostOps7 (W14 m ρ c) (Proc.devRef .tc main_v98) = _
  after_results
  rw [show W14 m ρ c (Proc.devRef .tc main_v76) = _ from ((W14_of_ne m ρ c main_v76 (by decide))).trans (b_v13 m ρ c)]
  rfl

set_option maxHeartbeats 4000000 in
/-- After the combine region the output array is the reference's updated node features. -/
theorem e5 (hX15 : ∀ i, Cert.Sage.IsReal ((Cert.ReferenceIdeal.Read.val_main_v15 (F := Ideal) (A0 m c) (A4 m c) (A5 m c) (A6 m c) (A7 m c) (A8 m c) (A9 m c)) i)) (hW43 : ∀ i, Cert.Sage.IsReal ((Cert.ReferenceIdeal.Read.val_main_v43 (F := Ideal) (A18 m c)) i)) (hX31 : ∀ i, Cert.Sage.IsReal ((Cert.ReferenceIdeal.Read.val_main_v31 (F := Ideal) (A1 m c) (A10 m c) (A11 m c) (A12 m c) (A13 m c) (A14 m c) (A15 m c)) i)) (hW74 : ∀ i, Cert.Sage.IsReal ((Cert.ReferenceIdeal.Read.val_main_v74 (F := Ideal) (A18 m c)) i)) (hX104 : ∀ i, Cert.Sage.IsReal ((Cert.ReferenceIdeal.Read.val_main_v104 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)) i)) (hW107 : ∀ i, Cert.Sage.IsReal ((Cert.ReferenceIdeal.Read.val_main_v107 (F := Ideal) (A18 m c)) i)) : W16 m ρ c (Proc.devRef .tc main_v99)
    = Cert.ReferenceIdeal.Read.val_main_v169 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) := by
  have hR : Cert.ReferenceIdeal.Read.val_main_v169 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)
      = fun i => Cert.Sage.sage (n := 200000) (fun p k => Ideal.div (Cert.ReferenceIdeal.Read.val_main_v121 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) (ix2 p k)) (Cert.ReferenceIdeal.Read.val_main_v127 (F := Ideal) (A3 m c) (ix1 p)))
          (fun k j => Cert.ReferenceIdeal.Read.val_main_v107 (F := Ideal) (A18 m c) (ix2 k j)) (fun j => Cert.ReferenceIdeal.Read.val_main_v109 (F := Ideal) (A19 m c) (ix1 j)) (fun p k => Cert.ReferenceIdeal.Read.val_main_v105 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) (ix2 p k)) (fun k j => Cert.ReferenceIdeal.Read.val_main_v111 (F := Ideal) (A20 m c) (ix2 k j)) (i 0) (i 1) :=
    Cert.ReferenceIdeal.RefForm.step_v _ _ _ _ _ _
  rw [hR]
  refine (W16_arr m ρ c 4).trans ?_
  rw [Cert.KernelIdeal.Comb7.arr]
  rw [show V15 m ρ c (Pipeline.arrRef spec7 0) = _ from v1_mean m ρ c hX15 hW43 hX31 hW74,
    show V15 m ρ c (Pipeline.arrRef spec7 1) = _ from v1_bias m ρ c,
    show V15 m ρ c (Pipeline.arrRef spec7 2) = _ from ((((((((show W15 m ρ c (Proc.devRef .tc main_v57) = W14 m ρ c (Proc.devRef .tc main_v57) from by show StableHlo.after hostOps7 (W14 m ρ c) (Proc.devRef .tc main_v57) = _; after_results; try rfl).trans (W14_of_ne m ρ c main_v57 (by decide))).trans (show W13 m ρ c (Proc.devRef .tc main_v57) = W12 m ρ c (Proc.devRef .tc main_v57) from by show StableHlo.after hostOps6 (W12 m ρ c) (Proc.devRef .tc main_v57) = _; after_results; try rfl)).trans (W12_of_ne m ρ c main_v57 (by decide))).trans (show W11 m ρ c (Proc.devRef .tc main_v57) = W10 m ρ c (Proc.devRef .tc main_v57) from by show StableHlo.after hostOps5 (W10 m ρ c) (Proc.devRef .tc main_v57) = _; after_results; try rfl)).trans (W10_of_ne m ρ c main_v57 (by decide))).trans (show W9 m ρ c (Proc.devRef .tc main_v57) = W8 m ρ c (Proc.devRef .tc main_v57) from by show StableHlo.after hostOps4 (W8 m ρ c) (Proc.devRef .tc main_v57) = _; after_results; try rfl))).trans (e3 m ρ c hX15 hW43),
    show V15 m ρ c (Pipeline.arrRef spec7 3) = _ from (((show W15 m ρ c (Proc.devRef .tc main_v78) = W14 m ρ c (Proc.devRef .tc main_v78) from by show StableHlo.after hostOps7 (W14 m ρ c) (Proc.devRef .tc main_v78) = _; after_results; try rfl).trans (W14_of_ne m ρ c main_v78 (by decide)))).trans (wr_v13 m ρ c)]
  unfold Cert.KernelIdeal.Comb7.G Cert.KernelIdeal.Lin6.G
  have hb : (fun j : Fin 64 => shapeCast S1x64 (Cert.ReferenceIdeal.Read.val_main_v109 (F := Ideal) (A19 m c)) shapeCasts_S64_S1x64 (ix2 0 j)) = fun j => Cert.ReferenceIdeal.Read.val_main_v109 (F := Ideal) (A19 m c) (ix1 j) :=
    funext fun j => shapeCast_row _ _ j
  rw [hb]
  have key := Cert.Agg.agg_v (Cert.ReferenceIdeal.Read.val_main_v118 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c)) (broadcastInDim S2000000x1 ![0] bcast_S2000000_S2000000x1_0 (Cert.ReferenceIdeal.Read.val_main_v41 (F := Ideal) (A3 m c))) (Cert.ReferenceIdeal.Read.val_main_v127 (F := Ideal) (A3 m c))
    (fun k j => Cert.ReferenceIdeal.Read.val_main_v107 (F := Ideal) (A18 m c) (ix2 k j)) (fun k j => Cert.ReferenceIdeal.Read.val_main_v111 (F := Ideal) (A20 m c) (ix2 k j)) (fun j => Cert.ReferenceIdeal.Read.val_main_v109 (F := Ideal) (A19 m c) (ix1 j)) (fun p k => Cert.ReferenceIdeal.Read.val_main_v105 (F := Ideal) (A0 m c) (A1 m c) (A3 m c) (A4 m c) (A5 m c) (A6 m c) (A7 m c) (A8 m c) (A9 m c) (A10 m c) (A11 m c) (A12 m c) (A13 m c) (A14 m c) (A15 m c) (A18 m c) (A19 m c) (A20 m c) (ix2 p k))
    (fun i => Cert.Sage.gather_real _ _ _ hX104 i) (fun k j => hW107 (ix2 k j)) (fun p => (cm127 m c) ▸ Cert.ReferenceIdeal.RefReal.v63_count _ (ix1 p))
  funext i
  exact congrFun (congrFun key (i 0)) (i 1)

/-- The result's buffer is left alone by everything after region 7. -/
theorem result_kept : W20 m ρ c (Proc.devRef .tc main_v99) = W16 m ρ c (Proc.devRef .tc main_v99) :=
  ((((W20_of_ne m ρ c main_v99 (by decide)).trans (show W19 m ρ c (Proc.devRef .tc main_v99) = W18 m ρ c (Proc.devRef .tc main_v99) from by show StableHlo.after hostOps9 (W18 m ρ c) (Proc.devRef .tc main_v99) = _; after_results; try rfl)).trans (W18_of_ne m ρ c main_v99 (by decide))).trans (show W17 m ρ c (Proc.devRef .tc main_v99) = W16 m ρ c (Proc.devRef .tc main_v99) from by show StableHlo.after hostOps8 (W16 m ρ c) (Proc.devRef .tc main_v99) = _; after_results; try rfl))

end Cert.KernelIdeal.Walk

end
-- ==== Proof.PreReal.lean ====
/-
  The precondition decoded: every entry of every float argument array is a real number.

  The precondition is a conjunction, over the float arguments, of "every entry has absolute value below +∞", each
  conjunct a reduction by `and` over all axes of the entrywise comparison. A conjunction of one-bit words that is 1 has
  every conjunct 1; a reduction by `and` that is 1 met only 1s; and an extended real x with max x (-x) < ⊤ is neither
  ⊤ nor ⊥, so it is a real number.
-/
import proofs.«104275_j19928648254212_1_alg».proof.Proof.Gen.Pre_finite_inputs
import proofs.«104275_j19928648254212_1_alg».proof.Proof.Spec
import Idealize.ShloMosaic.Lib.ReduceAll
import Idealize.ShloMosaic.Lib.ValueIdx

noncomputable section

namespace Cert.PreReal

open Idealize.ShloMosaic Cert.Pre_finite_inputs Cert.Sage

/-- The rank-0 shape has one index. -/
instance subsingleton_S_ : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (-x) compares below +∞ is a real number. -/
theorem isReal_of_abs_lt_inf (x : Ideal .f32)
    (h : FloatOps.cmpf (F := Ideal) .olt (FloatOps.hostAbsf (F := Ideal) x)
      (FloatOps.ofBits (F := Ideal) .f32 0x7F800000#32) = 1#1) : IsReal x := by
  have h' : Ideal.cmp .olt (max (x : EReal) (-(x : EReal))) (Ideal.ofBits .f32 0x7F800000#32) = 1#1 := h
  rw [inf_eq_top] at h'
  unfold Ideal.cmp at h'
  have hlt : max (x : EReal) (-(x : EReal)) < ⊤ := by
    by_contra hn
    simp [hn] at h'
  rw [max_lt_iff] at hlt
  obtain ⟨h1, h2⟩ := hlt
  induction x using EReal.rec with
  | bot => simp at h2
  | coe r => exact ⟨r, rfl⟩
  | top => simp at h1

/-- One conjunct of the precondition, over any shape: if the reduction by `and`, over all axes, of the entrywise
    comparison |a| < +∞ is 1, every entry of a is a real number. -/
theorem all_isReal {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ValueIdx.ix0 = 1#1) (i : s.Idx) : IsReal (a i) :=
  isReal_of_abs_lt_inf (a i) (Host.reduce_andi_all _ _ hr hu ValueIdx.ix0 h i)

/-- THE PRECONDITION DECODED: if `finite_inputs` of the argument arrays is 1, every entry of every float argument the
    programs use is a real number. -/
theorem all_real [Cert.Pre_finite_inputs.Facts]
    (a0 : FVec Ideal S100000x5 .f32) (a1 : FVec Ideal S200000x19 .f32) (a2 : FVec Ideal S2000000x1 .f32)
    (a3 : IVec S2x2000000 32) (a4 : FVec Ideal S5 .f32) (a5 : FVec Ideal S5 .f32) (a6 : FVec Ideal S5x64 .f32)
    (a7 : FVec Ideal S64 .f32) (a8 : FVec Ideal S64x64 .f32) (a9 : FVec Ideal S64 .f32) (a10 : FVec Ideal S19 .f32)
    (a11 : FVec Ideal S19 .f32) (a12 : FVec Ideal S19x64 .f32) (a13 : FVec Ideal S64 .f32)
    (a14 : FVec Ideal S64x64 .f32) (a15 : FVec Ideal S64 .f32) (a16 : FVec Ideal S1 .f32) (a17 : FVec Ideal S1 .f32)
    (a18 : FVec Ideal S2x2x64x64 .f32) (a19 : FVec Ideal S2x2x64 .f32) (a20 : FVec Ideal S2x2x64x64 .f32)
    (h : Cert.Pre_finite_inputs.fn (F := Ideal) a0 a1 a2 a3 a4 a5 a6 a7 a8 a9 a10 a11 a12 a13 a14 a15 a16 a17 a18 a19 a20
      = (fun _ => 1#1)) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i))
      ∧ (∀ i, IsReal (a15 i)) ∧ (∀ i, IsReal (a18 i)) ∧ (∀ i, IsReal (a19 i)) ∧ (∀ i, IsReal (a20 i)) := by
  have e := congrFun h ValueIdx.ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨⟨⟨h0, h1⟩, h2⟩, h4⟩, h5⟩, h6⟩, h7⟩, h8⟩, h9⟩, h10⟩, h11⟩, h12⟩, h13⟩, h14⟩, h15⟩, h16⟩, h17⟩,
    h18⟩, h19⟩, h20⟩ := e
  exact ⟨all_isReal a0 _ _ _ h0, all_isReal a1 _ _ _ h1, all_isReal a4 _ _ _ h4, all_isReal a5 _ _ _ h5,
    all_isReal a6 _ _ _ h6, all_isReal a7 _ _ _ h7, all_isReal a8 _ _ _ h8, all_isReal a9 _ _ _ h9,
    all_isReal a10 _ _ _ h10, all_isReal a11 _ _ _ h11, all_isReal a12 _ _ _ h12, all_isReal a13 _ _ _ h13,
    all_isReal a14 _ _ _ h14, all_isReal a15 _ _ _ h15, all_isReal a18 _ _ _ h18, all_isReal a19 _ _ _ h19,
    all_isReal a20 _ _ _ h20⟩

end Cert.PreReal

end
-- ==== Proof.lean ====
/-
  The claims of the certificate, assembled.

  Both programs compute a two-layer message-passing network on a bipartite graph. The kernel applies each layer's message
  weight to the gathered rows BEFORE they are summed per node and multiplies the sum by the reciprocal of the clamped
  edge count; the reference averages the raw gathered rows first and applies the weight after. Every float input is
  finite, so every intermediate entry is a real number, and on real numbers the two orders agree: a finite sum commutes
  with a linear map, and dividing by a nonzero real is multiplying by its reciprocal.

  The three frames are the generated ones (the reference's from its generated run); nothing was rewritten by the
  idealization, so its soundness conjunct is trivial; the value claim runs the kernel's ten regions to the last boundary,
  reads the result's buffer back through the two layers (one module per stage), and reads the reference's result off its
  generated run.
-/
import proofs.«104275_j19928648254212_1_alg».proof.Defs
import proofs.«104275_j19928648254212_1_alg».proof.Proof.Gen.Kernel
import proofs.«104275_j19928648254212_1_alg».proof.Proof.Gen.Kernel.Frame
import proofs.«104275_j19928648254212_1_alg».proof.Proof.Gen.KernelIdeal
import proofs.«104275_j19928648254212_1_alg».proof.Proof.Gen.KernelIdeal.Frame
import proofs.«104275_j19928648254212_1_alg».proof.Proof.Gen.ReferenceIdeal
import proofs.«104275_j19928648254212_1_alg».proof.Proof.Gen.ReferenceIdeal.Run
import proofs.«104275_j19928648254212_1_alg».proof.Proof.Gen.ReferenceIdeal.Read
import proofs.«104275_j19928648254212_1_alg».proof.Proof.Gen.Pre_finite_inputs
import proofs.«104275_j19928648254212_1_alg».proof.Proof.KRun
import proofs.«104275_j19928648254212_1_alg».proof.Proof.KWalk5
import proofs.«104275_j19928648254212_1_alg».proof.Proof.PreReal
import proofs.«104275_j19928648254212_1_alg».proof.Proof.RefReal
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

set_option maxHeartbeats 4000000 in
/-- The kernel's result buffer at the last boundary holds the reference's result term of the launch arguments. -/
theorem kernel_result (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W20 m ρ c (Proc.devRef .tc Cert.KernelIdeal.main_v99)
      = Cert.ReferenceIdeal.Read.val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  obtain ⟨r0, r1, r4, r5, r6, r7, r8, r9, r10, r11, r12, r13, r14, r15, r18, r19, r20⟩ :=
    Cert.PreReal.all_real _ _ _ _ _ _ _ _ _ _ _ _ _ _ _ _ _ _ _ _ _ (hpre c)
  have hX15 := fun i => Cert.ReferenceIdeal.RefReal.v15_real _ _ _ _ _ _ _ r0 r4 r5 r6 r7 r8 r9 i
  have hW43 := fun i => Cert.ReferenceIdeal.RefReal.v43_real _ r18 i
  have hX31 := fun i => Cert.ReferenceIdeal.RefReal.v31_real _ _ _ _ _ _ _ r1 r10 r11 r12 r13 r14 r15 i
  have hW74 := fun i => Cert.ReferenceIdeal.RefReal.v74_real _ r18 i
  have hX104 := fun i => Cert.ReferenceIdeal.RefReal.v104_real _ _ (m ((c.tc : Thread Cert.KernelIdeal.nD Cert.KernelIdeal.τ).loc Cert.KernelIdeal.main_arg3)) _ _ _ _ _ _ _ _ _ _ _ _ _ _ _ r0 r4 r5 r6 r7 r8 r9 r1 r10 r11 r12 r13 r14 r15 r18 r19 r20 i
  have hW107 := fun i => Cert.ReferenceIdeal.RefReal.v107_real _ r18 i
  exact (Cert.KernelIdeal.Walk.result_kept m ρ c).trans (Cert.KernelIdeal.Walk.e5 m ρ c hX15 hW43 hX31 hW74 hX104 hW107)

set_option maxHeartbeats 4000000 in
theorem algebraic : Cert.algebraic_KernelIdeal_ReferenceIdeal := by
  intro m ρ m' ρ' hpre hagree
  refine ⟨fun c => Cert.ReferenceIdeal.Read.val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun r h c => ⟨(h c).1.trans (kernel_result m ρ hpre c), (h c).2⟩)
      (Cert.KernelIdeal.Run.run_value m ρ)
  · refine (θ_run Cert.ReferenceIdeal.defs _ _).mono (fun r h c => ⟨?_, (h c).2⟩)
      (Cert.ReferenceIdeal.Value.run (F := Ideal) m' ρ')
    obtain ⟨g0, g1, g2, g3, g4, g5, g6, g7, g8, g9, g10, g11, g12, g13, g14, g15, g16, g17, g18, g19, g20⟩ := hagree c
    rw [(h c).1, Cert.ReferenceIdeal.Read.val_main_v169_eq, g0, g1, g3, g4, g5, g6, g7, g8, g9, g10, g11, g12, g13, g14, g15, g18, g19, g20]

end Claims

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
